-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x74 : Shape := ⟨2, ![100000, 74]⟩
abbrev S74x64 : Shape := ⟨2, ![74, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S64x1 : Shape := ⟨2, ![64, 1]⟩
abbrev S1 : Shape := ⟨1, ![1]⟩
abbrev S2x1200000 : Shape := ⟨2, ![2, 1200000]⟩
abbrev S100000 : Shape := ⟨1, ![100000]⟩
abbrev S_ : Shape := ⟨0, ![]⟩

class Facts : Prop where
  bcast_S_S100000x74 : S_.BroadcastsInDim S100000x74 (![] : Fin 0 → Fin S100000x74.rank)
  reducesTo_S100000x74_S_d0_1 : S100000x74.ReducesTo [0, 1] S_
  h_S_ : 0 < S_.numel
  bcast_S_S74x64 : S_.BroadcastsInDim S74x64 (![] : Fin 0 → Fin S74x64.rank)
  reducesTo_S74x64_S_d0_1 : S74x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64x1 .f32) (main_arg8 : FVec F S1 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S4x64 .f32) (main_arg5 : FVec F S64x64 .f32) (main_arg6 : FVec F S64 .f32) (main_arg7 : FVec F S64x1 .f32) (main_arg8 : FVec F S1 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg4
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S100000x74 .f32) (main_arg1 : FVec F S74x64 .f32) (main_arg2 : FVec F S64 .f32) (main_arg3 : FVec F S4x64x64 .f32) (main_arg4 : FVec F S4x64 .f32) (main_arg5 : FVec F S64x64 .f32) (main_arg6 : FVec F S64 .f32) (main_arg7 : FVec F S64x1 .f32) (main_arg8 : FVec F S1 .f32) (main_arg9 : IVec S2x1200000 32) (main_arg10 : IVec S100000 32) : IVec S_ 1 :=
  let main_v0 : FVec F S100000x74 .f32 := Host.absf main_arg0
  let main_cst : FVec F S_ .f32 := constant S_ .f32 0x7F800000#32
  let main_v1 : FVec F S100000x74 .f32 := broadcastInDim S100000x74 ![] bcast_S_S100000x74 main_cst
  let main_v2 : IVec S100000x74 1 := cmpf .olt main_v0 main_v1
  let main_c : IVec S_ 1 := constantI S_ 1 1#1
  let main_v3 : IVec S_ 1 := (fun x v => Host.reduce IntOp.andi x v reducesTo_S100000x74_S_d0_1 h_S_) main_v2 main_c
  let main_v4 : FVec F S74x64 .f32 := Host.absf main_arg1
  let main_cst_0 : FVec F S_ .f32 := constant S_ .f32 0x7F800000#32
  let main_v5 : FVec F S74x64 .f32 := broadcastInDim S74x64 ![] bcast_S_S74x64 main_cst_0
  let main_v6 : IVec S74x64 1 := cmpf .olt main_v4 main_v5
  let main_c_1 : IVec S_ 1 := constantI S_ 1 1#1
  let main_v7 : IVec S_ 1 := (fun x v => Host.reduce IntOp.andi x v reducesTo_S74x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x64 .f32 := Host.absf main_arg3
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg4 main_arg5 main_arg6 main_arg7 main_arg8 main_v13 main_v16
-- ==== Kernel.lean ====
abbrev S100000x74 : Shape := ⟨2, ![100000, 74]⟩
abbrev S74x64 : Shape := ⟨2, ![74, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S64x1 : Shape := ⟨2, ![64, 1]⟩
abbrev S1 : Shape := ⟨1, ![1]⟩
abbrev S2x1200000 : Shape := ⟨2, ![2, 1200000]⟩
abbrev S100000 : Shape := ⟨1, ![100000]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1x64 : Shape := ⟨2, ![1, 64]⟩
abbrev S100000x64 : Shape := ⟨2, ![100000, 64]⟩
abbrev S10000x74 : Shape := ⟨2, ![10000, 74]⟩
abbrev S10000x64 : Shape := ⟨2, ![10000, 64]⟩
abbrev S1200000x64 : Shape := ⟨2, ![1200000, 64]⟩
abbrev S100000x1 : Shape := ⟨2, ![100000, 1]⟩
abbrev S1x64x64 : Shape := ⟨3, ![1, 64, 64]⟩
abbrev S2048x64 : Shape := ⟨2, ![2048, 64]⟩
abbrev S1x1 : Shape := ⟨2, ![1, 1]⟩
abbrev S2048x1 : Shape := ⟨2, ![2048, 1]⟩

abbrev nBuf : Space → Nat
  | .hbm => 192
  | .vmem => 44
  | .smem => 0
  | _ => 0

abbrev hbmTy0_0 (i : Nat) : BufTy := match i % 128 with
  | 0 => ⟨S100000x74, .f32⟩
  | 1 => ⟨S74x64, .f32⟩
  | 2 => ⟨S64, .f32⟩
  | 3 => ⟨S4x64x64, .f32⟩
  | 4 => ⟨S4x64, .f32⟩
  | 5 => ⟨S64x64, .f32⟩
  | 6 => ⟨S64, .f32⟩
  | 7 => ⟨S64x1, .f32⟩
  | 8 => ⟨S1, .f32⟩
  | 9 => ⟨S2x1200000, .i32⟩
  | 10 => ⟨S100000, .i32⟩
  | 11 => ⟨S1x1200000, .i32⟩
  | 12 => ⟨S1200000, .i32⟩
  | 13 => ⟨S1x1200000, .i32⟩
  | 14 => ⟨S1200000, .i32⟩
  | 15 => ⟨S_, .f32⟩
  | 16 => ⟨S1200000, .f32⟩
  | 17 => ⟨S_, .f32⟩
  | 18 => ⟨S100000, .f32⟩
  | 19 => ⟨S1200000x1, .i32⟩
  | 20 => ⟨S100000, .f32⟩
  | 21 => ⟨S_, .f32⟩
  | 22 => ⟨S100000, .f32⟩
  | 23 => ⟨S1200000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .i1⟩
  | 39 => ⟨S_, .f32⟩
  | 40 => ⟨S100000, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S1x64, .f32⟩
  | 48 => ⟨S100000x64, .f32⟩
  | 49 => ⟨S_, .i32⟩
  | 50 => ⟨S1200000, .i32⟩
  | 51 => ⟨S1200000, .i1⟩
  | 52 => ⟨S_, .i32⟩
  | 53 => ⟨S1200000, .i32⟩
  | 54 => ⟨S1200000, .i32⟩
  | 55 => ⟨S1200000, .i32⟩
  | 56 => ⟨S1200000x1, .i32⟩
  | 57 => ⟨S1200000x64, .f32⟩
  | 58 => ⟨S_, .i32⟩
  | 59 => ⟨S1200000, .i32⟩
  | 60 => ⟨S1200000, .i1⟩
  | 61 => ⟨S_, .i32⟩
  | 62 => ⟨S1200000, .i32⟩
  | 63 => ⟨S1200000, .i32⟩
  | 64 => ⟨S1200000, .i32⟩
  | 65 => ⟨S1200000x1, .i32⟩
  | 66 => ⟨S1200000, .f32⟩
  | 67 => ⟨S1200000x1, .f32⟩
  | 68 => ⟨S1200000x64, .f32⟩
  | 69 => ⟨S1200000x64, .f32⟩
  | 70 => ⟨S_, .f32⟩
  | 71 => ⟨S100000x64, .f32⟩
  | 72 => ⟨S1200000x1, .i32⟩
  | 73 => ⟨S100000x64, .f32⟩
  | 74 => ⟨S100000x1, .f32⟩
  | 75 => ⟨S100000x64, .f32⟩
  | 76 => ⟨S100000x64, .f32⟩
  | 77 => ⟨S1x64x64, .f32⟩
  | 78 => ⟨S64x64, .f32⟩
  | 79 => ⟨S1x64, .f32⟩
  | 80 => ⟨S64, .f32⟩
  | 81 => ⟨S1x64, .f32⟩
  | 82 => ⟨S100000x64, .f32⟩
  | 83 => ⟨S_, .i32⟩
  | 84 => ⟨S1200000, .i32⟩
  | 85 => ⟨S1200000, .i1⟩
  | 86 => ⟨S_, .i32⟩
  | 87 => ⟨S1200000, .i32⟩
  | 88 => ⟨S1200000, .i32⟩
  | 89 => ⟨S1200000, .i32⟩
  | 90 => ⟨S1200000x1, .i32⟩
  | 91 => ⟨S1200000x64, .f32⟩
  | 92 => ⟨S_, .i32⟩
  | 93 => ⟨S1200000, .i32⟩
  | 94 => ⟨S1200000, .i1⟩
  | 95 => ⟨S_, .i32⟩
  | 96 => ⟨S1200000, .i32⟩
  | 97 => ⟨S1200000, .i32⟩
  | 98 => ⟨S1200000, .i32⟩
  | 99 => ⟨S1200000x1, .i32⟩
  | 100 => ⟨S1200000, .f32⟩
  | 101 => ⟨S1200000x1, .f32⟩
  | 102 => ⟨S1200000x64, .f32⟩
  | 103 => ⟨S1200000x64, .f32⟩
  | 104 => ⟨S_, .f32⟩
  | 105 => ⟨S100000x64, .f32⟩
  | 106 => ⟨S1200000x1, .i32⟩
  | 107 => ⟨S100000x64, .f32⟩
  | 108 => ⟨S100000x1, .f32⟩
  | 109 => ⟨S100000x64, .f32⟩
  | 110 => ⟨S100000x64, .f32⟩
  | 111 => ⟨S1x64x64, .f32⟩
  | 112 => ⟨S64x64, .f32⟩
  | 113 => ⟨S1x64, .f32⟩
  | 114 => ⟨S64, .f32⟩
  | 115 => ⟨S1x64, .f32⟩
  | 116 => ⟨S100000x64, .f32⟩
  | 117 => ⟨S_, .i32⟩
  | 118 => ⟨S1200000, .i32⟩
  | 119 => ⟨S1200000, .i1⟩
  | 120 => ⟨S_, .i32⟩
  | 121 => ⟨S1200000, .i32⟩
  | 122 => ⟨S1200000, .i32⟩
  | 123 => ⟨S1200000, .i32⟩
  | 124 => ⟨S1200000x1, .i32⟩
  | 125 => ⟨S1200000x64, .f32⟩
  | 126 => ⟨S_, .i32⟩
  | 127 => ⟨S1200000, .i32⟩
  | _ => ⟨S100000x74, .f32⟩

abbrev hbmTy0_1 (i : Nat) : BufTy := match i % 128 with
  | 0 => ⟨S1200000, .i1⟩
  | 1 => ⟨S_, .i32⟩
  | 2 => ⟨S1200000, .i32⟩
  | 3 => ⟨S1200000, .i32⟩
  | 4 => ⟨S1200000, .i32⟩
  | 5 => ⟨S1200000x1, .i32⟩
  | 6 => ⟨S1200000, .f32⟩
  | 7 => ⟨S1200000x1, .f32⟩
  | 8 => ⟨S1200000x64, .f32⟩
  | 9 => ⟨S1200000x64, .f32⟩
  | 10 => ⟨S_, .f32⟩
  | 11 => ⟨S100000x64, .f32⟩
  | 12 => ⟨S1200000x1, .i32⟩
  | 13 => ⟨S100000x64, .f32⟩
  | 14 => ⟨S100000x1, .f32⟩
  | 15 => ⟨S100000x64, .f32⟩
  | 16 => ⟨S100000x64, .f32⟩
  | 17 => ⟨S1x64x64, .f32⟩
  | 18 => ⟨S64x64, .f32⟩
  | 19 => ⟨S1x64, .f32⟩
  | 20 => ⟨S64, .f32⟩
  | 21 => ⟨S1x64, .f32⟩
  | 22 => ⟨S100000x64, .f32⟩
  | 23 => ⟨S_, .i32⟩
  | 24 => ⟨S1200000, .i32⟩
  | 25 => ⟨S1200000, .i1⟩
  | 26 => ⟨S_, .i32⟩
  | 27 => ⟨S1200000, .i32⟩
  | 28 => ⟨S1200000, .i32⟩
  | 29 => ⟨S1200000, .i32⟩
  | 30 => ⟨S1200000x1, .i32⟩
  | 31 => ⟨S1200000x64, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1200000, .f32⟩
  | 41 => ⟨S1200000x1, .f32⟩
  | 42 => ⟨S1200000x64, .f32⟩
  | 43 => ⟨S1200000x64, .f32⟩
  | 44 => ⟨S_, .f32⟩
  | 45 => ⟨S100000x64, .f32⟩
  | 46 => ⟨S1200000x1, .i32⟩
  | 47 => ⟨S100000x64, .f32⟩
  | 48 => ⟨S100000x1, .f32⟩
  | 49 => ⟨S100000x64, .f32⟩
  | 50 => ⟨S100000x64, .f32⟩
  | 51 => ⟨S1x64x64, .f32⟩
  | 52 => ⟨S64x64, .f32⟩
  | 53 => ⟨S1x64, .f32⟩
  | 54 => ⟨S64, .f32⟩
  | 55 => ⟨S1x64, .f32⟩
  | 56 => ⟨S100000x64, .f32⟩
  | 57 => ⟨S_, .f32⟩
  | 58 => ⟨S2048x64, .f32⟩
  | 59 => ⟨S100000x1, .i32⟩
  | 60 => ⟨S2048x64, .f32⟩
  | 61 => ⟨S1x64, .f32⟩
  | 62 => ⟨S1x1, .f32⟩
  | 63 => ⟨S2048x1, .f32⟩
  | _ => ⟨S100000x74, .f32⟩

abbrev hbmTy (i : Nat) : BufTy := match i / 128 with
  | 0 => hbmTy0_0 i
  | 1 => hbmTy0_1 i
  | _ => ⟨S100000x74, .f32⟩

abbrev bufTy : (tb : Table) → Fin (tcTables nBuf tb) → BufTy
  | .hbm, ⟨i, _⟩ => hbmTy i
  | .local _ .vmem, ⟨0, _⟩ => ⟨S10000x74, .f32⟩
  | .local _ .vmem, ⟨1, _⟩ => ⟨S10000x74, .f32⟩
  | .local _ .vmem, ⟨2, _⟩ => ⟨S74x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S2048x64, .f32⟩
  | .local _ .vmem, ⟨39, _⟩ => ⟨S64x64, .f32⟩
  | .local _ .vmem, ⟨40, _⟩ => ⟨S1x64, .f32⟩
  | .local _ .vmem, ⟨41, _⟩ => ⟨S64x1, .f32⟩
  | .local _ .vmem, ⟨42, _⟩ => ⟨S1x1, .f32⟩
  | .local _ .vmem, ⟨43, _⟩ => ⟨S2048x1, .f32⟩
  | _, _ => ⟨S100000x74, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_cst_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c : Ref sig .tc := ⟨.hbm, 49, rfl⟩
abbrev main_v25 : Ref sig .tc := ⟨.hbm, 50, rfl⟩
abbrev main_v26 : Ref sig .tc := ⟨.hbm, 51, rfl⟩
abbrev main_c_8 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_9 : Ref sig .tc := ⟨.hbm, 58, rfl⟩
abbrev main_v32 : Ref sig .tc := ⟨.hbm, 59, rfl⟩
abbrev main_v33 : Ref sig .tc := ⟨.hbm, 60, rfl⟩
abbrev main_c_10 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_14 : Ref sig .tc := ⟨.hbm, 92, rfl⟩
abbrev main_v61 : Ref sig .tc := ⟨.hbm, 93, rfl⟩
abbrev main_v62 : Ref sig .tc := ⟨.hbm, 94, rfl⟩
abbrev main_c_15 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_17 : Ref sig .tc := ⟨.hbm, 117, rfl⟩
abbrev main_v83 : Ref sig .tc := ⟨.hbm, 118, rfl⟩
abbrev main_v84 : Ref sig .tc := ⟨.hbm, 119, rfl⟩
abbrev main_c_18 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_19 : Ref sig .tc := ⟨.hbm, 126, rfl⟩
abbrev main_v90 : Ref sig .tc := ⟨.hbm, 127, rfl⟩
abbrev main_v91 : Ref sig .tc := ⟨.hbm, 128, rfl⟩
abbrev main_c_20 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_21 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_22 : Ref sig .tc := ⟨.hbm, 151, rfl⟩
abbrev main_v112 : Ref sig .tc := ⟨.hbm, 152, rfl⟩
abbrev main_v113 : Ref sig .tc := ⟨.hbm, 153, rfl⟩
abbrev main_c_23 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_c_24 : Ref sig .tc := ⟨.hbm, 160, rfl⟩
abbrev main_v119 : Ref sig .tc := ⟨.hbm, 161, rfl⟩
abbrev main_v120 : Ref sig .tc := ⟨.hbm, 162, rfl⟩
abbrev main_c_25 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_26 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_cst_27 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem4_1 : DmaSem sig := 37
abbrev cc5_sem0_0 : DmaSem sig := 38
abbrev cc5_sem1_0 : DmaSem sig := 39
abbrev cc5_sem2_0 : DmaSem sig := 40
abbrev cc5_sem3_0 : DmaSem sig := 41
abbrev cc5_sem4_0 : DmaSem sig := 42
abbrev cc5_sem5_0 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x74 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S74x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S2048x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S2048x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S64_S1x64 : S64.ShapeCasts S1x64
  inb_S10000x74_S10000x74_0_0 : ∀ a, (![0, 0] : Fin 2 → Nat) a + S10000x74.size a ≤ S10000x74.size a
  h_S10000x74 : 0 < S10000x74.numel
  bitsLt_bf16_f32 : FTy.bits .bf16 < FTy.bits .f32
  inb_S74x64_S74x64_0_0 : ∀ a, (![0, 0] : Fin 2 → Nat) a + S74x64.size a ≤ S74x64.size a
  h_S74x64 : 0 < S74x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S2048x64 : S_.BroadcastsInDim S2048x64 (![] : Fin 0 → Fin S2048x64.rank)
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S100000_S1200000x1_S1200000_n_0_0_1_wf : ScatterDims.WF S100000 S1200000x1 S1200000 [] [0] [0] 1
  dot_S10000x74_S74x64_S10000x64_1_0_0_1_n_n_wf : DotDims.WF S10000x74 S74x64 S10000x64 [1] [0] [0] [1] [] []
  gather_S100000x64_S1200000x1_S1200000x64_1_0_n_n_0_1_164_wf : GatherDims.WF S100000x64 S1200000x1 S1200000x64 [1] [0] [] [0] [] 1 ![1, 64]
  gather_S100000_S1200000x1_S1200000_n_0_n_n_0_1_1_wf : GatherDims.WF S100000 S1200000x1 S1200000 [] [0] [] [0] [] 1 ![1]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  scatter_S2048x64_S100000x1_S100000x64_1_0_0_1_wf : ScatterDims.WF S2048x64 S100000x1 S100000x64 [1] [0] [0] 1
  dot_S2048x64_S64x64_S2048x64_1_0_0_1_n_n_wf : DotDims.WF S2048x64 S64x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x74.size a ≤ S100000x74.size a
  hwx0_0 : ∀ i : grid0.Coords, EltTy.bits .f32 = 32 ∨ (Rect.block (s := S100000x74) S10000x74.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S74x64.size a ≤ S74x64.size a
  hwx0_1 : ∀ i : grid0.Coords, EltTy.bits .f32 = 32 ∨ (Rect.block (s := S74x64) S74x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S100000x64.size a
  hwx4_4 : ∀ i : grid4.Coords, EltTy.bits .f32 = 32 ∨ (Rect.block (s := S100000x64) S10000x64.size (cc4_transform_4 i) (hinb4_4 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S2048x64.size a ≤ S2048x64.size a
  hwx5_0 : ∀ i : grid5.Coords, EltTy.bits .f32 = 32 ∨ (Rect.block (s := S2048x64) S2048x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x1.size a ≤ S64x1.size a
  hwx5_3 : ∀ i : grid5.Coords, EltTy.bits .f32 = 32 ∨ (Rect.block (s := S64x1) S64x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S2048x1.size a ≤ S2048x1.size a
  hwx5_5 : ∀ i : grid5.Coords, EltTy.bits .f32 = 32 ∨ (Rect.block (s := S2048x1) S2048x1.size (cc5_transform_5 i) (hinb5_5 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S10000x74_S74x64_S10000x64_1_0_0_1_n_n : DotDims S10000x74 S74x64 S10000x64 where
  lhsContracting := [1]
  rhsContracting := [0]
  lhsNonContracting := [0]
  rhsNonContracting := [1]
  lhsBatch := []
  rhsBatch := []
  wf := dot_S10000x74_S74x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S10000x74.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S74x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v76) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v78) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v82) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v105) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v107) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v110) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v111) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v134) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v111) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v136) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v139) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v140) S10000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v143) S2048x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v144) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S64x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v145) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v146) S2048x1.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x74 : Shape := ⟨2, ![100000, 74]⟩
abbrev S74x64 : Shape := ⟨2, ![74, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S64x1 : Shape := ⟨2, ![64, 1]⟩
abbrev S1 : Shape := ⟨1, ![1]⟩
abbrev S2x1200000 : Shape := ⟨2, ![2, 1200000]⟩
abbrev S100000 : Shape := ⟨1, ![100000]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S100000x64 : Shape := ⟨2, ![100000, 64]⟩
abbrev S1x64 : Shape := ⟨2, ![1, 64]⟩
abbrev S1200000x64 : Shape := ⟨2, ![1200000, 64]⟩
abbrev S100000x1 : Shape := ⟨2, ![100000, 1]⟩
abbrev S1x64x64 : Shape := ⟨3, ![1, 64, 64]⟩
abbrev S2048x64 : Shape := ⟨2, ![2048, 64]⟩
abbrev S2048x1 : Shape := ⟨2, ![2048, 1]⟩
abbrev S1x1 : Shape := ⟨2, ![1, 1]⟩

abbrev nBuf : Space → Nat
  | .hbm => 226
  | .vmem => 0
  | .smem => 0
  | _ => 0

abbrev hbmTy0_0 (i : Nat) : BufTy := match i % 128 with
  | 0 => ⟨S100000x74, .f32⟩
  | 1 => ⟨S74x64, .f32⟩
  | 2 => ⟨S64, .f32⟩
  | 3 => ⟨S4x64x64, .f32⟩
  | 4 => ⟨S4x64, .f32⟩
  | 5 => ⟨S64x64, .f32⟩
  | 6 => ⟨S64, .f32⟩
  | 7 => ⟨S64x1, .f32⟩
  | 8 => ⟨S1, .f32⟩
  | 9 => ⟨S2x1200000, .i32⟩
  | 10 => ⟨S100000, .i32⟩
  | 11 => ⟨S1x1200000, .i32⟩
  | 12 => ⟨S1200000, .i32⟩
  | 13 => ⟨S1x1200000, .i32⟩
  | 14 => ⟨S1200000, .i32⟩
  | 15 => ⟨S_, .f32⟩
  | 16 => ⟨S1200000, .f32⟩
  | 17 => ⟨S_, .f32⟩
  | 18 => ⟨S100000, .f32⟩
  | 19 => ⟨S1200000x1, .i32⟩
  | 20 => ⟨S100000, .f32⟩
  | 21 => ⟨S_, .f32⟩
  | 22 => ⟨S100000, .f32⟩
  | 23 => ⟨S1200000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S100000, .f32⟩
  | 32 => ⟨S_, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .i1⟩
  | 39 => ⟨S_, .f32⟩
  | 40 => ⟨S100000, .f32⟩
  | 41 => ⟨S100000, .f32⟩
  | 42 => ⟨S100000, .f32⟩
  | 43 => ⟨S_, .f32⟩
  | 44 => ⟨S_, .f32⟩
  | 45 => ⟨S100000, .f32⟩
  | 46 => ⟨S100000, .f32⟩
  | 47 => ⟨S100000x64, .f32⟩
  | 48 => ⟨S1x64, .f32⟩
  | 49 => ⟨S100000x64, .f32⟩
  | 50 => ⟨S100000x64, .f32⟩
  | 51 => ⟨S_, .i32⟩
  | 52 => ⟨S1200000, .i32⟩
  | 53 => ⟨S1200000, .i1⟩
  | 54 => ⟨S_, .i32⟩
  | 55 => ⟨S1200000, .i32⟩
  | 56 => ⟨S1200000, .i32⟩
  | 57 => ⟨S1200000, .i32⟩
  | 58 => ⟨S1200000x1, .i32⟩
  | 59 => ⟨S1200000x64, .f32⟩
  | 60 => ⟨S_, .i32⟩
  | 61 => ⟨S1200000, .i32⟩
  | 62 => ⟨S1200000, .i1⟩
  | 63 => ⟨S_, .i32⟩
  | 64 => ⟨S1200000, .i32⟩
  | 65 => ⟨S1200000, .i32⟩
  | 66 => ⟨S1200000, .i32⟩
  | 67 => ⟨S1200000x1, .i32⟩
  | 68 => ⟨S1200000, .f32⟩
  | 69 => ⟨S1200000x1, .f32⟩
  | 70 => ⟨S1200000x64, .f32⟩
  | 71 => ⟨S1200000x64, .f32⟩
  | 72 => ⟨S_, .f32⟩
  | 73 => ⟨S100000x64, .f32⟩
  | 74 => ⟨S1200000x1, .i32⟩
  | 75 => ⟨S100000x64, .f32⟩
  | 76 => ⟨S100000x1, .f32⟩
  | 77 => ⟨S100000x64, .f32⟩
  | 78 => ⟨S100000x64, .f32⟩
  | 79 => ⟨S1x64x64, .f32⟩
  | 80 => ⟨S64x64, .f32⟩
  | 81 => ⟨S100000x64, .f32⟩
  | 82 => ⟨S1x64, .f32⟩
  | 83 => ⟨S64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S_, .i32⟩
  | 92 => ⟨S1200000, .i32⟩
  | 93 => ⟨S1200000, .i1⟩
  | 94 => ⟨S_, .i32⟩
  | 95 => ⟨S1200000, .i32⟩
  | 96 => ⟨S1200000, .i32⟩
  | 97 => ⟨S1200000, .i32⟩
  | 98 => ⟨S1200000x1, .i32⟩
  | 99 => ⟨S1200000x64, .f32⟩
  | 100 => ⟨S_, .i32⟩
  | 101 => ⟨S1200000, .i32⟩
  | 102 => ⟨S1200000, .i1⟩
  | 103 => ⟨S_, .i32⟩
  | 104 => ⟨S1200000, .i32⟩
  | 105 => ⟨S1200000, .i32⟩
  | 106 => ⟨S1200000, .i32⟩
  | 107 => ⟨S1200000x1, .i32⟩
  | 108 => ⟨S1200000, .f32⟩
  | 109 => ⟨S1200000x1, .f32⟩
  | 110 => ⟨S1200000x64, .f32⟩
  | 111 => ⟨S1200000x64, .f32⟩
  | 112 => ⟨S_, .f32⟩
  | 113 => ⟨S100000x64, .f32⟩
  | 114 => ⟨S1200000x1, .i32⟩
  | 115 => ⟨S100000x64, .f32⟩
  | 116 => ⟨S100000x1, .f32⟩
  | 117 => ⟨S100000x64, .f32⟩
  | 118 => ⟨S100000x64, .f32⟩
  | 119 => ⟨S1x64x64, .f32⟩
  | 120 => ⟨S64x64, .f32⟩
  | 121 => ⟨S100000x64, .f32⟩
  | 122 => ⟨S1x64, .f32⟩
  | 123 => ⟨S64, .f32⟩
  | 124 => ⟨S1x64, .f32⟩
  | 125 => ⟨S100000x64, .f32⟩
  | 126 => ⟨S100000x64, .f32⟩
  | 127 => ⟨S_, .f32⟩
  | _ => ⟨S100000x74, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .i32⟩
  | 4 => ⟨S1200000, .i32⟩
  | 5 => ⟨S1200000, .i1⟩
  | 6 => ⟨S_, .i32⟩
  | 7 => ⟨S1200000, .i32⟩
  | 8 => ⟨S1200000, .i32⟩
  | 9 => ⟨S1200000, .i32⟩
  | 10 => ⟨S1200000x1, .i32⟩
  | 11 => ⟨S1200000x64, .f32⟩
  | 12 => ⟨S_, .i32⟩
  | 13 => ⟨S1200000, .i32⟩
  | 14 => ⟨S1200000, .i1⟩
  | 15 => ⟨S_, .i32⟩
  | 16 => ⟨S1200000, .i32⟩
  | 17 => ⟨S1200000, .i32⟩
  | 18 => ⟨S1200000, .i32⟩
  | 19 => ⟨S1200000x1, .i32⟩
  | 20 => ⟨S1200000, .f32⟩
  | 21 => ⟨S1200000x1, .f32⟩
  | 22 => ⟨S1200000x64, .f32⟩
  | 23 => ⟨S1200000x64, .f32⟩
  | 24 => ⟨S_, .f32⟩
  | 25 => ⟨S100000x64, .f32⟩
  | 26 => ⟨S1200000x1, .i32⟩
  | 27 => ⟨S100000x64, .f32⟩
  | 28 => ⟨S100000x1, .f32⟩
  | 29 => ⟨S100000x64, .f32⟩
  | 30 => ⟨S100000x64, .f32⟩
  | 31 => ⟨S1x64x64, .f32⟩
  | 32 => ⟨S64x64, .f32⟩
  | 33 => ⟨S100000x64, .f32⟩
  | 34 => ⟨S1x64, .f32⟩
  | 35 => ⟨S64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S100000x64, .f32⟩
  | 43 => ⟨S_, .i32⟩
  | 44 => ⟨S1200000, .i32⟩
  | 45 => ⟨S1200000, .i1⟩
  | 46 => ⟨S_, .i32⟩
  | 47 => ⟨S1200000, .i32⟩
  | 48 => ⟨S1200000, .i32⟩
  | 49 => ⟨S1200000, .i32⟩
  | 50 => ⟨S1200000x1, .i32⟩
  | 51 => ⟨S1200000x64, .f32⟩
  | 52 => ⟨S_, .i32⟩
  | 53 => ⟨S1200000, .i32⟩
  | 54 => ⟨S1200000, .i1⟩
  | 55 => ⟨S_, .i32⟩
  | 56 => ⟨S1200000, .i32⟩
  | 57 => ⟨S1200000, .i32⟩
  | 58 => ⟨S1200000, .i32⟩
  | 59 => ⟨S1200000x1, .i32⟩
  | 60 => ⟨S1200000, .f32⟩
  | 61 => ⟨S1200000x1, .f32⟩
  | 62 => ⟨S1200000x64, .f32⟩
  | 63 => ⟨S1200000x64, .f32⟩
  | 64 => ⟨S_, .f32⟩
  | 65 => ⟨S100000x64, .f32⟩
  | 66 => ⟨S1200000x1, .i32⟩
  | 67 => ⟨S100000x64, .f32⟩
  | 68 => ⟨S100000x1, .f32⟩
  | 69 => ⟨S100000x64, .f32⟩
  | 70 => ⟨S100000x64, .f32⟩
  | 71 => ⟨S1x64x64, .f32⟩
  | 72 => ⟨S64x64, .f32⟩
  | 73 => ⟨S100000x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S_, .f32⟩
  | 84 => ⟨S2048x64, .f32⟩
  | 85 => ⟨S100000x1, .i32⟩
  | 86 => ⟨S2048x64, .f32⟩
  | 87 => ⟨S2048x64, .f32⟩
  | 88 => ⟨S1x64, .f32⟩
  | 89 => ⟨S2048x64, .f32⟩
  | 90 => ⟨S2048x64, .f32⟩
  | 91 => ⟨S_, .f32⟩
  | 92 => ⟨S2048x64, .f32⟩
  | 93 => ⟨S2048x64, .f32⟩
  | 94 => ⟨S2048x1, .f32⟩
  | 95 => ⟨S1x1, .f32⟩
  | 96 => ⟨S2048x1, .f32⟩
  | 97 => ⟨S2048x1, .f32⟩
  | _ => ⟨S100000x74, .f32⟩

abbrev hbmTy (i : Nat) : BufTy := match i / 128 with
  | 0 => hbmTy0_0 i
  | 1 => hbmTy0_1 i
  | _ => ⟨S100000x74, .f32⟩

abbrev bufTy : (tb : Table) → Fin (tcTables nBuf tb) → BufTy
  | .hbm, ⟨i, _⟩ => hbmTy i
  | _, _ => ⟨S100000x74, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_cst_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_7 : Ref sig .tc := ⟨.hbm, 43, rfl⟩
abbrev main_call1_v0 : Ref sig .tc := ⟨.hbm, 44, rfl⟩
abbrev main_call1_v1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c : Ref sig .tc := ⟨.hbm, 51, rfl⟩
abbrev main_v27 : Ref sig .tc := ⟨.hbm, 52, rfl⟩
abbrev main_v28 : Ref sig .tc := ⟨.hbm, 53, rfl⟩
abbrev main_c_8 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_9 : Ref sig .tc := ⟨.hbm, 60, rfl⟩
abbrev main_v34 : Ref sig .tc := ⟨.hbm, 61, rfl⟩
abbrev main_v35 : Ref sig .tc := ⟨.hbm, 62, rfl⟩
abbrev main_c_10 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_11 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call2_cst : Ref sig .tc := ⟨.hbm, 87, rfl⟩
abbrev main_call2_v0 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_14 : Ref sig .tc := ⟨.hbm, 100, rfl⟩
abbrev main_v67 : Ref sig .tc := ⟨.hbm, 101, rfl⟩
abbrev main_v68 : Ref sig .tc := ⟨.hbm, 102, rfl⟩
abbrev main_c_15 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_16 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_c_17 : Ref sig .tc := ⟨.hbm, 131, rfl⟩
abbrev main_v93 : Ref sig .tc := ⟨.hbm, 132, rfl⟩
abbrev main_v94 : Ref sig .tc := ⟨.hbm, 133, rfl⟩
abbrev main_c_18 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_19 : Ref sig .tc := ⟨.hbm, 140, rfl⟩
abbrev main_v100 : Ref sig .tc := ⟨.hbm, 141, rfl⟩
abbrev main_v101 : Ref sig .tc := ⟨.hbm, 142, rfl⟩
abbrev main_c_20 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_21 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_call4_cst : Ref sig .tc := ⟨.hbm, 167, rfl⟩
abbrev main_call4_v0 : Ref sig .tc := ⟨.hbm, 168, rfl⟩
abbrev main_v124 : Ref sig .tc := ⟨.hbm, 169, rfl⟩
abbrev main_v125 : Ref sig .tc := ⟨.hbm, 170, rfl⟩
abbrev main_c_22 : Ref sig .tc := ⟨.hbm, 171, rfl⟩
abbrev main_v126 : Ref sig .tc := ⟨.hbm, 172, rfl⟩
abbrev main_v127 : Ref sig .tc := ⟨.hbm, 173, rfl⟩
abbrev main_c_23 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_24 : Ref sig .tc := ⟨.hbm, 180, rfl⟩
abbrev main_v133 : Ref sig .tc := ⟨.hbm, 181, rfl⟩
abbrev main_v134 : Ref sig .tc := ⟨.hbm, 182, rfl⟩
abbrev main_c_25 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_26 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_call5_cst : Ref sig .tc := ⟨.hbm, 207, rfl⟩
abbrev main_call5_v0 : Ref sig .tc := ⟨.hbm, 208, rfl⟩
abbrev main_v157 : Ref sig .tc := ⟨.hbm, 209, rfl⟩
abbrev main_v158 : Ref sig .tc := ⟨.hbm, 210, rfl⟩
abbrev main_cst_27 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_call6_cst : Ref sig .tc := ⟨.hbm, 219, rfl⟩
abbrev main_call6_v0 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S2048x64 : S_.BroadcastsInDim S2048x64 (![] : Fin 0 → Fin S2048x64.rank)
  bcast_S1x64_S2048x64_0_1 : S1x64.BroadcastsInDim S2048x64 (![0, 1] : Fin 2 → Fin S2048x64.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S100000_S1200000x1_S1200000_n_0_0_1_wf : ScatterDims.WF S100000 S1200000x1 S1200000 [] [0] [0] 1
  dot_S100000x74_S74x64_S100000x64_1_0_0_1_n_n_wf : DotDims.WF S100000x74 S74x64 S100000x64 [1] [0] [0] [1] [] []
  gather_S100000x64_S1200000x1_S1200000x64_1_0_n_n_0_1_164_wf : GatherDims.WF S100000x64 S1200000x1 S1200000x64 [1] [0] [] [0] [] 1 ![1, 64]
  gather_S100000_S1200000x1_S1200000_n_0_n_n_0_1_1_wf : GatherDims.WF S100000 S1200000x1 S1200000 [] [0] [] [0] [] 1 ![1]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  scatter_S2048x64_S100000x1_S100000x64_1_0_0_1_wf : ScatterDims.WF S2048x64 S100000x1 S100000x64 [1] [0] [0] 1
  dot_S2048x64_S64x64_S2048x64_1_0_0_1_n_n_wf : DotDims.WF S2048x64 S64x64 S2048x64 [1] [0] [0] [1] [] []
  dot_S2048x64_S64x1_S2048x1_1_0_0_1_n_n_wf : DotDims.WF S2048x64 S64x1 S2048x1 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x74_S74x64_S100000x64_1_0_0_1_n_n : DotDims S100000x74 S74x64 S100000x64 where
  lhsContracting := [1]
  rhsContracting := [0]
  lhsNonContracting := [0]
  rhsNonContracting := [1]
  lhsBatch := []
  rhsBatch := []
  wf := dot_S100000x74_S74x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S2048x64_S100000x1_S100000x64_1_0_0_1 : ScatterDims S2048x64 S100000x1 S100000x64 where
  updateWindowDims := [1]
  insertedWindowDims := [0]
  scatterDimsToOperandDims := [0]
  indexVectorDim := 1
  wf := scatter_S2048x64_S100000x1_S100000x64_1_0_0_1_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

class Facts : Prop extends Facts₀ where

variable [Facts]
-- ==== Proof.KernelRun.lean ====
/-
  The kernel program's run with its result read: every weakly fair execution of the six launches and the host
  operations between them terminates, nothing faulting, with the result buffer at the contents the last launch's
  write-back leaves (the generated fold's last boundary, `Gen.W16`) and the argument arrays as launched.

  The run is the library's theorem for a program of several launches among stretches of host operations, applied to
  the generated segments; it ends with every unscoped buffer at the last boundary's contents, of which the frame keeps
  the arguments and this statement keeps the result as well.
-/
import proofs.«102544_j712964571382_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary. -/
theorem run : θ_run defs (onTc (τ := τ) (main (F := F))) ⟨m, fun _ => 0, ρ⟩ (fun r => ∀ c : Dev nD,
      r.2.mem ((c.tc : Thread nD τ).loc main_v146) = W16 m ρ c (Proc.devRef .tc main_v146)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v146 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩)

end Cert.KernelIdeal.ValueRun

end
-- ==== Proof.LibPlainDot.lean ====
/-
  A plain matrix product read at an index, at the ideal instance (floats are extended reals, every operation exact),
  free of any program.

  For the dimension numbers of an `M×K` by `K×N` product with no batch axis (`DotDims.plain M K N`: the left operand
  contracted on its second axis, the right on its first), both a kernel's matrix-unit product into a zero accumulator
  and a host `dot_general` hold, at `(p, q)`, the sum over `k` of `l (p, k) · r (k, q)`: no rounding, no order of
  accumulation, no tile shape is left in either.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat}

/-- The left operand's row is the output's row … -/
theorem lhs_row (p : Fin M) (q : Fin N) (k : (DotDims.plain M K N).contr.Idx) :
    ((DotDims.plain M K N).lhsIdx (ix2 p q) k ⟨0, Nat.zero_lt_two⟩).val = p.val := by
  unfold DotDims.lhsIdx
  rw [dif_neg (show ¬(⟨0, Nat.zero_lt_two⟩ : Fin 2) ∈ (DotDims.plain M K N).lhsBatch by simp [DotDims.plain]),
    dif_pos (show (⟨0, Nat.zero_lt_two⟩ : Fin 2) ∈ (DotDims.plain M K N).lhsNonContracting by simp [DotDims.plain])]
  rfl

/-- … its column the contraction index … -/
theorem lhs_col (p : Fin M) (q : Fin N) (k : (DotDims.plain M K N).contr.Idx) :
    ((DotDims.plain M K N).lhsIdx (ix2 p q) k ⟨1, Nat.one_lt_two⟩).val = (k ⟨0, Nat.one_pos⟩).val :=
  (DotDims.plain M K N).lhsIdx_val_of_single rfl (ix2 p q) k

/-- … the right operand's row the contraction index … -/
theorem rhs_row (p : Fin M) (q : Fin N) (k : (DotDims.plain M K N).contr.Idx) :
    ((DotDims.plain M K N).rhsIdx (ix2 p q) k ⟨0, Nat.zero_lt_two⟩).val = (k ⟨0, Nat.one_pos⟩).val :=
  (DotDims.plain M K N).rhsIdx_val_of_single rfl (ix2 p q) k

/-- … and its column the output's column. -/
theorem rhs_col (p : Fin M) (q : Fin N) (k : (DotDims.plain M K N).contr.Idx) :
    ((DotDims.plain M K N).rhsIdx (ix2 p q) k ⟨1, Nat.one_lt_two⟩).val = q.val := by
  unfold DotDims.rhsIdx
  rw [dif_neg (show ¬(⟨1, Nat.one_lt_two⟩ : Fin 2) ∈ (DotDims.plain M K N).rhsBatch by simp [DotDims.plain]),
    dif_pos (show (⟨1, Nat.one_lt_two⟩ : Fin 2) ∈ (DotDims.plain M K N).rhsNonContracting by simp [DotDims.plain])]
  rfl

/-- The sum over the one-axis contraction index is the sum over `k : Fin K` of `l (p, k) · r (k, q)`. -/
theorem plain_sum (l : (⟨2, ![M, K]⟩ : Shape).Idx → EReal) (r : (⟨2, ![K, N]⟩ : Shape).Idx → EReal) (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row p q _
      | ⟨1, _⟩ => exact (lhs_col p q _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row p q _).trans hk
      | ⟨1, _⟩ => exact rhs_col p q _)
  rw [el, er]

/-- A matrix-unit product into the zero splat, at `(p, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant (F := Ideal) ⟨2, ![M, N]⟩ .f32 0x00000000#32) (ix2 p q)
      = ∑ k : Fin K, l (ix2 p k) * r (ix2 k q) := by
  rw [Ideal.matmul_constant_zero_apply]
  exact plain_sum l r p q

/-- A host `dot_general`, at `(p, q)`, whatever its schedule key. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end Cert.LibPlainDot

end
-- ==== Proof.LibDenseStages.lean ====
/-
  The network's three dense stages, as functions on the extended reals read index by index, free of any program.

  * `affine x w b` at `(p, q)` is `Σ_k x(p, k) · w(k, q) + b(0, q)`: a matrix product plus a one-row bias.
  * `layer agg h w b` at `(p, q)` is `h(p, q) + max (affine agg w b (p, q)) 0`: a residual step through the positive part.
  * `head g w₁ b₁ w₂ b₂` is `affine (max (affine g w₁ b₁) 0) w₂ b₂`: two products with the positive part between.
  The zero is kept as the float word `0x00000000` both programs print, never evaluated.

  A kernel body spells these with casts to a narrower float format (the identity on exact values), a matrix-unit
  product into a zero accumulator (the plain sum over `k`), the bias row broadcast down the rows, and a splat zero;
  `matmul_bias_apply`, `layer_form_apply` and `head_form_apply` read those spellings at `(p, q)`.
-/
import Idealize.ShloMosaic.Lib.ValueIdx
import Idealize.ShloMosaic.Lib.ValueLayout
import Idealize.ShloMosaic.Lib.Pipeline.Value
import Idealize.ShloMosaic.PureOps.Ideal.Laws
import proofs.«102544_j712964571382_1_alg».proof.Proof.LibPlainDot

noncomputable section

open scoped BigOperators

namespace Cert.Dense

open Idealize.ShloMosaic Idealize.ShloMosaic.ValueIdx

variable {M K N : Nat}

/-- The zero both programs print, as an extended real. -/
abbrev zeroWord : EReal := Ideal.ofBits .f32 0x00000000#32

/-- A matrix product plus a one-row bias. -/
def affine (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, x (ix2 (i 0) k) * w (ix2 k (i 1))) + b (ix2 (0 : Fin 1) (i 1))

/-- A residual step: the carried features plus the positive part of an affine image of the aggregate. -/
def layer (agg : (⟨2, ![M, K]⟩ : Shape).Idx → EReal) (h : (⟨2, ![M, N]⟩ : Shape).Idx → EReal)
    (w : (⟨2, ![K, N]⟩ : Shape).Idx → EReal) (b : (⟨2, ![1, N]⟩ : Shape).Idx → EReal) :
    (⟨2, ![M, N]⟩ : Shape).Idx → EReal :=
  fun i => h i + max (affine agg w b i) zeroWord

/-- Two affine maps with the positive part between them. -/
def head {H T : Nat} (g : (⟨2, ![M, K]⟩ : Shape).Idx → EReal) (w1 : (⟨2, ![K, H]⟩ : Shape).Idx → EReal)
    (b1 : (⟨2, ![1, H]⟩ : Shape).Idx → EReal) (w2 : (⟨2, ![H, T]⟩ : Shape).Idx → EReal)
    (b2 : (⟨2, ![1, T]⟩ : Shape).Idx → EReal) : (⟨2, ![M, T]⟩ : Shape).Idx → EReal :=
  affine (fun j => max (affine g w1 b1 j) zeroWord) w2 b2

theorem affine_ix2 (x : (⟨2, ![M, K]⟩ : Shape).Idx → EReal) (w : (⟨2, ![K, N]⟩ : Shape).Idx → EReal)
    (b : (⟨2, ![1, N]⟩ : Shape).Idx → EReal) (p : Fin M) (q : Fin N) :
    affine x w b (ix2 p q) = (∑ k : Fin K, x (ix2 p k) * w (ix2 k q)) + b (ix2 (0 : Fin 1) q) := rfl

/-- The core of every body: both operands cast to a narrower format, multiplied into zeros, the bias row broadcast
    down the rows and added. -/
theorem matmul_bias_apply (prec : Option ContractPrecision) {ψ : FTy}
    (x : FVec Ideal ⟨2, ![M, K]⟩ .f32) (w : FVec Ideal ⟨2, ![K, N]⟩ .f32) (b : FVec Ideal ⟨2, ![1, N]⟩ .f32)
    (hψ : ψ.bits < FTy.f32.bits) (hb : (⟨2, ![1, N]⟩ : Shape).Broadcasts ⟨2, ![M, N]⟩) (p : Fin M) (q : Fin N) :
    addf (FloatOps.matmul (DotDims.plain M K N) prec (truncf ψ x hψ) (truncf ψ w hψ)
          (constant (F := Ideal) ⟨2, ![M, N]⟩ .f32 0x00000000#32))
        (broadcastTo ⟨2, ![M, N]⟩ b hb) (ix2 p q)
      = affine x w b (ix2 p q) := by
  rw [addf_apply, broadcastTo_1b_ab_apply, affine_ix2,
    Cert.LibPlainDot.matmul_plain_apply prec (truncf ψ x hψ) (truncf ψ w hψ) p q]
  rfl

/-- The embedding body's spelling: the core with the bias row cast to its own shape first. -/
theorem embed_form_apply (prec : Option ContractPrecision) {ψ : FTy}
    (x : FVec Ideal ⟨2, ![M, K]⟩ .f32) (w : FVec Ideal ⟨2, ![K, N]⟩ .f32) (b : FVec Ideal ⟨2, ![1, N]⟩ .f32)
    (hψ : ψ.bits < FTy.f32.bits) (hs : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (DotDims.plain M K N) prec (truncf ψ x hψ) (truncf ψ w hψ)
          (constant (F := Ideal) ⟨2, ![M, N]⟩ .f32 0x00000000#32))
        (broadcastTo ⟨2, ![M, N]⟩ (shapeCast ⟨2, ![1, N]⟩ b hs) hb) (ix2 p q)
      = affine x w b (ix2 p q) := by
  rw [shapeCast_self]
  exact matmul_bias_apply prec x w b hψ hb p q

/-- The residual body's spelling: aggregate, weights, bias row and carried features each cast to their own shapes,
    the core, the larger of it and a splat zero, added to the carried features. -/
theorem layer_form_apply (prec : Option ContractPrecision) {ψ : FTy}
    (agg : FVec Ideal ⟨2, ![M, K]⟩ .f32) (h : FVec Ideal ⟨2, ![M, N]⟩ .f32) (w : FVec Ideal ⟨2, ![K, N]⟩ .f32)
    (b : FVec Ideal ⟨2, ![1, N]⟩ .f32) (hψ : ψ.bits < FTy.f32.bits)
    (ha : (⟨2, ![M, K]⟩ : Shape).ShapeCasts ⟨2, ![M, K]⟩) (hw : (⟨2, ![K, N]⟩ : Shape).ShapeCasts ⟨2, ![K, N]⟩)
    (hh : (⟨2, ![M, N]⟩ : Shape).ShapeCasts ⟨2, ![M, N]⟩) (hs : (⟨2, ![1, N]⟩ : Shape).ShapeCasts ⟨2, ![1, N]⟩)
    (hb : (⟨2, ![1, N]⟩ : Shape).Broadcasts ⟨2, ![M, N]⟩) (p : Fin M) (q : Fin N) :
    addf (shapeCast ⟨2, ![M, N]⟩ h hh)
        (maximumf
          (addf (FloatOps.matmul (DotDims.plain M K N) prec (truncf ψ (shapeCast ⟨2, ![M, K]⟩ agg ha) hψ)
                  (truncf ψ (shapeCast ⟨2, ![K, N]⟩ w hw) hψ) (constant (F := Ideal) ⟨2, ![M, N]⟩ .f32 0x00000000#32))
                (broadcastTo ⟨2, ![M, N]⟩ (shapeCast ⟨2, ![1, N]⟩ b hs) hb))
          (broadcast ⟨2, ![M, N]⟩ (Scalar.ofBits (F := Ideal) .f32 0x00000000#32))) (ix2 p q)
      = layer agg h w b (ix2 p q) := by
  simp only [shapeCast_self]
  rw [addf_apply, maximumf_apply, matmul_bias_apply prec agg w b hψ hb p q]
  rfl

/-- The head body's spelling: the core on the pooled features, the larger of it and a splat zero, cast to the narrower
    format, and the core again on that. -/
theorem head_form_apply {H T : Nat} (prec : Option ContractPrecision) {ψ : FTy}
    (g : FVec Ideal ⟨2, ![M, K]⟩ .f32) (w1 : FVec Ideal ⟨2, ![K, H]⟩ .f32) (b1 : FVec Ideal ⟨2, ![1, H]⟩ .f32)
    (w2 : FVec Ideal ⟨2, ![H, T]⟩ .f32) (b2 : FVec Ideal ⟨2, ![1, T]⟩ .f32) (hψ : ψ.bits < FTy.f32.bits)
    (hg : (⟨2, ![M, K]⟩ : Shape).ShapeCasts ⟨2, ![M, K]⟩) (hs1 : (⟨2, ![1, H]⟩ : Shape).ShapeCasts ⟨2, ![1, H]⟩)
    (hb1 : (⟨2, ![1, H]⟩ : Shape).Broadcasts ⟨2, ![M, H]⟩) (hs2 : (⟨2, ![1, T]⟩ : Shape).ShapeCasts ⟨2, ![1, T]⟩)
    (hb2 : (⟨2, ![1, T]⟩ : Shape).Broadcasts ⟨2, ![M, T]⟩) (p : Fin M) (t : Fin T) :
    addf (FloatOps.matmul (DotDims.plain M H T) prec
            (truncf ψ
              (maximumf
                (addf (FloatOps.matmul (DotDims.plain M K H) prec (truncf ψ (shapeCast ⟨2, ![M, K]⟩ g hg) hψ) (truncf ψ w1 hψ)
                        (constant (F := Ideal) ⟨2, ![M, H]⟩ .f32 0x00000000#32))
                      (broadcastTo ⟨2, ![M, H]⟩ (shapeCast ⟨2, ![1, H]⟩ b1 hs1) hb1))
                (broadcast ⟨2, ![M, H]⟩ (Scalar.ofBits (F := Ideal) .f32 0x00000000#32))) hψ)
            (truncf ψ w2 hψ) (constant (F := Ideal) ⟨2, ![M, T]⟩ .f32 0x00000000#32))
        (broadcastTo ⟨2, ![M, T]⟩ (shapeCast ⟨2, ![1, T]⟩ b2 hs2) hb2) (ix2 p t)
      = head g w1 b1 w2 b2 (ix2 p t) := by
  simp only [shapeCast_self]
  rw [addf_apply, broadcastTo_1b_ab_apply, Cert.LibPlainDot.matmul_plain_apply]
  unfold head
  rw [affine_ix2]
  refine congrArg (· + b2 (ix2 (0 : Fin 1) t)) (Finset.sum_congr rfl fun k _ => ?_)
  refine congrArg (· * w2 (ix2 k t)) ?_
  exact congrArg (max · zeroWord) (matmul_bias_apply prec g w1 b1 hψ hb1 p k)

/-! ## The host's spellings

A host program spells the same stages with a `dot_general` (the plain sum over `k`), the bias vector broadcast first
to one row and then down the rows, and a scalar zero broadcast to the whole shape. -/

/-- A vector broadcast to a one-row matrix and then down the rows reads, at `(p, q)`, the vector at `q`. -/
theorem bias_rows_apply {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply _ h2 _ (ix2 p q) (ix2 (0 : Fin 1) q) (fun a => by
        match a with
        | ⟨0, _⟩ => show (0 : Nat) = if (1 : Nat) = 1 then 0 else p.val; rw [if_pos rfl]
        | ⟨1, _⟩ => show q.val = if N = 1 then 0 else q.val; have hq := q.isLt; split <;> first | rfl | omega),
      broadcastInDim_apply _ h1 _ (ix2 (0 : Fin 1) q) (ix1 q) (fun a => by
        match a with
        | ⟨0, _⟩ => show q.val = if N = 1 then 0 else q.val; have hq := q.isLt; split <;> first | rfl | omega)]

/-- A scalar broadcast to a matrix reads the scalar everywhere. -/
theorem scalar_bcast_apply {α : Type} (x : (⟨0, ![]⟩ : Shape).Idx → α)
    (h0 : (⟨0, ![]⟩ : Shape).BroadcastsInDim ⟨2, ![M, N]⟩ ![]) (i : (⟨2, ![M, N]⟩ : Shape).Idx) :
    broadcastInDim ⟨2, ![M, N]⟩ ![] h0 x i = x ix0 :=
  broadcastInDim_apply _ h0 x i ix0 (fun a => a.elim0)

/-- The host's `affine`, the bias a vector. -/
theorem host_affine_apply (prec : Option ContractPrecision)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    addf (Host.dotGeneral (DotDims.plain M K N) prec x w)
        (broadcastInDim ⟨2, ![M, N]⟩ ![0, 1] h2 (broadcastInDim ⟨2, ![1, N]⟩ ![1] h1 b)) (ix2 p q)
      = affine x w (shapeCast ⟨2, ![1, N]⟩ b hc) (ix2 p q) := by
  rw [addf_apply, bias_rows_apply, affine_ix2, shapeCast_a_1a_apply]
  simp only [Host.dotGeneral]
  rw [Cert.LibPlainDot.dotGeneral_plain_apply]

/-- The host's `layer`: the carried features plus the larger of the host's `affine` and a broadcast zero. -/
theorem host_layer_apply (prec : Option ContractPrecision)
    (agg : FVec Ideal ⟨2, ![M, K]⟩ .f32) (h : FVec Ideal ⟨2, ![M, N]⟩ .f32) (w : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) (p : Fin M) (q : Fin N) :
    addf h
        (maximumf
          (addf (Host.dotGeneral (DotDims.plain M K N) prec agg w)
            (broadcastInDim ⟨2, ![M, N]⟩ ![0, 1] h2 (broadcastInDim ⟨2, ![1, N]⟩ ![1] h1 b)))
          (broadcastInDim ⟨2, ![M, N]⟩ ![] h0 (constant (F := Ideal) ⟨0, ![]⟩ .f32 0x00000000#32))) (ix2 p q)
      = layer agg h w (shapeCast ⟨2, ![1, N]⟩ b hc) (ix2 p q) := by
  rw [addf_apply, maximumf_apply, scalar_bcast_apply, host_affine_apply prec agg w b h1 h2 hc p q]
  rfl

/-- The host's `head`. -/
theorem host_head_apply {H T : Nat} (prec : Option ContractPrecision)
    (g : FVec Ideal ⟨2, ![M, K]⟩ .f32) (w1 : FVec Ideal ⟨2, ![K, H]⟩ .f32) (b1 : FVec Ideal ⟨1, ![H]⟩ .f32)
    (w2 : FVec Ideal ⟨2, ![H, T]⟩ .f32) (b2 : FVec Ideal ⟨1, ![T]⟩ .f32)
    (h11 : (⟨1, ![H]⟩ : Shape).BroadcastsInDim ⟨2, ![1, H]⟩ ![1])
    (h12 : (⟨2, ![1, H]⟩ : Shape).BroadcastsInDim ⟨2, ![M, H]⟩ ![0, 1])
    (h0 : (⟨0, ![]⟩ : Shape).BroadcastsInDim ⟨2, ![M, H]⟩ ![])
    (hc1 : (⟨1, ![H]⟩ : Shape).ShapeCasts ⟨2, ![1, H]⟩)
    (h21 : (⟨1, ![T]⟩ : Shape).BroadcastsInDim ⟨2, ![1, T]⟩ ![1])
    (h22 : (⟨2, ![1, T]⟩ : Shape).BroadcastsInDim ⟨2, ![M, T]⟩ ![0, 1])
    (hc2 : (⟨1, ![T]⟩ : Shape).ShapeCasts ⟨2, ![1, T]⟩) (p : Fin M) (t : Fin T) :
    addf (Host.dotGeneral (DotDims.plain M H T) prec
            (maximumf
              (addf (Host.dotGeneral (DotDims.plain M K H) prec g w1)
                (broadcastInDim ⟨2, ![M, H]⟩ ![0, 1] h12 (broadcastInDim ⟨2, ![1, H]⟩ ![1] h11 b1)))
              (broadcastInDim ⟨2, ![M, H]⟩ ![] h0 (constant (F := Ideal) ⟨0, ![]⟩ .f32 0x00000000#32))) w2)
        (broadcastInDim ⟨2, ![M, T]⟩ ![0, 1] h22 (broadcastInDim ⟨2, ![1, T]⟩ ![1] h21 b2)) (ix2 p t)
      = head g w1 (shapeCast ⟨2, ![1, H]⟩ b1 hc1) w2 (shapeCast ⟨2, ![1, T]⟩ b2 hc2) (ix2 p t) := by
  rw [addf_apply, bias_rows_apply]
  unfold head
  rw [affine_ix2, shapeCast_a_1a_apply]
  simp only [Host.dotGeneral]
  rw [Cert.LibPlainDot.dotGeneral_plain_apply]
  refine congrArg (· + b2 (ix1 t)) (Finset.sum_congr rfl fun k _ => ?_)
  refine congrArg (· * w2 (ix2 k t)) ?_
  rw [maximumf_apply, scalar_bcast_apply]
  exact congrArg (max · zeroWord) (host_affine_apply prec g w1 b1 h11 h12 hc1 p k)

/-! ## A tile of rows

A stage computed on a tile of rows `pb ↦ p` of its row-indexed operands (the other operands whole) is the stage of the
whole arrays at row `p`: each entry depends on one row of the row-indexed operands only. -/

theorem affine_of_rows {Mb : Nat} (X : (⟨2, ![M, K]⟩ : Shape).Idx → EReal) (W : (⟨2, ![K, N]⟩ : Shape).Idx → EReal)
    (B : (⟨2, ![1, N]⟩ : Shape).Idx → EReal) (xb : (⟨2, ![Mb, K]⟩ : Shape).Idx → EReal)
    (wb : (⟨2, ![K, N]⟩ : Shape).Idx → EReal) (bb : (⟨2, ![1, N]⟩ : Shape).Idx → EReal) (pb : Fin Mb) (p : Fin M) (q : Fin N)
    (hx : ∀ k : Fin K, xb (ix2 pb k) = X (ix2 p k)) (hw : wb = W) (hb : bb = B) :
    affine xb wb bb (ix2 pb q) = affine X W B (ix2 p q) := by
  subst hw hb
  rw [affine_ix2, affine_ix2]
  simp only [hx]

theorem layer_of_rows {Mb : Nat} (A : (⟨2, ![M, K]⟩ : Shape).Idx → EReal) (H : (⟨2, ![M, N]⟩ : Shape).Idx → EReal)
    (W : (⟨2, ![K, N]⟩ : Shape).Idx → EReal) (B : (⟨2, ![1, N]⟩ : Shape).Idx → EReal)
    (ab : (⟨2, ![Mb, K]⟩ : Shape).Idx → EReal) (hb' : (⟨2, ![Mb, N]⟩ : Shape).Idx → EReal)
    (wb : (⟨2, ![K, N]⟩ : Shape).Idx → EReal) (bb : (⟨2, ![1, N]⟩ : Shape).Idx → EReal) (pb : Fin Mb) (p : Fin M) (q : Fin N)
    (ha : ∀ k : Fin K, ab (ix2 pb k) = A (ix2 p k)) (hh : hb' (ix2 pb q) = H (ix2 p q)) (hw : wb = W) (hb : bb = B) :
    layer ab hb' wb bb (ix2 pb q) = layer A H W B (ix2 p q) := by
  unfold layer
  rw [hh, affine_of_rows A W B ab wb bb pb p q ha hw hb]

end Cert.Dense

end
-- ==== Proof.Region0.lean ====
/-
  The first launch (the node embedding), read as a value: whatever the buffers hold when the launch is entered, its
  result array ends holding `x · w + b` of the three arrays it reads — entry `(r, c)` is `Σ_k x(r, k) · w(k, c) + b(0, c)`.

  The grid has ten points; point `t` stages rows `10000·t … 10000·t + 9999` of `x`, all of `w` and of the one-row `b`, and
  writes back rows `10000·t …` of the result. The body's one store is the affine image of its three loaded blocks, an
  entry of which uses one row of the `x` block only; so what point `t` writes back is that tile of the affine image of the
  whole arrays, and the ten tiles cover the result.
-/
import proofs.«102544_j712964571382_1_alg».proof.Proof.Gen.KernelIdeal.Frame
import proofs.«102544_j712964571382_1_alg».proof.Proof.LibDenseStages
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored block is the affine image of its three loaded blocks. -/
theorem out_eq (x0 : Vec Ideal S10000x74 .f32) (x1 : Vec Ideal S74x64 .f32) (x2 : Vec Ideal S1x64 .f32) :
    out0_3 (F := Ideal) x0 x1 x2 = Cert.Dense.affine x0 x1 x2 := by
  unfold out0_3
  rw [View.canon_unit_zero hz]
  simp only [View.ld_unit_zero (S := S10000x74) hz, View.ld_unit_zero (S := S74x64) hz, View.ld_unit_zero (S := S1x64) hz]
  funext j
  obtain ⟨p, q, rfl⟩ : ∃ (p : Fin 10000) (q : Fin 64), j = ix2 p q := ⟨j 0, j 1, eq_ix2 j⟩
  unfold k0_pay1
  exact Cert.Dense.embed_form_apply none x0 x1 x2 _ _ _ p q

/-- The printed index maps over the grid: the row-tiled windows sit at block row `t`, everything else at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The `x` window's block at point `t` is rows `10000·t …` of its array. -/
theorem xblk_apply (c : Dev nD) (t : Fin cfg0.N) (x : S10000x74.Idx) (k : S100000x74.Idx)
    (hk0 : (k 0).val = 10000 * t.val + (x 0).val) (hk1 : (k 1).val = (x 1).val) :
    (iblk0 V c 0 t : Vec Ideal S10000x74 .f32) x = (V c (Pipeline.arrRef spec0 0) : S100000x74.Idx → Elt Ideal .f32) k := by
  obtain ⟨e0, e1, -⟩ := idx_facts t
  unfold iblk0
  rw [View.read_apply]
  refine congrArg (V c (Pipeline.arrRef spec0 0)) (funext fun a => Fin.ext ?_)
  match a with
  | ⟨0, _⟩ => show win0_0.index t 0 * 10000 + 1 * (x 0).val = (k 0).val; rw [e0, hk0]; omega
  | ⟨1, _⟩ => show win0_0.index t 1 * 74 + 1 * (x 1).val = (k 1).val; rw [e1, hk1]; omega

/-- The `w` window's block is its whole array at every point. -/
theorem wblk_eq (c : Dev nD) (t : Fin cfg0.N) :
    (iblk0 V c 1 t : Vec Ideal S74x64 .f32) = (V c (Pipeline.arrRef spec0 1) : S74x64.Idx → Elt Ideal .f32) := by
  obtain ⟨-, -, e0, e1, -⟩ := idx_facts t
  funext x
  unfold iblk0
  rw [View.read_apply]
  refine congrArg (V c (Pipeline.arrRef spec0 1)) (funext fun a => Fin.ext ?_)
  match a with
  | ⟨0, _⟩ => show win0_1.index t 0 * 74 + 1 * (x 0).val = (x 0).val; rw [e0]; omega
  | ⟨1, _⟩ => show win0_1.index t 1 * 64 + 1 * (x 1).val = (x 1).val; rw [e1]; omega

/-- The bias window's block is its whole one-row array at every point. -/
theorem bblk_eq (c : Dev nD) (t : Fin cfg0.N) :
    (iblk0 V c 2 t : Vec Ideal S1x64 .f32) = (V c (Pipeline.arrRef spec0 2) : S1x64.Idx → Elt Ideal .f32) := by
  obtain ⟨-, -, -, -, e0, e1, -⟩ := idx_facts t
  funext x
  unfold iblk0
  rw [View.read_apply]
  refine congrArg (V c (Pipeline.arrRef spec0 2)) (funext fun a => Fin.ext ?_)
  match a with
  | ⟨0, _⟩ => show win0_2.index t 0 * 1 + 1 * (x 0).val = (x 0).val; rw [e0]; omega
  | ⟨1, _⟩ => show win0_2.index t 1 * 64 + 1 * (x 1).val = (x 1).val; rw [e1]; omega

/-- The whole-array value: the affine image of the three arrays the launch reads. -/
abbrev G (c : Dev nD) : S100000x64.Idx → Elt Ideal .f32 :=
  Cert.Dense.affine (V c (Pipeline.arrRef spec0 0) : S100000x74.Idx → Elt Ideal .f32)
    (V c (Pipeline.arrRef spec0 1) : S74x64.Idx → Elt Ideal .f32) (V c (Pipeline.arrRef spec0 2) : S1x64.Idx → Elt Ideal .f32)

/-- WHAT POINT `t` WRITES BACK is tile `t` of the whole-array value. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3, out_eq]
  obtain ⟨-, -, -, -, -, -, e0, e1⟩ := idx_facts t
  funext j
  obtain ⟨pb, q, rfl⟩ : ∃ (pb : Fin 10000) (q : Fin 64), j = ix2 pb q := ⟨j 0, j 1, eq_ix2 j⟩
  have ht : t.val < 10 := Nat.lt_of_lt_of_eq t.isLt (show cfg0.N = 10 from N_0)
  have hp : 10000 * t.val + pb.val < 100000 := by have := pb.isLt; omega
  have he : (((cfg0.win 3).blk t).view.emb (ix2 pb q) : S100000x64.Idx) = ix2 (⟨10000 * t.val + pb.val, hp⟩ : Fin 100000) q := by
    funext a
    apply Fin.ext
    match a with
    | ⟨0, _⟩ => show win0_3.index t 0 * 10000 + 1 * pb.val = 10000 * t.val + pb.val; rw [e0]; omega
    | ⟨1, _⟩ => show win0_3.index t 1 * 64 + 1 * q.val = q.val; rw [e1]; omega
  show Cert.Dense.affine (iblk0 V c 0 t : Vec Ideal S10000x74 .f32) (iblk0 V c 1 t : Vec Ideal S74x64 .f32) (iblk0 V c 2 t : Vec Ideal S1x64 .f32) (ix2 pb q)
    = G V c (((cfg0.win 3).blk t).view.emb (ix2 pb q))
  rw [he]
  exact Cert.Dense.affine_of_rows _ _ _ _ _ _ pb ⟨10000 * t.val + pb.val, hp⟩ q
    (fun k => xblk_apply V c t (ix2 pb k) (ix2 ⟨10000 * t.val + pb.val, hp⟩ k) rfl rfl) (wblk_eq V c t) (bblk_eq V c t)

/-- An index of the result is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v24).slice (win0_3.rect t)).set ↔ _
  rw [View.set_slice_whole, Rect.mem_set_unit]
  exact Iff.rfl

/-- The ten tiles cover the result: row `r` is in the block of point `r / 10000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_3 _, ?_⟩
  rw [mem_blk]
  obtain ⟨-, -, -, -, -, -, e0, e1⟩ := idx_facts ⟨(i 0).val / 10000, by rw [hN]; omega⟩
  intro a
  match a with
  | ⟨0, _⟩ => show win0_3.index _ 0 * 10000 ≤ (i 0).val ∧ (i 0).val < win0_3.index _ 0 * 10000 + 10000; rw [e0]; dsimp only; omega
  | ⟨1, _⟩ => show win0_3.index _ 1 * 64 ≤ (i 1).val ∧ (i 1).val < win0_3.index _ 1 * 64 + 64; rw [e1]; omega

/-- THE RESULT ARRAY after the launch, whatever the entry contents: the affine image of the arrays it reads. -/
theorem value (c : Dev nD) : (dat0 V c).arrAt 3 cfg0.N = G V c :=
  (dat0 V c).arrAt_eq_of_cover 3 (G V c) (fun t _ => flushed_eq V c t) (cover)

end Cert.KernelIdeal.Region0

end
-- ==== Proof.Region1.lean ====
/-
  Launch 1 (a graph-convolution layer's dense half), read as a value: whatever the buffers hold when the launch is
  entered, its result array ends holding `h + max (agg · w + b) 0` of the four arrays it reads — entry `(r, c)` is
  `h(r, c) + max (Σ_k agg(r, k) · w(k, c) + b(0, c)) 0`.

  The grid has ten points; point `t` stages rows `10000·t … 10000·t + 9999` of `agg` and of `h`, all of `w` and of the
  one-row `b`, and writes back the same rows of the result. An entry of the body's one store uses one row of the `agg`
  block and one entry of the `h` block; so what point `t` writes back is that tile of the layer of the whole arrays, and
  the ten tiles cover the result.
-/
import proofs.«102544_j712964571382_1_alg».proof.Proof.Gen.KernelIdeal.Frame
import proofs.«102544_j712964571382_1_alg».proof.Proof.LibDenseStages
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored block is the layer of its four loaded blocks. -/
theorem out_eq (x0 : Vec Ideal S10000x64 .f32) (x1 : Vec Ideal S10000x64 .f32) (x2 : Vec Ideal S64x64 .f32) (x3 : Vec Ideal S1x64 .f32) :
    out1_4 (F := Ideal) x0 x1 x2 x3 = Cert.Dense.layer x0 x1 x2 x3 := by
  unfold out1_4
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  unfold k1_pay1
  exact Cert.Dense.layer_form_apply none x0 x1 x2 x3 _ _ _ _ _ _ p q

/-- The printed index maps over the grid: the row-tiled windows sit at block row `t`, everything else at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point `t` is rows `10000·t …` of its array. -/
theorem ablk_apply (c : Dev nD) (t : Fin cfg1.N) (x : S10000x64.Idx) (k : S100000x64.Idx)
    (hk0 : (k 0).val = 10000 * t.val + (x 0).val) (hk1 : (k 1).val = (x 1).val) :
    (iblk1 V c 0 t : Vec Ideal S10000x64 .f32) x = (V c (Pipeline.arrRef spec1 0) : S100000x64.Idx → Elt Ideal .f32) k := by
  obtain ⟨e0, e1, -⟩ := idx_facts t
  unfold iblk1
  rw [View.read_apply]
  refine congrArg (V c (Pipeline.arrRef spec1 0)) (funext fun a => Fin.ext ?_)
  match a with
  | ⟨0, _⟩ => show win1_0.index t 0 * 10000 + 1 * (x 0).val = (k 0).val; rw [e0, hk0]; omega
  | ⟨1, _⟩ => show win1_0.index t 1 * 64 + 1 * (x 1).val = (k 1).val; rw [e1, hk1]; omega

/-- The carried features' block at point `t` is rows `10000·t …` of their array. -/
theorem hblk_apply (c : Dev nD) (t : Fin cfg1.N) (x : S10000x64.Idx) (k : S100000x64.Idx)
    (hk0 : (k 0).val = 10000 * t.val + (x 0).val) (hk1 : (k 1).val = (x 1).val) :
    (iblk1 V c 1 t : Vec Ideal S10000x64 .f32) x = (V c (Pipeline.arrRef spec1 1) : S100000x64.Idx → Elt Ideal .f32) k := by
  obtain ⟨-, -, e0, e1, -⟩ := idx_facts t
  unfold iblk1
  rw [View.read_apply]
  refine congrArg (V c (Pipeline.arrRef spec1 1)) (funext fun a => Fin.ext ?_)
  match a with
  | ⟨0, _⟩ => show win1_1.index t 0 * 10000 + 1 * (x 0).val = (k 0).val; rw [e0, hk0]; omega
  | ⟨1, _⟩ => show win1_1.index t 1 * 64 + 1 * (x 1).val = (k 1).val; rw [e1, hk1]; omega

/-- The weights' block is their whole array at every point. -/
theorem wblk_eq (c : Dev nD) (t : Fin cfg1.N) :
    (iblk1 V c 2 t : Vec Ideal S64x64 .f32) = (V c (Pipeline.arrRef spec1 2) : S64x64.Idx → Elt Ideal .f32) := by
  obtain ⟨-, -, -, -, e0, e1, -⟩ := idx_facts t
  funext x
  unfold iblk1
  rw [View.read_apply]
  refine congrArg (V c (Pipeline.arrRef spec1 2)) (funext fun a => Fin.ext ?_)
  match a with
  | ⟨0, _⟩ => show win1_2.index t 0 * 64 + 1 * (x 0).val = (x 0).val; rw [e0]; omega
  | ⟨1, _⟩ => show win1_2.index t 1 * 64 + 1 * (x 1).val = (x 1).val; rw [e1]; omega

/-- The bias window's block is its whole one-row array at every point. -/
theorem bblk_eq (c : Dev nD) (t : Fin cfg1.N) :
    (iblk1 V c 3 t : Vec Ideal S1x64 .f32) = (V c (Pipeline.arrRef spec1 3) : S1x64.Idx → Elt Ideal .f32) := by
  obtain ⟨-, -, -, -, -, -, e0, e1, -⟩ := idx_facts t
  funext x
  unfold iblk1
  rw [View.read_apply]
  refine congrArg (V c (Pipeline.arrRef spec1 3)) (funext fun a => Fin.ext ?_)
  match a with
  | ⟨0, _⟩ => show win1_3.index t 0 * 1 + 1 * (x 0).val = (x 0).val; rw [e0]; omega
  | ⟨1, _⟩ => show win1_3.index t 1 * 64 + 1 * (x 1).val = (x 1).val; rw [e1]; omega

/-- The whole-array value: the layer of the four arrays the launch reads. -/
abbrev G (c : Dev nD) : S100000x64.Idx → Elt Ideal .f32 :=
  Cert.Dense.layer (V c (Pipeline.arrRef spec1 0) : S100000x64.Idx → Elt Ideal .f32)
    (V c (Pipeline.arrRef spec1 1) : S100000x64.Idx → Elt Ideal .f32)
    (V c (Pipeline.arrRef spec1 2) : S64x64.Idx → Elt Ideal .f32) (V c (Pipeline.arrRef spec1 3) : S1x64.Idx → Elt Ideal .f32)

/-- WHAT POINT `t` WRITES BACK is tile `t` of the whole-array value. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4, out_eq]
  obtain ⟨-, -, -, -, -, -, -, -, e0, e1⟩ := idx_facts t
  funext j
  obtain ⟨pb, q, rfl⟩ : ∃ (pb : Fin 10000) (q : Fin 64), j = ix2 pb q := ⟨j 0, j 1, eq_ix2 j⟩
  have ht : t.val < 10 := Nat.lt_of_lt_of_eq t.isLt (show cfg1.N = 10 from N_1)
  have hp : 10000 * t.val + pb.val < 100000 := by have := pb.isLt; omega
  have he : (((cfg1.win 4).blk t).view.emb (ix2 pb q) : S100000x64.Idx) = ix2 (⟨10000 * t.val + pb.val, hp⟩ : Fin 100000) q := by
    funext a
    apply Fin.ext
    match a with
    | ⟨0, _⟩ => show win1_4.index t 0 * 10000 + 1 * pb.val = 10000 * t.val + pb.val; rw [e0]; omega
    | ⟨1, _⟩ => show win1_4.index t 1 * 64 + 1 * q.val = q.val; rw [e1]; omega
  show Cert.Dense.layer (iblk1 V c 0 t : Vec Ideal S10000x64 .f32) (iblk1 V c 1 t : Vec Ideal S10000x64 .f32)
      (iblk1 V c 2 t : Vec Ideal S64x64 .f32) (iblk1 V c 3 t : Vec Ideal S1x64 .f32) (ix2 pb q)
    = G V c (((cfg1.win 4).blk t).view.emb (ix2 pb q))
  rw [he]
  exact Cert.Dense.layer_of_rows _ _ _ _ _ _ _ _ pb ⟨10000 * t.val + pb.val, hp⟩ q
    (fun k => ablk_apply V c t (ix2 pb k) (ix2 ⟨10000 * t.val + pb.val, hp⟩ k) rfl rfl)
    (hblk_apply V c t (ix2 pb q) (ix2 ⟨10000 * t.val + pb.val, hp⟩ q) rfl rfl) (wblk_eq V c t) (bblk_eq V c t)

/-- An index of the result is in point `t`'s block iff each coordinate is in the block's range on its axis. -/
theorem mem_blk (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v53).slice (win1_4.rect t)).set ↔ _
  rw [View.set_slice_whole, Rect.mem_set_unit]
  exact Iff.rfl

/-- The ten tiles cover the result: row `r` is in the block of point `r / 10000`. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  refine ⟨⟨(i 0).val / 10000, by rw [hN]; omega⟩, flush1_4 _, ?_⟩
  rw [mem_blk]
  obtain ⟨-, -, -, -, -, -, -, -, e0, e1⟩ := idx_facts ⟨(i 0).val / 10000, by rw [hN]; omega⟩
  intro a
  match a with
  | ⟨0, _⟩ => show win1_4.index _ 0 * 10000 ≤ (i 0).val ∧ (i 0).val < win1_4.index _ 0 * 10000 + 10000; rw [e0]; dsimp only; omega
  | ⟨1, _⟩ => show win1_4.index _ 1 * 64 ≤ (i 1).val ∧ (i 1).val < win1_4.index _ 1 * 64 + 64; rw [e1]; omega

/-- THE RESULT ARRAY after the launch, whatever the entry contents: the layer of the arrays it reads. -/
theorem value (c : Dev nD) : (dat1 V c).arrAt 4 cfg1.N = G V c :=
  (dat1 V c).arrAt_eq_of_cover 4 (G V c) (fun t _ => flushed_eq V c t) (cover)

end Cert.KernelIdeal.Region1

end
-- ==== Proof.Region2.lean ====
/-
  Launch 2 (a graph-convolution layer's dense half), read as a value: whatever the buffers hold when the launch is
  entered, its result array ends holding `h + max (agg · w + b) 0` of the four arrays it reads — entry `(r, c)` is
  `h(r, c) + max (Σ_k agg(r, k) · w(k, c) + b(0, c)) 0`.

  The grid has ten points; point `t` stages rows `10000·t … 10000·t + 9999` of `agg` and of `h`, all of `w` and of the
  one-row `b`, and writes back the same rows of the result. An entry of the body's one store uses one row of the `agg`
  block and one entry of the `h` block; so what point `t` writes back is that tile of the layer of the whole arrays, and
  the ten tiles cover the result.
-/
import proofs.«102544_j712964571382_1_alg».proof.Proof.Gen.KernelIdeal.Frame
import proofs.«102544_j712964571382_1_alg».proof.Proof.LibDenseStages
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored block is the layer of its four loaded blocks. -/
theorem out_eq (x0 : Vec Ideal S10000x64 .f32) (x1 : Vec Ideal S10000x64 .f32) (x2 : Vec Ideal S64x64 .f32) (x3 : Vec Ideal S1x64 .f32) :
    out2_4 (F := Ideal) x0 x1 x2 x3 = Cert.Dense.layer x0 x1 x2 x3 := by
  unfold out2_4
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  unfold k2_pay1
  exact Cert.Dense.layer_form_apply none x0 x1 x2 x3 _ _ _ _ _ _ p q

/-- The printed index maps over the grid: the row-tiled windows sit at block row `t`, everything else at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The aggregate's block at point `t` is rows `10000·t …` of its array. -/
theorem ablk_apply (c : Dev nD) (t : Fin cfg2.N) (x : S10000x64.Idx) (k : S100000x64.Idx)
    (hk0 : (k 0).val = 10000 * t.val + (x 0).val) (hk1 : (k 1).val = (x 1).val) :
    (iblk2 V c 0 t : Vec Ideal S10000x64 .f32) x = (V c (Pipeline.arrRef spec2 0) : S100000x64.Idx → Elt Ideal .f32) k := by
  obtain ⟨e0, e1, -⟩ := idx_facts t
  unfold iblk2
  rw [View.read_apply]
  refine congrArg (V c (Pipeline.arrRef spec2 0)) (funext fun a => Fin.ext ?_)
  match a with
  | ⟨0, _⟩ => show win2_0.index t 0 * 10000 + 1 * (x 0).val = (k 0).val; rw [e0, hk0]; omega
  | ⟨1, _⟩ => show win2_0.index t 1 * 64 + 1 * (x 1).val = (k 1).val; rw [e1, hk1]; omega

/-- The carried features' block at point `t` is rows `10000·t …` of their array. -/
theorem hblk_apply (c : Dev nD) (t : Fin cfg2.N) (x : S10000x64.Idx) (k : S100000x64.Idx)
    (hk0 : (k 0).val = 10000 * t.val + (x 0).val) (hk1 : (k 1).val = (x 1).val) :
    (iblk2 V c 1 t : Vec Ideal S10000x64 .f32) x = (V c (Pipeline.arrRef spec2 1) : S100000x64.Idx → Elt Ideal .f32) k := by
  obtain ⟨-, -, e0, e1, -⟩ := idx_facts t
  unfold iblk2
  rw [View.read_apply]
  refine congrArg (V c (Pipeline.arrRef spec2 1)) (funext fun a => Fin.ext ?_)
  match a with
  | ⟨0, _⟩ => show win2_1.index t 0 * 10000 + 1 * (x 0).val = (k 0).val; rw [e0, hk0]; omega
  | ⟨1, _⟩ => show win2_1.index t 1 * 64 + 1 * (x 1).val = (k 1).val; rw [e1, hk1]; omega

/-- The weights' block is their whole array at every point. -/
theorem wblk_eq (c : Dev nD) (t : Fin cfg2.N) :
    (iblk2 V c 2 t : Vec Ideal S64x64 .f32) = (V c (Pipeline.arrRef spec2 2) : S64x64.Idx → Elt Ideal .f32) := by
  obtain ⟨-, -, -, -, e0, e1, -⟩ := idx_facts t
  funext x
  unfold iblk2
  rw [View.read_apply]
  refine congrArg (V c (Pipeline.arrRef spec2 2)) (funext fun a => Fin.ext ?_)
  match a with
  | ⟨0, _⟩ => show win2_2.index t 0 * 64 + 1 * (x 0).val = (x 0).val; rw [e0]; omega
  | ⟨1, _⟩ => show win2_2.index t 1 * 64 + 1 * (x 1).val = (x 1).val; rw [e1]; omega

/-- The bias window's block is its whole one-row array at every point. -/
theorem bblk_eq (c : Dev nD) (t : Fin cfg2.N) :
    (iblk2 V c 3 t : Vec Ideal S1x64 .f32) = (V c (Pipeline.arrRef spec2 3) : S1x64.Idx → Elt Ideal .f32) := by
  obtain ⟨-, -, -, -, -, -, e0, e1, -⟩ := idx_facts t
  funext x
  unfold iblk2
  rw [View.read_apply]
  refine congrArg (V c (Pipeline.arrRef spec2 3)) (funext fun a => Fin.ext ?_)
  match a with
  | ⟨0, _⟩ => show win2_3.index t 0 * 1 + 1 * (x 0).val = (x 0).val; rw [e0]; omega
  | ⟨1, _⟩ => show win2_3.index t 1 * 64 + 1 * (x 1).val = (x 1).val; rw [e1]; omega

/-- The whole-array value: the layer of the four arrays the launch reads. -/
abbrev G (c : Dev nD) : S100000x64.Idx → Elt Ideal .f32 :=
  Cert.Dense.layer (V c (Pipeline.arrRef spec2 0) : S100000x64.Idx → Elt Ideal .f32)
    (V c (Pipeline.arrRef spec2 1) : S100000x64.Idx → Elt Ideal .f32)
    (V c (Pipeline.arrRef spec2 2) : S64x64.Idx → Elt Ideal .f32) (V c (Pipeline.arrRef spec2 3) : S1x64.Idx → Elt Ideal .f32)

/-- WHAT POINT `t` WRITES BACK is tile `t` of the whole-array value. -/
theorem flushed_eq (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4, out_eq]
  obtain ⟨-, -, -, -, -, -, -, -, e0, e1⟩ := idx_facts t
  funext j
  obtain ⟨pb, q, rfl⟩ : ∃ (pb : Fin 10000) (q : Fin 64), j = ix2 pb q := ⟨j 0, j 1, eq_ix2 j⟩
  have ht : t.val < 10 := Nat.lt_of_lt_of_eq t.isLt (show cfg2.N = 10 from N_2)
  have hp : 10000 * t.val + pb.val < 100000 := by have := pb.isLt; omega
  have he : (((cfg2.win 4).blk t).view.emb (ix2 pb q) : S100000x64.Idx) = ix2 (⟨10000 * t.val + pb.val, hp⟩ : Fin 100000) q := by
    funext a
    apply Fin.ext
    match a with
    | ⟨0, _⟩ => show win2_4.index t 0 * 10000 + 1 * pb.val = 10000 * t.val + pb.val; rw [e0]; omega
    | ⟨1, _⟩ => show win2_4.index t 1 * 64 + 1 * q.val = q.val; rw [e1]; omega
  show Cert.Dense.layer (iblk2 V c 0 t : Vec Ideal S10000x64 .f32) (iblk2 V c 1 t : Vec Ideal S10000x64 .f32)
      (iblk2 V c 2 t : Vec Ideal S64x64 .f32) (iblk2 V c 3 t : Vec Ideal S1x64 .f32) (ix2 pb q)
    = G V c (((cfg2.win 4).blk t).view.emb (ix2 pb q))
  rw [he]
  exact Cert.Dense.layer_of_rows _ _ _ _ _ _ _ _ pb ⟨10000 * t.val + pb.val, hp⟩ q
    (fun k => ablk_apply V c t (ix2 pb k) (ix2 ⟨10000 * t.val + pb.val, hp⟩ k) rfl rfl)
    (hblk_apply V c t (ix2 pb q) (ix2 ⟨10000 * t.val + pb.val, hp⟩ q) rfl rfl) (wblk_eq V c t) (bblk_eq V c t)

/-- An index of the result is in point `t`'s block iff each coordinate is in the block's range on its axis. -/
theorem mem_blk (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v82).slice (win2_4.rect t)).set ↔ _
  rw [View.set_slice_whole, Rect.mem_set_unit]
  exact Iff.rfl

/-- The ten tiles cover the result: row `r` is in the block of point `r / 10000`. -/
theorem cover (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 10 := N_2
  refine ⟨⟨(i 0).val / 10000, by rw [hN]; omega⟩, flush2_4 _, ?_⟩
  rw [mem_blk]
  obtain ⟨-, -, -, -, -, -, -, -, e0, e1⟩ := idx_facts ⟨(i 0).val / 10000, by rw [hN]; omega⟩
  intro a
  match a with
  | ⟨0, _⟩ => show win2_4.index _ 0 * 10000 ≤ (i 0).val ∧ (i 0).val < win2_4.index _ 0 * 10000 + 10000; rw [e0]; dsimp only; omega
  | ⟨1, _⟩ => show win2_4.index _ 1 * 64 ≤ (i 1).val ∧ (i 1).val < win2_4.index _ 1 * 64 + 64; rw [e1]; omega

/-- THE RESULT ARRAY after the launch, whatever the entry contents: the layer of the arrays it reads. -/
theorem value (c : Dev nD) : (dat2 V c).arrAt 4 cfg2.N = G V c :=
  (dat2 V c).arrAt_eq_of_cover 4 (G V c) (fun t _ => flushed_eq V c t) (cover)

end Cert.KernelIdeal.Region2

end
-- ==== Proof.Region3.lean ====
/-
  Launch 3 (a graph-convolution layer's dense half), read as a value: whatever the buffers hold when the launch is
  entered, its result array ends holding `h + max (agg · w + b) 0` of the four arrays it reads — entry `(r, c)` is
  `h(r, c) + max (Σ_k agg(r, k) · w(k, c) + b(0, c)) 0`.

  The grid has ten points; point `t` stages rows `10000·t … 10000·t + 9999` of `agg` and of `h`, all of `w` and of the
  one-row `b`, and writes back the same rows of the result. An entry of the body's one store uses one row of the `agg`
  block and one entry of the `h` block; so what point `t` writes back is that tile of the layer of the whole arrays, and
  the ten tiles cover the result.
-/
import proofs.«102544_j712964571382_1_alg».proof.Proof.Gen.KernelIdeal.Frame
import proofs.«102544_j712964571382_1_alg».proof.Proof.LibDenseStages
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored block is the layer of its four loaded blocks. -/
theorem out_eq (x0 : Vec Ideal S10000x64 .f32) (x1 : Vec Ideal S10000x64 .f32) (x2 : Vec Ideal S64x64 .f32) (x3 : Vec Ideal S1x64 .f32) :
    out3_4 (F := Ideal) x0 x1 x2 x3 = Cert.Dense.layer x0 x1 x2 x3 := by
  unfold out3_4
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  unfold k3_pay1
  exact Cert.Dense.layer_form_apply none x0 x1 x2 x3 _ _ _ _ _ _ p q

/-- The printed index maps over the grid: the row-tiled windows sit at block row `t`, everything else at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point `t` is rows `10000·t …` of its array. -/
theorem ablk_apply (c : Dev nD) (t : Fin cfg3.N) (x : S10000x64.Idx) (k : S100000x64.Idx)
    (hk0 : (k 0).val = 10000 * t.val + (x 0).val) (hk1 : (k 1).val = (x 1).val) :
    (iblk3 V c 0 t : Vec Ideal S10000x64 .f32) x = (V c (Pipeline.arrRef spec3 0) : S100000x64.Idx → Elt Ideal .f32) k := by
  obtain ⟨e0, e1, -⟩ := idx_facts t
  unfold iblk3
  rw [View.read_apply]
  refine congrArg (V c (Pipeline.arrRef spec3 0)) (funext fun a => Fin.ext ?_)
  match a with
  | ⟨0, _⟩ => show win3_0.index t 0 * 10000 + 1 * (x 0).val = (k 0).val; rw [e0, hk0]; omega
  | ⟨1, _⟩ => show win3_0.index t 1 * 64 + 1 * (x 1).val = (k 1).val; rw [e1, hk1]; omega

/-- The carried features' block at point `t` is rows `10000·t …` of their array. -/
theorem hblk_apply (c : Dev nD) (t : Fin cfg3.N) (x : S10000x64.Idx) (k : S100000x64.Idx)
    (hk0 : (k 0).val = 10000 * t.val + (x 0).val) (hk1 : (k 1).val = (x 1).val) :
    (iblk3 V c 1 t : Vec Ideal S10000x64 .f32) x = (V c (Pipeline.arrRef spec3 1) : S100000x64.Idx → Elt Ideal .f32) k := by
  obtain ⟨-, -, e0, e1, -⟩ := idx_facts t
  unfold iblk3
  rw [View.read_apply]
  refine congrArg (V c (Pipeline.arrRef spec3 1)) (funext fun a => Fin.ext ?_)
  match a with
  | ⟨0, _⟩ => show win3_1.index t 0 * 10000 + 1 * (x 0).val = (k 0).val; rw [e0, hk0]; omega
  | ⟨1, _⟩ => show win3_1.index t 1 * 64 + 1 * (x 1).val = (k 1).val; rw [e1, hk1]; omega

/-- The weights' block is their whole array at every point. -/
theorem wblk_eq (c : Dev nD) (t : Fin cfg3.N) :
    (iblk3 V c 2 t : Vec Ideal S64x64 .f32) = (V c (Pipeline.arrRef spec3 2) : S64x64.Idx → Elt Ideal .f32) := by
  obtain ⟨-, -, -, -, e0, e1, -⟩ := idx_facts t
  funext x
  unfold iblk3
  rw [View.read_apply]
  refine congrArg (V c (Pipeline.arrRef spec3 2)) (funext fun a => Fin.ext ?_)
  match a with
  | ⟨0, _⟩ => show win3_2.index t 0 * 64 + 1 * (x 0).val = (x 0).val; rw [e0]; omega
  | ⟨1, _⟩ => show win3_2.index t 1 * 64 + 1 * (x 1).val = (x 1).val; rw [e1]; omega

/-- The bias window's block is its whole one-row array at every point. -/
theorem bblk_eq (c : Dev nD) (t : Fin cfg3.N) :
    (iblk3 V c 3 t : Vec Ideal S1x64 .f32) = (V c (Pipeline.arrRef spec3 3) : S1x64.Idx → Elt Ideal .f32) := by
  obtain ⟨-, -, -, -, -, -, e0, e1, -⟩ := idx_facts t
  funext x
  unfold iblk3
  rw [View.read_apply]
  refine congrArg (V c (Pipeline.arrRef spec3 3)) (funext fun a => Fin.ext ?_)
  match a with
  | ⟨0, _⟩ => show win3_3.index t 0 * 1 + 1 * (x 0).val = (x 0).val; rw [e0]; omega
  | ⟨1, _⟩ => show win3_3.index t 1 * 64 + 1 * (x 1).val = (x 1).val; rw [e1]; omega

/-- The whole-array value: the layer of the four arrays the launch reads. -/
abbrev G (c : Dev nD) : S100000x64.Idx → Elt Ideal .f32 :=
  Cert.Dense.layer (V c (Pipeline.arrRef spec3 0) : S100000x64.Idx → Elt Ideal .f32)
    (V c (Pipeline.arrRef spec3 1) : S100000x64.Idx → Elt Ideal .f32)
    (V c (Pipeline.arrRef spec3 2) : S64x64.Idx → Elt Ideal .f32) (V c (Pipeline.arrRef spec3 3) : S1x64.Idx → Elt Ideal .f32)

/-- WHAT POINT `t` WRITES BACK is tile `t` of the whole-array value. -/
theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4, out_eq]
  obtain ⟨-, -, -, -, -, -, -, -, e0, e1⟩ := idx_facts t
  funext j
  obtain ⟨pb, q, rfl⟩ : ∃ (pb : Fin 10000) (q : Fin 64), j = ix2 pb q := ⟨j 0, j 1, eq_ix2 j⟩
  have ht : t.val < 10 := Nat.lt_of_lt_of_eq t.isLt (show cfg3.N = 10 from N_3)
  have hp : 10000 * t.val + pb.val < 100000 := by have := pb.isLt; omega
  have he : (((cfg3.win 4).blk t).view.emb (ix2 pb q) : S100000x64.Idx) = ix2 (⟨10000 * t.val + pb.val, hp⟩ : Fin 100000) q := by
    funext a
    apply Fin.ext
    match a with
    | ⟨0, _⟩ => show win3_4.index t 0 * 10000 + 1 * pb.val = 10000 * t.val + pb.val; rw [e0]; omega
    | ⟨1, _⟩ => show win3_4.index t 1 * 64 + 1 * q.val = q.val; rw [e1]; omega
  show Cert.Dense.layer (iblk3 V c 0 t : Vec Ideal S10000x64 .f32) (iblk3 V c 1 t : Vec Ideal S10000x64 .f32)
      (iblk3 V c 2 t : Vec Ideal S64x64 .f32) (iblk3 V c 3 t : Vec Ideal S1x64 .f32) (ix2 pb q)
    = G V c (((cfg3.win 4).blk t).view.emb (ix2 pb q))
  rw [he]
  exact Cert.Dense.layer_of_rows _ _ _ _ _ _ _ _ pb ⟨10000 * t.val + pb.val, hp⟩ q
    (fun k => ablk_apply V c t (ix2 pb k) (ix2 ⟨10000 * t.val + pb.val, hp⟩ k) rfl rfl)
    (hblk_apply V c t (ix2 pb q) (ix2 ⟨10000 * t.val + pb.val, hp⟩ q) rfl rfl) (wblk_eq V c t) (bblk_eq V c t)

/-- An index of the result is in point `t`'s block iff each coordinate is in the block's range on its axis. -/
theorem mem_blk (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v111).slice (win3_4.rect t)).set ↔ _
  rw [View.set_slice_whole, Rect.mem_set_unit]
  exact Iff.rfl

/-- The ten tiles cover the result: row `r` is in the block of point `r / 10000`. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := N_3
  refine ⟨⟨(i 0).val / 10000, by rw [hN]; omega⟩, flush3_4 _, ?_⟩
  rw [mem_blk]
  obtain ⟨-, -, -, -, -, -, -, -, e0, e1⟩ := idx_facts ⟨(i 0).val / 10000, by rw [hN]; omega⟩
  intro a
  match a with
  | ⟨0, _⟩ => show win3_4.index _ 0 * 10000 ≤ (i 0).val ∧ (i 0).val < win3_4.index _ 0 * 10000 + 10000; rw [e0]; dsimp only; omega
  | ⟨1, _⟩ => show win3_4.index _ 1 * 64 ≤ (i 1).val ∧ (i 1).val < win3_4.index _ 1 * 64 + 64; rw [e1]; omega

/-- THE RESULT ARRAY after the launch, whatever the entry contents: the layer of the arrays it reads. -/
theorem value (c : Dev nD) : (dat3 V c).arrAt 4 cfg3.N = G V c :=
  (dat3 V c).arrAt_eq_of_cover 4 (G V c) (fun t _ => flushed_eq V c t) (cover)

end Cert.KernelIdeal.Region3

end
-- ==== Proof.Region4.lean ====
/-
  Launch 4 (a graph-convolution layer's dense half), read as a value: whatever the buffers hold when the launch is
  entered, its result array ends holding `h + max (agg · w + b) 0` of the four arrays it reads — entry `(r, c)` is
  `h(r, c) + max (Σ_k agg(r, k) · w(k, c) + b(0, c)) 0`.

  The grid has ten points; point `t` stages rows `10000·t … 10000·t + 9999` of `agg` and of `h`, all of `w` and of the
  one-row `b`, and writes back the same rows of the result. An entry of the body's one store uses one row of the `agg`
  block and one entry of the `h` block; so what point `t` writes back is that tile of the layer of the whole arrays, and
  the ten tiles cover the result.
-/
import proofs.«102544_j712964571382_1_alg».proof.Proof.Gen.KernelIdeal.Frame
import proofs.«102544_j712964571382_1_alg».proof.Proof.LibDenseStages
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored block is the layer of its four loaded blocks. -/
theorem out_eq (x0 : Vec Ideal S10000x64 .f32) (x1 : Vec Ideal S10000x64 .f32) (x2 : Vec Ideal S64x64 .f32) (x3 : Vec Ideal S1x64 .f32) :
    out4_4 (F := Ideal) x0 x1 x2 x3 = Cert.Dense.layer x0 x1 x2 x3 := by
  unfold out4_4
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  unfold k4_pay1
  exact Cert.Dense.layer_form_apply none x0 x1 x2 x3 _ _ _ _ _ _ p q

/-- The printed index maps over the grid: the row-tiled windows sit at block row `t`, everything else at block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The aggregate's block at point `t` is rows `10000·t …` of its array. -/
theorem ablk_apply (c : Dev nD) (t : Fin cfg4.N) (x : S10000x64.Idx) (k : S100000x64.Idx)
    (hk0 : (k 0).val = 10000 * t.val + (x 0).val) (hk1 : (k 1).val = (x 1).val) :
    (iblk4 V c 0 t : Vec Ideal S10000x64 .f32) x = (V c (Pipeline.arrRef spec4 0) : S100000x64.Idx → Elt Ideal .f32) k := by
  obtain ⟨e0, e1, -⟩ := idx_facts t
  unfold iblk4
  rw [View.read_apply]
  refine congrArg (V c (Pipeline.arrRef spec4 0)) (funext fun a => Fin.ext ?_)
  match a with
  | ⟨0, _⟩ => show win4_0.index t 0 * 10000 + 1 * (x 0).val = (k 0).val; rw [e0, hk0]; omega
  | ⟨1, _⟩ => show win4_0.index t 1 * 64 + 1 * (x 1).val = (k 1).val; rw [e1, hk1]; omega

/-- The carried features' block at point `t` is rows `10000·t …` of their array. -/
theorem hblk_apply (c : Dev nD) (t : Fin cfg4.N) (x : S10000x64.Idx) (k : S100000x64.Idx)
    (hk0 : (k 0).val = 10000 * t.val + (x 0).val) (hk1 : (k 1).val = (x 1).val) :
    (iblk4 V c 1 t : Vec Ideal S10000x64 .f32) x = (V c (Pipeline.arrRef spec4 1) : S100000x64.Idx → Elt Ideal .f32) k := by
  obtain ⟨-, -, e0, e1, -⟩ := idx_facts t
  unfold iblk4
  rw [View.read_apply]
  refine congrArg (V c (Pipeline.arrRef spec4 1)) (funext fun a => Fin.ext ?_)
  match a with
  | ⟨0, _⟩ => show win4_1.index t 0 * 10000 + 1 * (x 0).val = (k 0).val; rw [e0, hk0]; omega
  | ⟨1, _⟩ => show win4_1.index t 1 * 64 + 1 * (x 1).val = (k 1).val; rw [e1, hk1]; omega

/-- The weights' block is their whole array at every point. -/
theorem wblk_eq (c : Dev nD) (t : Fin cfg4.N) :
    (iblk4 V c 2 t : Vec Ideal S64x64 .f32) = (V c (Pipeline.arrRef spec4 2) : S64x64.Idx → Elt Ideal .f32) := by
  obtain ⟨-, -, -, -, e0, e1, -⟩ := idx_facts t
  funext x
  unfold iblk4
  rw [View.read_apply]
  refine congrArg (V c (Pipeline.arrRef spec4 2)) (funext fun a => Fin.ext ?_)
  match a with
  | ⟨0, _⟩ => show win4_2.index t 0 * 64 + 1 * (x 0).val = (x 0).val; rw [e0]; omega
  | ⟨1, _⟩ => show win4_2.index t 1 * 64 + 1 * (x 1).val = (x 1).val; rw [e1]; omega

/-- The bias window's block is its whole one-row array at every point. -/
theorem bblk_eq (c : Dev nD) (t : Fin cfg4.N) :
    (iblk4 V c 3 t : Vec Ideal S1x64 .f32) = (V c (Pipeline.arrRef spec4 3) : S1x64.Idx → Elt Ideal .f32) := by
  obtain ⟨-, -, -, -, -, -, e0, e1, -⟩ := idx_facts t
  funext x
  unfold iblk4
  rw [View.read_apply]
  refine congrArg (V c (Pipeline.arrRef spec4 3)) (funext fun a => Fin.ext ?_)
  match a with
  | ⟨0, _⟩ => show win4_3.index t 0 * 1 + 1 * (x 0).val = (x 0).val; rw [e0]; omega
  | ⟨1, _⟩ => show win4_3.index t 1 * 64 + 1 * (x 1).val = (x 1).val; rw [e1]; omega

/-- The whole-array value: the layer of the four arrays the launch reads. -/
abbrev G (c : Dev nD) : S100000x64.Idx → Elt Ideal .f32 :=
  Cert.Dense.layer (V c (Pipeline.arrRef spec4 0) : S100000x64.Idx → Elt Ideal .f32)
    (V c (Pipeline.arrRef spec4 1) : S100000x64.Idx → Elt Ideal .f32)
    (V c (Pipeline.arrRef spec4 2) : S64x64.Idx → Elt Ideal .f32) (V c (Pipeline.arrRef spec4 3) : S1x64.Idx → Elt Ideal .f32)

/-- WHAT POINT `t` WRITES BACK is tile `t` of the whole-array value. -/
theorem flushed_eq (c : Dev nD) (t : Fin cfg4.N) :
    (dat4 V c).flushed 4 t = ((cfg4.win 4).blk t).view.read (Elt Ideal) (G V c) := by
  show (cfg4.win 4).cut (grid4.coords t) ((dat4 V c).after 4 t) = _
  rw [after4_4, out_eq]
  obtain ⟨-, -, -, -, -, -, -, -, e0, e1⟩ := idx_facts t
  funext j
  obtain ⟨pb, q, rfl⟩ : ∃ (pb : Fin 10000) (q : Fin 64), j = ix2 pb q := ⟨j 0, j 1, eq_ix2 j⟩
  have ht : t.val < 10 := Nat.lt_of_lt_of_eq t.isLt (show cfg4.N = 10 from N_4)
  have hp : 10000 * t.val + pb.val < 100000 := by have := pb.isLt; omega
  have he : (((cfg4.win 4).blk t).view.emb (ix2 pb q) : S100000x64.Idx) = ix2 (⟨10000 * t.val + pb.val, hp⟩ : Fin 100000) q := by
    funext a
    apply Fin.ext
    match a with
    | ⟨0, _⟩ => show win4_4.index t 0 * 10000 + 1 * pb.val = 10000 * t.val + pb.val; rw [e0]; omega
    | ⟨1, _⟩ => show win4_4.index t 1 * 64 + 1 * q.val = q.val; rw [e1]; omega
  show Cert.Dense.layer (iblk4 V c 0 t : Vec Ideal S10000x64 .f32) (iblk4 V c 1 t : Vec Ideal S10000x64 .f32)
      (iblk4 V c 2 t : Vec Ideal S64x64 .f32) (iblk4 V c 3 t : Vec Ideal S1x64 .f32) (ix2 pb q)
    = G V c (((cfg4.win 4).blk t).view.emb (ix2 pb q))
  rw [he]
  exact Cert.Dense.layer_of_rows _ _ _ _ _ _ _ _ pb ⟨10000 * t.val + pb.val, hp⟩ q
    (fun k => ablk_apply V c t (ix2 pb k) (ix2 ⟨10000 * t.val + pb.val, hp⟩ k) rfl rfl)
    (hblk_apply V c t (ix2 pb q) (ix2 ⟨10000 * t.val + pb.val, hp⟩ q) rfl rfl) (wblk_eq V c t) (bblk_eq V c t)

/-- An index of the result is in point `t`'s block iff each coordinate is in the block's range on its axis. -/
theorem mem_blk (t : Fin cfg4.N) (i : S100000x64.Idx) :
    i ∈ ((cfg4.win 4).blk t).view.set ↔ ∀ a : Fin 2, win4_4.index t a * S10000x64.size a ≤ (i a).val ∧ (i a).val < win4_4.index t a * S10000x64.size a + S10000x64.size a := by
  show i ∈ ((View.whole main_v140).slice (win4_4.rect t)).set ↔ _
  rw [View.set_slice_whole, Rect.mem_set_unit]
  exact Iff.rfl

/-- The ten tiles cover the result: row `r` is in the block of point `r / 10000`. -/
theorem cover (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  have hN : cfg4.N = 10 := N_4
  refine ⟨⟨(i 0).val / 10000, by rw [hN]; omega⟩, flush4_4 _, ?_⟩
  rw [mem_blk]
  obtain ⟨-, -, -, -, -, -, -, -, e0, e1⟩ := idx_facts ⟨(i 0).val / 10000, by rw [hN]; omega⟩
  intro a
  match a with
  | ⟨0, _⟩ => show win4_4.index _ 0 * 10000 ≤ (i 0).val ∧ (i 0).val < win4_4.index _ 0 * 10000 + 10000; rw [e0]; dsimp only; omega
  | ⟨1, _⟩ => show win4_4.index _ 1 * 64 ≤ (i 1).val ∧ (i 1).val < win4_4.index _ 1 * 64 + 64; rw [e1]; omega

/-- THE RESULT ARRAY after the launch, whatever the entry contents: the layer of the arrays it reads. -/
theorem value (c : Dev nD) : (dat4 V c).arrAt 4 cfg4.N = G V c :=
  (dat4 V c).arrAt_eq_of_cover 4 (G V c) (fun t _ => flushed_eq V c t) (cover)

end Cert.KernelIdeal.Region4

end
-- ==== Proof.Region5.lean ====
/-
  The last launch (the readout head), read as a value: whatever the buffers hold when the launch is entered, its result
  array ends holding `max (g · w₁ + b₁) 0 · w₂ + b₂` of the five arrays it reads.

  The grid has one point, which stages every array whole and writes the whole result back; the body's one store is the
  head of its five loaded blocks.
-/
import proofs.«102544_j712964571382_1_alg».proof.Proof.Gen.KernelIdeal.Frame
import proofs.«102544_j712964571382_1_alg».proof.Proof.LibDenseStages
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region5

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored block is the head of its five loaded blocks. -/
theorem out_eq (x0 : Vec Ideal S2048x64 .f32) (x1 : Vec Ideal S64x64 .f32) (x2 : Vec Ideal S1x64 .f32)
    (x3 : Vec Ideal S64x1 .f32) (x4 : Vec Ideal S1x1 .f32) :
    out5_5 (F := Ideal) x0 x1 x2 x3 x4 = Cert.Dense.head x0 x1 x2 x3 x4 := by
  unfold out5_5
  rw [View.canon_unit_zero hz]
  simp only [View.ld_unit_zero (S := S2048x64) hz, View.ld_unit_zero (S := S64x64) hz, View.ld_unit_zero (S := S1x64) hz,
    View.ld_unit_zero (S := S64x1) hz, View.ld_unit_zero (S := S1x1) hz]
  funext j
  obtain ⟨p, q, rfl⟩ : ∃ (p : Fin 2048) (q : Fin 1), j = ix2 p q := ⟨j 0, j 1, eq_ix2 j⟩
  unfold k5_pay1
  exact Cert.Dense.head_form_apply none x0 x1 x2 x3 x4 _ _ _ _ _ _ p q

/-- The printed index maps: every window sits at block (0, 0) at the one point. -/
theorem idx_facts : ∀ t : Fin cfg5.N, (win5_0.index t (0 : Fin 2) = 0 ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0) :=
  (by decide +kernel : ∀ t : Fin grid5.N, _)

/-- The pooled features' block is their whole array. -/
theorem gblk_eq (c : Dev nD) (t : Fin cfg5.N) :
    (iblk5 V c 0 t : Vec Ideal S2048x64 .f32) = (V c (Pipeline.arrRef spec5 0) : S2048x64.Idx → Elt Ideal .f32) := by
  have e := idx_facts t
  funext x
  unfold iblk5
  rw [View.read_apply]
  refine congrArg (V c (Pipeline.arrRef spec5 0)) (funext fun a => Fin.ext ?_)
  match a with
  | ⟨0, _⟩ => show win5_0.index t 0 * 2048 + 1 * (x 0).val = (x 0).val; rw [e.1.1]; omega
  | ⟨1, _⟩ => show win5_0.index t 1 * 64 + 1 * (x 1).val = (x 1).val; rw [e.1.2]; omega

/-- The first weights' block is their whole array. -/
theorem w1blk_eq (c : Dev nD) (t : Fin cfg5.N) :
    (iblk5 V c 1 t : Vec Ideal S64x64 .f32) = (V c (Pipeline.arrRef spec5 1) : S64x64.Idx → Elt Ideal .f32) := by
  have e := idx_facts t
  funext x
  unfold iblk5
  rw [View.read_apply]
  refine congrArg (V c (Pipeline.arrRef spec5 1)) (funext fun a => Fin.ext ?_)
  match a with
  | ⟨0, _⟩ => show win5_1.index t 0 * 64 + 1 * (x 0).val = (x 0).val; rw [e.2.1.1]; omega
  | ⟨1, _⟩ => show win5_1.index t 1 * 64 + 1 * (x 1).val = (x 1).val; rw [e.2.1.2]; omega

/-- The first bias row's block is its whole array. -/
theorem b1blk_eq (c : Dev nD) (t : Fin cfg5.N) :
    (iblk5 V c 2 t : Vec Ideal S1x64 .f32) = (V c (Pipeline.arrRef spec5 2) : S1x64.Idx → Elt Ideal .f32) := by
  have e := idx_facts t
  funext x
  unfold iblk5
  rw [View.read_apply]
  refine congrArg (V c (Pipeline.arrRef spec5 2)) (funext fun a => Fin.ext ?_)
  match a with
  | ⟨0, _⟩ => show win5_2.index t 0 * 1 + 1 * (x 0).val = (x 0).val; rw [e.2.2.1.1]; omega
  | ⟨1, _⟩ => show win5_2.index t 1 * 64 + 1 * (x 1).val = (x 1).val; rw [e.2.2.1.2]; omega

/-- The second weights' block is their whole array. -/
theorem w2blk_eq (c : Dev nD) (t : Fin cfg5.N) :
    (iblk5 V c 3 t : Vec Ideal S64x1 .f32) = (V c (Pipeline.arrRef spec5 3) : S64x1.Idx → Elt Ideal .f32) := by
  have e := idx_facts t
  funext x
  unfold iblk5
  rw [View.read_apply]
  refine congrArg (V c (Pipeline.arrRef spec5 3)) (funext fun a => Fin.ext ?_)
  match a with
  | ⟨0, _⟩ => show win5_3.index t 0 * 64 + 1 * (x 0).val = (x 0).val; rw [e.2.2.2.1.1]; omega
  | ⟨1, _⟩ => show win5_3.index t 1 * 1 + 1 * (x 1).val = (x 1).val; rw [e.2.2.2.1.2]; omega

/-- The second bias's block is its whole array. -/
theorem b2blk_eq (c : Dev nD) (t : Fin cfg5.N) :
    (iblk5 V c 4 t : Vec Ideal S1x1 .f32) = (V c (Pipeline.arrRef spec5 4) : S1x1.Idx → Elt Ideal .f32) := by
  have e := idx_facts t
  funext x
  unfold iblk5
  rw [View.read_apply]
  refine congrArg (V c (Pipeline.arrRef spec5 4)) (funext fun a => Fin.ext ?_)
  match a with
  | ⟨0, _⟩ => show win5_4.index t 0 * 1 + 1 * (x 0).val = (x 0).val; rw [e.2.2.2.2.1.1]; omega
  | ⟨1, _⟩ => show win5_4.index t 1 * 1 + 1 * (x 1).val = (x 1).val; rw [e.2.2.2.2.1.2]; omega

/-- The whole-array value: the head of the five arrays the launch reads. -/
abbrev G (c : Dev nD) : S2048x1.Idx → Elt Ideal .f32 :=
  Cert.Dense.head (V c (Pipeline.arrRef spec5 0) : S2048x64.Idx → Elt Ideal .f32)
    (V c (Pipeline.arrRef spec5 1) : S64x64.Idx → Elt Ideal .f32) (V c (Pipeline.arrRef spec5 2) : S1x64.Idx → Elt Ideal .f32)
    (V c (Pipeline.arrRef spec5 3) : S64x1.Idx → Elt Ideal .f32) (V c (Pipeline.arrRef spec5 4) : S1x1.Idx → Elt Ideal .f32)

/-- WHAT THE ONE POINT WRITES BACK is the whole-array value read through the whole-array block. -/
theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5, out_eq, gblk_eq V c t, w1blk_eq V c t, b1blk_eq V c t, w2blk_eq V c t, b2blk_eq V c t]
  have e := (idx_facts t).2.2.2.2.2
  funext j
  show G V c j = G V c (((cfg5.win 5).blk t).view.emb j)
  refine congrArg (G V c) (funext fun a => Fin.ext ?_)
  match a with
  | ⟨0, _⟩ => show (j 0).val = win5_5.index t 0 * 2048 + 1 * (j 0).val; rw [e.1]; omega
  | ⟨1, _⟩ => show (j 1).val = win5_5.index t 1 * 1 + 1 * (j 1).val; rw [e.2]; omega

/-- An index of the result is in the point's block iff each coordinate is in the block's range on its axis. -/
theorem mem_blk (t : Fin cfg5.N) (i : S2048x1.Idx) :
    i ∈ ((cfg5.win 5).blk t).view.set ↔ ∀ a : Fin 2, win5_5.index t a * S2048x1.size a ≤ (i a).val ∧ (i a).val < win5_5.index t a * S2048x1.size a + S2048x1.size a := by
  show i ∈ ((View.whole main_v146).slice (win5_5.rect t)).set ↔ _
  rw [View.set_slice_whole, Rect.mem_set_unit]
  exact Iff.rfl

/-- The one block covers the result. -/
theorem cover (i : S2048x1.Idx) : ∃ t : Fin cfg5.N, (cfg5.win 5).flush t = true ∧ i ∈ ((cfg5.win 5).blk t).view.set := by
  have hi0 : (i 0).val < 2048 := (i 0).isLt
  have hi1 : (i 1).val < 1 := (i 1).isLt
  refine ⟨t5_0, flush5_5 _, ?_⟩
  rw [mem_blk]
  have e := (idx_facts t5_0).2.2.2.2.2
  intro a
  match a with
  | ⟨0, _⟩ => show win5_5.index _ 0 * 2048 ≤ (i 0).val ∧ (i 0).val < win5_5.index _ 0 * 2048 + 2048; rw [e.1]; omega
  | ⟨1, _⟩ => show win5_5.index _ 1 * 1 ≤ (i 1).val ∧ (i 1).val < win5_5.index _ 1 * 1 + 1; rw [e.2]; omega

/-- THE RESULT ARRAY after the launch, whatever the entry contents: the head of the arrays it reads. -/
theorem value (c : Dev nD) : (dat5 V c).arrAt 5 cfg5.N = G V c :=
  (dat5 V c).arrAt_eq_of_cover 5 (G V c) (fun t _ => flushed_eq V c t) (cover)

end Cert.KernelIdeal.Region5

end
-- ==== Proof.HostStages.lean ====
/-
  The host-side stages of the network, each as one function of the arrays it reads, for any float instance.

  * `edgeRow0 e`, `edgeRow1 e`: the two rows of the `[2, E]` edge list as vectors of node numbers (sources, targets).
  * `norm idx`: the symmetric normalisation of the degree counted along `idx`: with `deg(v)` the number of edges whose
    entry in `idx` is `v` (a scatter-add of ones into zeros), `1/√(max deg 1)` where `deg > 0` and `0` elsewhere.
  * `agg h src dst ns nd`: one round of message passing: row `src(e)` of `h` (a negative node number wrapped by the node
    count) scaled by `ns(src(e))`, summed into row `dst(e)`, and the sum scaled by `nd` row by row.
  * `wSlice₀ … wSlice₃`, `bSlice₀ … bSlice₃`: layer `k`'s `[64, 64]` weights and `[64]` bias out of the stacked parameters.
  * `pool h g`: the rows of `h` summed into the graph each node belongs to.
  * `rowOf b`: a vector as a one-row matrix.
  Both programs spell these stages with the same operations; the launches replace only the dense steps between them.
-/
import proofs.«102544_j712964571382_1_alg».proof.Proof.Gen.KernelIdeal

noncomputable section

namespace Cert.Stages

open Cert.KernelIdeal Cert.KernelIdeal.Gen Idealize.ShloMosaic

variable {F : FTy → Type} [FloatOps F]

/-- The sources: row 0 of the edge list. -/
def edgeRow0 (e : IVec S2x1200000 32) : IVec S1200000 32 :=
  shapeCast S1200000 (extractStridedSlice S1x1200000 ![0, 0] e slices_S2x1200000_S1x1200000_0_0) shapeCasts_S1x1200000_S1200000

/-- The targets: row 1 of the edge list. -/
def edgeRow1 (e : IVec S2x1200000 32) : IVec S1200000 32 :=
  shapeCast S1200000 (extractStridedSlice S1x1200000 ![1, 0] e slices_S2x1200000_S1x1200000_1_0) shapeCasts_S1x1200000_S1200000

/-- The degree counted along `idx`: ones scatter-added into zeros. -/
def degree (idx : IVec S1200000 32) : FVec F S100000 .f32 :=
  Host.scatterAdd (F := F) scatter_S100000_S1200000x1_S1200000_n_0_0_1
    (broadcastInDim S100000 ![] bcast_S_S100000 (constant (F := F) S_ .f32 0x00000000#32))
    (broadcastInDim S1200000x1 ![0] bcast_S1200000_S1200000x1_0 idx)
    (broadcastInDim S1200000 ![] bcast_S_S1200000 (constant (F := F) S_ .f32 0x3F800000#32))

/-- The normalisation of a degree vector: `1/√(max deg 1)` where `deg > 0`, zero elsewhere. -/
def normOfDeg (deg : FVec F S100000 .f32) : FVec F S100000 .f32 :=
  select (cmpf .ogt deg (broadcastInDim S100000 ![] bcast_S_S100000 (constant (F := F) S_ .f32 0x00000000#32)))
    (Host.rsqrt (maximumf deg (broadcastInDim S100000 ![] bcast_S_S100000 (constant (F := F) S_ .f32 0x3F800000#32))))
    (broadcastInDim S100000 ![] bcast_S_S100000 (id (constant (F := F) S_ .f32 0x00000000#32)))

/-- The normalisation of the degree counted along `idx`. -/
def norm (idx : IVec S1200000 32) : FVec F S100000 .f32 := normOfDeg (degree (F := F) idx)

/-- A vector of node numbers as a column of gather indices, a negative number wrapped by the node count. -/
def wrapped (src : IVec S1200000 32) : IVec S1200000x1 32 :=
  broadcastInDim S1200000x1 ![0] bcast_S1200000_S1200000x1_0
    (select (cmpi .slt src (broadcastInDim S1200000 ![] bcast_S_S1200000 (constantI S_ 32 0#32)))
      (addi src (broadcastInDim S1200000 ![] bcast_S_S1200000 (constantI S_ 32 100000#32))) src)

/-- One round of message passing. -/
def agg (h : FVec F S100000x64 .f32) (src dst : IVec S1200000 32) (ns nd : FVec F S100000 .f32) : FVec F S100000x64 .f32 :=
  mulf
    (Host.scatterAdd (F := F) scatter_S100000x64_S1200000x1_S1200000x64_1_0_0_1
      (broadcastInDim S100000x64 ![] bcast_S_S100000x64 (constant (F := F) S_ .f32 0x00000000#32))
      (broadcastInDim S1200000x1 ![0] bcast_S1200000_S1200000x1_0 dst)
      (mulf (Host.gather gather_S100000x64_S1200000x1_S1200000x64_1_0_n_n_0_1_164 h (wrapped src))
        (broadcastInDim S1200000x64 ![0, 1] bcast_S1200000x1_S1200000x64_0_1
          (broadcastInDim S1200000x1 ![0] bcast_S1200000_S1200000x1_0
            (Host.gather gather_S100000_S1200000x1_S1200000_n_0_n_n_0_1_1 ns (wrapped src))))))
    (broadcastInDim S100000x64 ![0, 1] bcast_S100000x1_S100000x64_0_1 (broadcastInDim S100000x1 ![0] bcast_S100000_S100000x1_0 nd))

/-- Layer 0's weights. -/
def wSlice0 (w : FVec F S4x64x64 .f32) : FVec F S64x64 .f32 :=
  shapeCast S64x64 (extractStridedSlice S1x64x64 ![0, 0, 0] w slices_S4x64x64_S1x64x64_0_0_0) shapeCasts_S1x64x64_S64x64
/-- Layer 1's weights. -/
def wSlice1 (w : FVec F S4x64x64 .f32) : FVec F S64x64 .f32 :=
  shapeCast S64x64 (extractStridedSlice S1x64x64 ![1, 0, 0] w slices_S4x64x64_S1x64x64_1_0_0) shapeCasts_S1x64x64_S64x64
/-- Layer 2's weights. -/
def wSlice2 (w : FVec F S4x64x64 .f32) : FVec F S64x64 .f32 :=
  shapeCast S64x64 (extractStridedSlice S1x64x64 ![2, 0, 0] w slices_S4x64x64_S1x64x64_2_0_0) shapeCasts_S1x64x64_S64x64
/-- Layer 3's weights. -/
def wSlice3 (w : FVec F S4x64x64 .f32) : FVec F S64x64 .f32 :=
  shapeCast S64x64 (extractStridedSlice S1x64x64 ![3, 0, 0] w slices_S4x64x64_S1x64x64_3_0_0) shapeCasts_S1x64x64_S64x64

/-- Layer 0's bias. -/
def bSlice0 (b : FVec F S4x64 .f32) : FVec F S64 .f32 :=
  shapeCast S64 (extractStridedSlice S1x64 ![0, 0] b slices_S4x64_S1x64_0_0) shapeCasts_S1x64_S64
/-- Layer 1's bias. -/
def bSlice1 (b : FVec F S4x64 .f32) : FVec F S64 .f32 :=
  shapeCast S64 (extractStridedSlice S1x64 ![1, 0] b slices_S4x64_S1x64_1_0) shapeCasts_S1x64_S64
/-- Layer 2's bias. -/
def bSlice2 (b : FVec F S4x64 .f32) : FVec F S64 .f32 :=
  shapeCast S64 (extractStridedSlice S1x64 ![2, 0] b slices_S4x64_S1x64_2_0) shapeCasts_S1x64_S64
/-- Layer 3's bias. -/
def bSlice3 (b : FVec F S4x64 .f32) : FVec F S64 .f32 :=
  shapeCast S64 (extractStridedSlice S1x64 ![3, 0] b slices_S4x64_S1x64_3_0) shapeCasts_S1x64_S64

/-- A `[64]` vector as a one-row matrix. -/
def rowOf (b : FVec F S64 .f32) : FVec F S1x64 .f32 := shapeCast S1x64 b shapeCasts_S64_S1x64

/-- A `[1]` vector as a one-entry matrix. -/
def rowOf1 (b : FVec F S1 .f32) : FVec F S1x1 .f32 := shapeCast S1x1 b shapeCasts_S1_S1x1

/-- The rows of `h` summed into the graph each node belongs to. -/
def pool (h : FVec F S100000x64 .f32) (g : IVec S100000 32) : FVec F S2048x64 .f32 :=
  Host.scatterAdd (F := F) scatter_S2048x64_S100000x1_S100000x64_1_0_0_1
    (broadcastInDim S2048x64 ![] bcast_S_S2048x64 (constant (F := F) S_ .f32 0x00000000#32))
    (broadcastInDim S100000x1 ![0] bcast_S100000_S100000x1_0 g) h

end Cert.Stages

end
-- ==== Proof.KStretchInit.lean ====
/-
  The kernel program's host operations before its first launch (five stretches: the edge rows and degree counts, the two inlined selections that finish the normalisations, and the embedding bias as a one-row matrix), read for arbitrary launch contents.
-/
import proofs.«102544_j712964571382_1_alg».proof.Proof.Gen.KernelIdeal.Launch
import proofs.«102544_j712964571382_1_alg».proof.Proof.HostStages
import Idealize.ShloMosaic.Lib.StableHlo.Run

noncomputable section

namespace Cert.KernelIdeal.Stretch

open Cert.KernelIdeal Cert.KernelIdeal.Gen Idealize.ShloMosaic Idealize.ShloMosaic.TcCoe Idealize.ShloMosaic.StableHlo

variable {F : FTy → Type} [FloatOps F] (W : Valuation τ sig (Elt F))

set_option maxHeartbeats 4000000 in
theorem init_v1 :
    after hostOps0_4 (after hostOps0_3 (after hostOps0_2 (after hostOps0_1 (after hostOps0 W)))) (Proc.devRef .tc main_v1)
      = Cert.Stages.edgeRow0 (W (Proc.devRef .tc main_arg9)) := by
  after_results_simp <;> rfl

set_option maxHeartbeats 4000000 in
theorem init_v3 :
    after hostOps0_4 (after hostOps0_3 (after hostOps0_2 (after hostOps0_1 (after hostOps0 W)))) (Proc.devRef .tc main_v3)
      = Cert.Stages.edgeRow1 (W (Proc.devRef .tc main_arg9)) := by
  after_results_simp <;> rfl

set_option maxHeartbeats 4000000 in
theorem init_v16 :
    after hostOps0_4 (after hostOps0_3 (after hostOps0_2 (after hostOps0_1 (after hostOps0 W)))) (Proc.devRef .tc main_v16)
      = Cert.Stages.norm (F := F) (Cert.Stages.edgeRow0 (W (Proc.devRef .tc main_arg9))) := by
  after_results_simp <;> rfl

set_option maxHeartbeats 4000000 in
theorem init_v22 :
    after hostOps0_4 (after hostOps0_3 (after hostOps0_2 (after hostOps0_1 (after hostOps0 W)))) (Proc.devRef .tc main_v22)
      = Cert.Stages.norm (F := F) (Cert.Stages.edgeRow1 (W (Proc.devRef .tc main_arg9))) := by
  after_results_simp <;> rfl

set_option maxHeartbeats 4000000 in
theorem init_v23 :
    after hostOps0_4 (after hostOps0_3 (after hostOps0_2 (after hostOps0_1 (after hostOps0 W)))) (Proc.devRef .tc main_v23)
      = Cert.Stages.rowOf (W (Proc.devRef .tc main_arg2)) := by
  after_results_simp <;> rfl

set_option maxHeartbeats 4000000 in
theorem init_arg0 :
    after hostOps0_4 (after hostOps0_3 (after hostOps0_2 (after hostOps0_1 (after hostOps0 W)))) (Proc.devRef .tc main_arg0)
      = W (Proc.devRef .tc main_arg0) := by
  after_results_simp

set_option maxHeartbeats 4000000 in
theorem init_arg1 :
    after hostOps0_4 (after hostOps0_3 (after hostOps0_2 (after hostOps0_1 (after hostOps0 W)))) (Proc.devRef .tc main_arg1)
      = W (Proc.devRef .tc main_arg1) := by
  after_results_simp

set_option maxHeartbeats 4000000 in
theorem init_arg3 :
    after hostOps0_4 (after hostOps0_3 (after hostOps0_2 (after hostOps0_1 (after hostOps0 W)))) (Proc.devRef .tc main_arg3)
      = W (Proc.devRef .tc main_arg3) := by
  after_results_simp

set_option maxHeartbeats 4000000 in
theorem init_arg4 :
    after hostOps0_4 (after hostOps0_3 (after hostOps0_2 (after hostOps0_1 (after hostOps0 W)))) (Proc.devRef .tc main_arg4)
      = W (Proc.devRef .tc main_arg4) := by
  after_results_simp

set_option maxHeartbeats 4000000 in
theorem init_arg5 :
    after hostOps0_4 (after hostOps0_3 (after hostOps0_2 (after hostOps0_1 (after hostOps0 W)))) (Proc.devRef .tc main_arg5)
      = W (Proc.devRef .tc main_arg5) := by
  after_results_simp

set_option maxHeartbeats 4000000 in
theorem init_arg6 :
    after hostOps0_4 (after hostOps0_3 (after hostOps0_2 (after hostOps0_1 (after hostOps0 W)))) (Proc.devRef .tc main_arg6)
      = W (Proc.devRef .tc main_arg6) := by
  after_results_simp

set_option maxHeartbeats 4000000 in
theorem init_arg7 :
    after hostOps0_4 (after hostOps0_3 (after hostOps0_2 (after hostOps0_1 (after hostOps0 W)))) (Proc.devRef .tc main_arg7)
      = W (Proc.devRef .tc main_arg7) := by
  after_results_simp

set_option maxHeartbeats 4000000 in
theorem init_arg8 :
    after hostOps0_4 (after hostOps0_3 (after hostOps0_2 (after hostOps0_1 (after hostOps0 W)))) (Proc.devRef .tc main_arg8)
      = W (Proc.devRef .tc main_arg8) := by
  after_results_simp

set_option maxHeartbeats 4000000 in
theorem init_arg10 :
    after hostOps0_4 (after hostOps0_3 (after hostOps0_2 (after hostOps0_1 (after hostOps0 W)))) (Proc.devRef .tc main_arg10)
      = W (Proc.devRef .tc main_arg10) := by
  after_results_simp

end Cert.KernelIdeal.Stretch

end
-- ==== Proof.KStretchL1.lean ====
/-
  The kernel program's host operations between launch 0 and launch 1 (layer 1's message passing and its slices of the stacked parameters), read for arbitrary earlier contents.
-/
import proofs.«102544_j712964571382_1_alg».proof.Proof.Gen.KernelIdeal.Launch
import proofs.«102544_j712964571382_1_alg».proof.Proof.HostStages
import Idealize.ShloMosaic.Lib.StableHlo.Run

noncomputable section

namespace Cert.KernelIdeal.Stretch

open Cert.KernelIdeal Cert.KernelIdeal.Gen Idealize.ShloMosaic Idealize.ShloMosaic.TcCoe Idealize.ShloMosaic.StableHlo

variable {F : FTy → Type} [FloatOps F] (W : Valuation τ sig (Elt F))

set_option maxHeartbeats 4000000 in
theorem agg1 :
    after hostOps1 W (Proc.devRef .tc main_v47)
      = Cert.Stages.agg (W (Proc.devRef .tc main_v24)) (W (Proc.devRef .tc main_v1)) (W (Proc.devRef .tc main_v3)) (W (Proc.devRef .tc main_v16)) (W (Proc.devRef .tc main_v22)) := by
  after_results_simp <;> rfl

set_option maxHeartbeats 4000000 in
theorem w1 :
    after hostOps1 W (Proc.devRef .tc main_v49)
      = Cert.Stages.wSlice0 (W (Proc.devRef .tc main_arg3)) := by
  after_results_simp <;> rfl

set_option maxHeartbeats 4000000 in
theorem b1 :
    after hostOps1 W (Proc.devRef .tc main_v52)
      = Cert.Stages.rowOf (Cert.Stages.bSlice0 (W (Proc.devRef .tc main_arg4))) := by
  after_results_simp <;> rfl

set_option maxHeartbeats 4000000 in
theorem keep1_main_v24 :
    after hostOps1 W (Proc.devRef .tc main_v24)
      = W (Proc.devRef .tc main_v24) := by
  after_results_simp

set_option maxHeartbeats 4000000 in
theorem keep1_main_v1 :
    after hostOps1 W (Proc.devRef .tc main_v1)
      = W (Proc.devRef .tc main_v1) := by
  after_results_simp

set_option maxHeartbeats 4000000 in
theorem keep1_main_v3 :
    after hostOps1 W (Proc.devRef .tc main_v3)
      = W (Proc.devRef .tc main_v3) := by
  after_results_simp

set_option maxHeartbeats 4000000 in
theorem keep1_main_v16 :
    after hostOps1 W (Proc.devRef .tc main_v16)
      = W (Proc.devRef .tc main_v16) := by
  after_results_simp

set_option maxHeartbeats 4000000 in
theorem keep1_main_v22 :
    after hostOps1 W (Proc.devRef .tc main_v22)
      = W (Proc.devRef .tc main_v22) := by
  after_results_simp

set_option maxHeartbeats 4000000 in
theorem keep1_main_arg3 :
    after hostOps1 W (Proc.devRef .tc main_arg3)
      = W (Proc.devRef .tc main_arg3) := by
  after_results_simp

set_option maxHeartbeats 4000000 in
theorem keep1_main_arg4 :
    after hostOps1 W (Proc.devRef .tc main_arg4)
      = W (Proc.devRef .tc main_arg4) := by
  after_results_simp

set_option maxHeartbeats 4000000 in
theorem keep1_main_arg5 :
    after hostOps1 W (Proc.devRef .tc main_arg5)
      = W (Proc.devRef .tc main_arg5) := by
  after_results_simp

set_option maxHeartbeats 4000000 in
theorem keep1_main_arg6 :
    after hostOps1 W (Proc.devRef .tc main_arg6)
      = W (Proc.devRef .tc main_arg6) := by
  after_results_simp

set_option maxHeartbeats 4000000 in
theorem keep1_main_arg7 :
    after hostOps1 W (Proc.devRef .tc main_arg7)
      = W (Proc.devRef .tc main_arg7) := by
  after_results_simp

set_option maxHeartbeats 4000000 in
theorem keep1_main_arg8 :
    after hostOps1 W (Proc.devRef .tc main_arg8)
      = W (Proc.devRef .tc main_arg8) := by
  after_results_simp

set_option maxHeartbeats 4000000 in
theorem keep1_main_arg10 :
    after hostOps1 W (Proc.devRef .tc main_arg10)
      = W (Proc.devRef .tc main_arg10) := by
  after_results_simp

end Cert.KernelIdeal.Stretch

end
-- ==== Proof.KStretchL2.lean ====
/-
  The kernel program's host operations between launch 1 and launch 2 (layer 2's message passing and its slices of the stacked parameters), read for arbitrary earlier contents.
-/
import proofs.«102544_j712964571382_1_alg».proof.Proof.Gen.KernelIdeal.Launch
import proofs.«102544_j712964571382_1_alg».proof.Proof.HostStages
import Idealize.ShloMosaic.Lib.StableHlo.Run

noncomputable section

namespace Cert.KernelIdeal.Stretch

open Cert.KernelIdeal Cert.KernelIdeal.Gen Idealize.ShloMosaic Idealize.ShloMosaic.TcCoe Idealize.ShloMosaic.StableHlo

variable {F : FTy → Type} [FloatOps F] (W : Valuation τ sig (Elt F))

set_option maxHeartbeats 4000000 in
theorem agg2 :
    after hostOps2 W (Proc.devRef .tc main_v76)
      = Cert.Stages.agg (W (Proc.devRef .tc main_v53)) (W (Proc.devRef .tc main_v1)) (W (Proc.devRef .tc main_v3)) (W (Proc.devRef .tc main_v16)) (W (Proc.devRef .tc main_v22)) := by
  after_results_simp <;> rfl

set_option maxHeartbeats 4000000 in
theorem w2 :
    after hostOps2 W (Proc.devRef .tc main_v78)
      = Cert.Stages.wSlice1 (W (Proc.devRef .tc main_arg3)) := by
  after_results_simp <;> rfl

set_option maxHeartbeats 4000000 in
theorem b2 :
    after hostOps2 W (Proc.devRef .tc main_v81)
      = Cert.Stages.rowOf (Cert.Stages.bSlice1 (W (Proc.devRef .tc main_arg4))) := by
  after_results_simp <;> rfl

set_option maxHeartbeats 4000000 in
theorem keep2_main_v53 :
    after hostOps2 W (Proc.devRef .tc main_v53)
      = W (Proc.devRef .tc main_v53) := by
  after_results_simp

set_option maxHeartbeats 4000000 in
theorem keep2_main_v1 :
    after hostOps2 W (Proc.devRef .tc main_v1)
      = W (Proc.devRef .tc main_v1) := by
  after_results_simp

set_option maxHeartbeats 4000000 in
theorem keep2_main_v3 :
    after hostOps2 W (Proc.devRef .tc main_v3)
      = W (Proc.devRef .tc main_v3) := by
  after_results_simp

set_option maxHeartbeats 4000000 in
theorem keep2_main_v16 :
    after hostOps2 W (Proc.devRef .tc main_v16)
      = W (Proc.devRef .tc main_v16) := by
  after_results_simp

set_option maxHeartbeats 4000000 in
theorem keep2_main_v22 :
    after hostOps2 W (Proc.devRef .tc main_v22)
      = W (Proc.devRef .tc main_v22) := by
  after_results_simp

set_option maxHeartbeats 4000000 in
theorem keep2_main_arg3 :
    after hostOps2 W (Proc.devRef .tc main_arg3)
      = W (Proc.devRef .tc main_arg3) := by
  after_results_simp

set_option maxHeartbeats 4000000 in
theorem keep2_main_arg4 :
    after hostOps2 W (Proc.devRef .tc main_arg4)
      = W (Proc.devRef .tc main_arg4) := by
  after_results_simp

set_option maxHeartbeats 4000000 in
theorem keep2_main_arg5 :
    after hostOps2 W (Proc.devRef .tc main_arg5)
      = W (Proc.devRef .tc main_arg5) := by
  after_results_simp

set_option maxHeartbeats 4000000 in
theorem keep2_main_arg6 :
    after hostOps2 W (Proc.devRef .tc main_arg6)
      = W (Proc.devRef .tc main_arg6) := by
  after_results_simp

set_option maxHeartbeats 4000000 in
theorem keep2_main_arg7 :
    after hostOps2 W (Proc.devRef .tc main_arg7)
      = W (Proc.devRef .tc main_arg7) := by
  after_results_simp

set_option maxHeartbeats 4000000 in
theorem keep2_main_arg8 :
    after hostOps2 W (Proc.devRef .tc main_arg8)
      = W (Proc.devRef .tc main_arg8) := by
  after_results_simp

set_option maxHeartbeats 4000000 in
theorem keep2_main_arg10 :
    after hostOps2 W (Proc.devRef .tc main_arg10)
      = W (Proc.devRef .tc main_arg10) := by
  after_results_simp

end Cert.KernelIdeal.Stretch

end
-- ==== Proof.KStretchL3.lean ====
/-
  The kernel program's host operations between launch 2 and launch 3 (layer 3's message passing and its slices of the stacked parameters), read for arbitrary earlier contents.
-/
import proofs.«102544_j712964571382_1_alg».proof.Proof.Gen.KernelIdeal.Launch
import proofs.«102544_j712964571382_1_alg».proof.Proof.HostStages
import Idealize.ShloMosaic.Lib.StableHlo.Run

noncomputable section

namespace Cert.KernelIdeal.Stretch

open Cert.KernelIdeal Cert.KernelIdeal.Gen Idealize.ShloMosaic Idealize.ShloMosaic.TcCoe Idealize.ShloMosaic.StableHlo

variable {F : FTy → Type} [FloatOps F] (W : Valuation τ sig (Elt F))

set_option maxHeartbeats 4000000 in
theorem agg3 :
    after hostOps3 W (Proc.devRef .tc main_v105)
      = Cert.Stages.agg (W (Proc.devRef .tc main_v82)) (W (Proc.devRef .tc main_v1)) (W (Proc.devRef .tc main_v3)) (W (Proc.devRef .tc main_v16)) (W (Proc.devRef .tc main_v22)) := by
  after_results_simp <;> rfl

set_option maxHeartbeats 4000000 in
theorem w3 :
    after hostOps3 W (Proc.devRef .tc main_v107)
      = Cert.Stages.wSlice2 (W (Proc.devRef .tc main_arg3)) := by
  after_results_simp <;> rfl

set_option maxHeartbeats 4000000 in
theorem b3 :
    after hostOps3 W (Proc.devRef .tc main_v110)
      = Cert.Stages.rowOf (Cert.Stages.bSlice2 (W (Proc.devRef .tc main_arg4))) := by
  after_results_simp <;> rfl

set_option maxHeartbeats 4000000 in
theorem keep3_main_v82 :
    after hostOps3 W (Proc.devRef .tc main_v82)
      = W (Proc.devRef .tc main_v82) := by
  after_results_simp

set_option maxHeartbeats 4000000 in
theorem keep3_main_v1 :
    after hostOps3 W (Proc.devRef .tc main_v1)
      = W (Proc.devRef .tc main_v1) := by
  after_results_simp

set_option maxHeartbeats 4000000 in
theorem keep3_main_v3 :
    after hostOps3 W (Proc.devRef .tc main_v3)
      = W (Proc.devRef .tc main_v3) := by
  after_results_simp

set_option maxHeartbeats 4000000 in
theorem keep3_main_v16 :
    after hostOps3 W (Proc.devRef .tc main_v16)
      = W (Proc.devRef .tc main_v16) := by
  after_results_simp

set_option maxHeartbeats 4000000 in
theorem keep3_main_v22 :
    after hostOps3 W (Proc.devRef .tc main_v22)
      = W (Proc.devRef .tc main_v22) := by
  after_results_simp

set_option maxHeartbeats 4000000 in
theorem keep3_main_arg3 :
    after hostOps3 W (Proc.devRef .tc main_arg3)
      = W (Proc.devRef .tc main_arg3) := by
  after_results_simp

set_option maxHeartbeats 4000000 in
theorem keep3_main_arg4 :
    after hostOps3 W (Proc.devRef .tc main_arg4)
      = W (Proc.devRef .tc main_arg4) := by
  after_results_simp

set_option maxHeartbeats 4000000 in
theorem keep3_main_arg5 :
    after hostOps3 W (Proc.devRef .tc main_arg5)
      = W (Proc.devRef .tc main_arg5) := by
  after_results_simp

set_option maxHeartbeats 4000000 in
theorem keep3_main_arg6 :
    after hostOps3 W (Proc.devRef .tc main_arg6)
      = W (Proc.devRef .tc main_arg6) := by
  after_results_simp

set_option maxHeartbeats 4000000 in
theorem keep3_main_arg7 :
    after hostOps3 W (Proc.devRef .tc main_arg7)
      = W (Proc.devRef .tc main_arg7) := by
  after_results_simp

set_option maxHeartbeats 4000000 in
theorem keep3_main_arg8 :
    after hostOps3 W (Proc.devRef .tc main_arg8)
      = W (Proc.devRef .tc main_arg8) := by
  after_results_simp

set_option maxHeartbeats 4000000 in
theorem keep3_main_arg10 :
    after hostOps3 W (Proc.devRef .tc main_arg10)
      = W (Proc.devRef .tc main_arg10) := by
  after_results_simp

end Cert.KernelIdeal.Stretch

end
-- ==== Proof.KStretchL4.lean ====
/-
  The kernel program's host operations between launch 3 and launch 4 (layer 4's message passing and its slices of the stacked parameters), read for arbitrary earlier contents.
-/
import proofs.«102544_j712964571382_1_alg».proof.Proof.Gen.KernelIdeal.Launch
import proofs.«102544_j712964571382_1_alg».proof.Proof.HostStages
import Idealize.ShloMosaic.Lib.StableHlo.Run

noncomputable section

namespace Cert.KernelIdeal.Stretch

open Cert.KernelIdeal Cert.KernelIdeal.Gen Idealize.ShloMosaic Idealize.ShloMosaic.TcCoe Idealize.ShloMosaic.StableHlo

variable {F : FTy → Type} [FloatOps F] (W : Valuation τ sig (Elt F))

set_option maxHeartbeats 4000000 in
theorem agg4 :
    after hostOps4 W (Proc.devRef .tc main_v134)
      = Cert.Stages.agg (W (Proc.devRef .tc main_v111)) (W (Proc.devRef .tc main_v1)) (W (Proc.devRef .tc main_v3)) (W (Proc.devRef .tc main_v16)) (W (Proc.devRef .tc main_v22)) := by
  after_results_simp <;> rfl

set_option maxHeartbeats 4000000 in
theorem w4 :
    after hostOps4 W (Proc.devRef .tc main_v136)
      = Cert.Stages.wSlice3 (W (Proc.devRef .tc main_arg3)) := by
  after_results_simp <;> rfl

set_option maxHeartbeats 4000000 in
theorem b4 :
    after hostOps4 W (Proc.devRef .tc main_v139)
      = Cert.Stages.rowOf (Cert.Stages.bSlice3 (W (Proc.devRef .tc main_arg4))) := by
  after_results_simp <;> rfl

set_option maxHeartbeats 4000000 in
theorem keep4_main_v111 :
    after hostOps4 W (Proc.devRef .tc main_v111)
      = W (Proc.devRef .tc main_v111) := by
  after_results_simp

set_option maxHeartbeats 4000000 in
theorem keep4_main_v1 :
    after hostOps4 W (Proc.devRef .tc main_v1)
      = W (Proc.devRef .tc main_v1) := by
  after_results_simp

set_option maxHeartbeats 4000000 in
theorem keep4_main_v3 :
    after hostOps4 W (Proc.devRef .tc main_v3)
      = W (Proc.devRef .tc main_v3) := by
  after_results_simp

set_option maxHeartbeats 4000000 in
theorem keep4_main_v16 :
    after hostOps4 W (Proc.devRef .tc main_v16)
      = W (Proc.devRef .tc main_v16) := by
  after_results_simp

set_option maxHeartbeats 4000000 in
theorem keep4_main_v22 :
    after hostOps4 W (Proc.devRef .tc main_v22)
      = W (Proc.devRef .tc main_v22) := by
  after_results_simp

set_option maxHeartbeats 4000000 in
theorem keep4_main_arg3 :
    after hostOps4 W (Proc.devRef .tc main_arg3)
      = W (Proc.devRef .tc main_arg3) := by
  after_results_simp

set_option maxHeartbeats 4000000 in
theorem keep4_main_arg4 :
    after hostOps4 W (Proc.devRef .tc main_arg4)
      = W (Proc.devRef .tc main_arg4) := by
  after_results_simp

set_option maxHeartbeats 4000000 in
theorem keep4_main_arg5 :
    after hostOps4 W (Proc.devRef .tc main_arg5)
      = W (Proc.devRef .tc main_arg5) := by
  after_results_simp

set_option maxHeartbeats 4000000 in
theorem keep4_main_arg6 :
    after hostOps4 W (Proc.devRef .tc main_arg6)
      = W (Proc.devRef .tc main_arg6) := by
  after_results_simp

set_option maxHeartbeats 4000000 in
theorem keep4_main_arg7 :
    after hostOps4 W (Proc.devRef .tc main_arg7)
      = W (Proc.devRef .tc main_arg7) := by
  after_results_simp

set_option maxHeartbeats 4000000 in
theorem keep4_main_arg8 :
    after hostOps4 W (Proc.devRef .tc main_arg8)
      = W (Proc.devRef .tc main_arg8) := by
  after_results_simp

set_option maxHeartbeats 4000000 in
theorem keep4_main_arg10 :
    after hostOps4 W (Proc.devRef .tc main_arg10)
      = W (Proc.devRef .tc main_arg10) := by
  after_results_simp

end Cert.KernelIdeal.Stretch

end
-- ==== Proof.KStretchFin.lean ====
/-
  The kernel program's host operations between its last two launches (the per-graph sums and the two readout biases as one-row matrices), read for arbitrary earlier contents.
-/
import proofs.«102544_j712964571382_1_alg».proof.Proof.Gen.KernelIdeal.Launch
import proofs.«102544_j712964571382_1_alg».proof.Proof.HostStages
import Idealize.ShloMosaic.Lib.StableHlo.Run

noncomputable section

namespace Cert.KernelIdeal.Stretch

open Cert.KernelIdeal Cert.KernelIdeal.Gen Idealize.ShloMosaic Idealize.ShloMosaic.TcCoe Idealize.ShloMosaic.StableHlo

variable {F : FTy → Type} [FloatOps F] (W : Valuation τ sig (Elt F))

set_option maxHeartbeats 4000000 in
theorem pool5 :
    after hostOps5 W (Proc.devRef .tc main_v143)
      = Cert.Stages.pool (W (Proc.devRef .tc main_v140)) (W (Proc.devRef .tc main_arg10)) := by
  after_results <;> rfl

set_option maxHeartbeats 4000000 in
theorem b5a :
    after hostOps5 W (Proc.devRef .tc main_v144)
      = Cert.Stages.rowOf (W (Proc.devRef .tc main_arg6)) := by
  after_results <;> rfl

set_option maxHeartbeats 4000000 in
theorem b5b :
    after hostOps5 W (Proc.devRef .tc main_v145)
      = Cert.Stages.rowOf1 (W (Proc.devRef .tc main_arg8)) := by
  after_results <;> rfl

set_option maxHeartbeats 4000000 in
theorem keep5_main_arg5 :
    after hostOps5 W (Proc.devRef .tc main_arg5)
      = W (Proc.devRef .tc main_arg5) := by
  after_results

set_option maxHeartbeats 4000000 in
theorem keep5_main_arg7 :
    after hostOps5 W (Proc.devRef .tc main_arg7)
      = W (Proc.devRef .tc main_arg7) := by
  after_results

end Cert.KernelIdeal.Stretch

end
-- ==== Proof.NetSpec.lean ====
/-
  The whole network as one function of the eleven argument arrays, on the extended reals: the value both programs are
  shown to end at.

  With `src`, `dst` the two rows of the edge list and `ns`, `nd` the normalisations of the degrees counted along them:
  `h₀ = x · W_e + b_e`; four times `h ↦ h + max ((agg h) · W_k + b_k) 0`, where `agg h` passes `h` along the edges
  (gather at `src`, scale by `ns`, sum into `dst`, scale by `nd`); `g` the sums of `h₄`'s rows per graph; and the result
  `max (g · W₁ + b₁) 0 · W₂ + b₂`.
-/
import proofs.«102544_j712964571382_1_alg».proof.Proof.LibDenseStages
import proofs.«102544_j712964571382_1_alg».proof.Proof.HostStages

noncomputable section

namespace Cert.Net

open Cert.KernelIdeal Idealize.ShloMosaic

/-- The embedded node features. -/
def h0 (x0 : FVec Ideal S100000x74 .f32) (x1 : FVec Ideal S74x64 .f32) (x2 : FVec Ideal S64 .f32) : FVec Ideal S100000x64 .f32 :=
  Cert.Dense.affine x0 x1 (Cert.Stages.rowOf x2)

/-- One graph-convolution layer with its residual, given the layer's weights and bias. -/
def step (h : FVec Ideal S100000x64 .f32) (src dst : IVec S1200000 32) (ns nd : FVec Ideal S100000 .f32)
    (w : FVec Ideal S64x64 .f32) (b : FVec Ideal S64 .f32) : FVec Ideal S100000x64 .f32 :=
  Cert.Dense.layer (Cert.Stages.agg h src dst ns nd) h w (Cert.Stages.rowOf b)

/-- The node features after layers 1 … 4. -/
def h1 (x0 : FVec Ideal S100000x74 .f32) (x1 : FVec Ideal S74x64 .f32) (x2 : FVec Ideal S64 .f32)
    (x3 : FVec Ideal S4x64x64 .f32) (x4 : FVec Ideal S4x64 .f32) (x9 : IVec S2x1200000 32) : FVec Ideal S100000x64 .f32 :=
  step (h0 x0 x1 x2) (Cert.Stages.edgeRow0 x9) (Cert.Stages.edgeRow1 x9) (Cert.Stages.norm (Cert.Stages.edgeRow0 x9))
    (Cert.Stages.norm (Cert.Stages.edgeRow1 x9)) (Cert.Stages.wSlice0 x3) (Cert.Stages.bSlice0 x4)
def h2 (x0 : FVec Ideal S100000x74 .f32) (x1 : FVec Ideal S74x64 .f32) (x2 : FVec Ideal S64 .f32)
    (x3 : FVec Ideal S4x64x64 .f32) (x4 : FVec Ideal S4x64 .f32) (x9 : IVec S2x1200000 32) : FVec Ideal S100000x64 .f32 :=
  step (h1 x0 x1 x2 x3 x4 x9) (Cert.Stages.edgeRow0 x9) (Cert.Stages.edgeRow1 x9) (Cert.Stages.norm (Cert.Stages.edgeRow0 x9))
    (Cert.Stages.norm (Cert.Stages.edgeRow1 x9)) (Cert.Stages.wSlice1 x3) (Cert.Stages.bSlice1 x4)
def h3 (x0 : FVec Ideal S100000x74 .f32) (x1 : FVec Ideal S74x64 .f32) (x2 : FVec Ideal S64 .f32)
    (x3 : FVec Ideal S4x64x64 .f32) (x4 : FVec Ideal S4x64 .f32) (x9 : IVec S2x1200000 32) : FVec Ideal S100000x64 .f32 :=
  step (h2 x0 x1 x2 x3 x4 x9) (Cert.Stages.edgeRow0 x9) (Cert.Stages.edgeRow1 x9) (Cert.Stages.norm (Cert.Stages.edgeRow0 x9))
    (Cert.Stages.norm (Cert.Stages.edgeRow1 x9)) (Cert.Stages.wSlice2 x3) (Cert.Stages.bSlice2 x4)
def h4 (x0 : FVec Ideal S100000x74 .f32) (x1 : FVec Ideal S74x64 .f32) (x2 : FVec Ideal S64 .f32)
    (x3 : FVec Ideal S4x64x64 .f32) (x4 : FVec Ideal S4x64 .f32) (x9 : IVec S2x1200000 32) : FVec Ideal S100000x64 .f32 :=
  step (h3 x0 x1 x2 x3 x4 x9) (Cert.Stages.edgeRow0 x9) (Cert.Stages.edgeRow1 x9) (Cert.Stages.norm (Cert.Stages.edgeRow0 x9))
    (Cert.Stages.norm (Cert.Stages.edgeRow1 x9)) (Cert.Stages.wSlice3 x3) (Cert.Stages.bSlice3 x4)

/-- The network's result. -/
def out (x0 : FVec Ideal S100000x74 .f32) (x1 : FVec Ideal S74x64 .f32) (x2 : FVec Ideal S64 .f32)
    (x3 : FVec Ideal S4x64x64 .f32) (x4 : FVec Ideal S4x64 .f32) (x5 : FVec Ideal S64x64 .f32) (x6 : FVec Ideal S64 .f32)
    (x7 : FVec Ideal S64x1 .f32) (x8 : FVec Ideal S1 .f32) (x9 : IVec S2x1200000 32) (x10 : IVec S100000 32) :
    FVec Ideal S2048x1 .f32 :=
  Cert.Dense.head (Cert.Stages.pool (h4 x0 x1 x2 x3 x4 x9) x10) x5 (Cert.Stages.rowOf x6) x7 (Cert.Stages.rowOf1 x8)

end Cert.Net

end
-- ==== Proof.KernelWalk.lean ====
/-
  The kernel program's result as the network's function of the argument arrays.

  The generated fold names the buffer contents at every boundary between a stretch of host operations and a launch.
  Through it: the facts that stay live to the end — the sources and targets, the two degree normalisations, the
  parameter arrays still to be read — hold at every boundary, since no launch owns those buffers and no later stretch
  writes them; and the node features after launch `k` are `h_k` of the arguments, by the launch's value at its entry
  contents and the stretch before it read at the previous boundary. The last launch's result is the network's.
-/
import proofs.«102544_j712964571382_1_alg».proof.Proof.Gen.KernelIdeal.Frame
import proofs.«102544_j712964571382_1_alg».proof.Proof.Region0
import proofs.«102544_j712964571382_1_alg».proof.Proof.Region1
import proofs.«102544_j712964571382_1_alg».proof.Proof.Region2
import proofs.«102544_j712964571382_1_alg».proof.Proof.Region3
import proofs.«102544_j712964571382_1_alg».proof.Proof.Region4
import proofs.«102544_j712964571382_1_alg».proof.Proof.Region5
import proofs.«102544_j712964571382_1_alg».proof.Proof.KStretchInit
import proofs.«102544_j712964571382_1_alg».proof.Proof.KStretchL1
import proofs.«102544_j712964571382_1_alg».proof.Proof.KStretchL2
import proofs.«102544_j712964571382_1_alg».proof.Proof.KStretchL3
import proofs.«102544_j712964571382_1_alg».proof.Proof.KStretchL4
import proofs.«102544_j712964571382_1_alg».proof.Proof.KStretchFin
import proofs.«102544_j712964571382_1_alg».proof.Proof.NetSpec

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The argument arrays as launched -/

abbrev x0 : FVec Ideal S100000x74 .f32 := m ((c : Thread nD τ).loc main_arg0)
abbrev x1 : FVec Ideal S74x64 .f32 := m ((c : Thread nD τ).loc main_arg1)
abbrev x2 : FVec Ideal S64 .f32 := m ((c : Thread nD τ).loc main_arg2)
abbrev x3 : FVec Ideal S4x64x64 .f32 := m ((c : Thread nD τ).loc main_arg3)
abbrev x4 : FVec Ideal S4x64 .f32 := m ((c : Thread nD τ).loc main_arg4)
abbrev x5 : FVec Ideal S64x64 .f32 := m ((c : Thread nD τ).loc main_arg5)
abbrev x6 : FVec Ideal S64 .f32 := m ((c : Thread nD τ).loc main_arg6)
abbrev x7 : FVec Ideal S64x1 .f32 := m ((c : Thread nD τ).loc main_arg7)
abbrev x8 : FVec Ideal S1 .f32 := m ((c : Thread nD τ).loc main_arg8)
abbrev x9 : IVec S2x1200000 32 := m ((c : Thread nD τ).loc main_arg9)
abbrev x10 : IVec S100000 32 := m ((c : Thread nD τ).loc main_arg10)

/-! ## What stays live across every segment -/

/-- At contents `W`: the sources, the targets, the two normalisations and the parameter arrays read after the first
    launch are what the arguments determine. -/
structure Live (W : Valuation τ sig (Elt Ideal)) : Prop where
  v1 : W (Proc.devRef .tc main_v1) = Cert.Stages.edgeRow0 (x9 m c)
  v3 : W (Proc.devRef .tc main_v3) = Cert.Stages.edgeRow1 (x9 m c)
  v16 : W (Proc.devRef .tc main_v16) = Cert.Stages.norm (F := Ideal) (Cert.Stages.edgeRow0 (x9 m c))
  v22 : W (Proc.devRef .tc main_v22) = Cert.Stages.norm (F := Ideal) (Cert.Stages.edgeRow1 (x9 m c))
  a3 : W (Proc.devRef .tc main_arg3) = x3 m c
  a4 : W (Proc.devRef .tc main_arg4) = x4 m c
  a5 : W (Proc.devRef .tc main_arg5) = x5 m c
  a6 : W (Proc.devRef .tc main_arg6) = x6 m c
  a7 : W (Proc.devRef .tc main_arg7) = x7 m c
  a8 : W (Proc.devRef .tc main_arg8) = x8 m c
  a10 : W (Proc.devRef .tc main_arg10) = x10 m c

/-- At the first launch's entry. -/
theorem live5 : Live m c (W5 m ρ c) where
  v1 := Stretch.init_v1 (W0 m ρ c)
  v3 := Stretch.init_v3 (W0 m ρ c)
  v16 := Stretch.init_v16 (W0 m ρ c)
  v22 := Stretch.init_v22 (W0 m ρ c)
  a3 := Stretch.init_arg3 (W0 m ρ c)
  a4 := Stretch.init_arg4 (W0 m ρ c)
  a5 := Stretch.init_arg5 (W0 m ρ c)
  a6 := Stretch.init_arg6 (W0 m ρ c)
  a7 := Stretch.init_arg7 (W0 m ρ c)
  a8 := Stretch.init_arg8 (W0 m ρ c)
  a10 := Stretch.init_arg10 (W0 m ρ c)

theorem w5_arg0 : W5 m ρ c (Proc.devRef .tc main_arg0) = x0 m c := Stretch.init_arg0 (W0 m ρ c)
theorem w5_arg1 : W5 m ρ c (Proc.devRef .tc main_arg1) = x1 m c := Stretch.init_arg1 (W0 m ρ c)
theorem w5_v23 : W5 m ρ c (Proc.devRef .tc main_v23) = Cert.Stages.rowOf (x2 m c) := Stretch.init_v23 (W0 m ρ c)

/-- Launch 0 owns none of the live buffers. -/
theorem live6 (h : Live m c (W5 m ρ c)) : Live m c (W6 m ρ c) where
  v1 := (W6_of_ne m ρ c main_v1 (by decide)).trans h.v1
  v3 := (W6_of_ne m ρ c main_v3 (by decide)).trans h.v3
  v16 := (W6_of_ne m ρ c main_v16 (by decide)).trans h.v16
  v22 := (W6_of_ne m ρ c main_v22 (by decide)).trans h.v22
  a3 := (W6_of_ne m ρ c main_arg3 (by decide)).trans h.a3
  a4 := (W6_of_ne m ρ c main_arg4 (by decide)).trans h.a4
  a5 := (W6_of_ne m ρ c main_arg5 (by decide)).trans h.a5
  a6 := (W6_of_ne m ρ c main_arg6 (by decide)).trans h.a6
  a7 := (W6_of_ne m ρ c main_arg7 (by decide)).trans h.a7
  a8 := (W6_of_ne m ρ c main_arg8 (by decide)).trans h.a8
  a10 := (W6_of_ne m ρ c main_arg10 (by decide)).trans h.a10

/-- The stretch before launch 1 writes none of the live buffers. -/
theorem live7 (h : Live m c (W6 m ρ c)) : Live m c (W7 m ρ c) where
  v1 := (Stretch.keep1_main_v1 (W6 m ρ c)).trans h.v1
  v3 := (Stretch.keep1_main_v3 (W6 m ρ c)).trans h.v3
  v16 := (Stretch.keep1_main_v16 (W6 m ρ c)).trans h.v16
  v22 := (Stretch.keep1_main_v22 (W6 m ρ c)).trans h.v22
  a3 := (Stretch.keep1_main_arg3 (W6 m ρ c)).trans h.a3
  a4 := (Stretch.keep1_main_arg4 (W6 m ρ c)).trans h.a4
  a5 := (Stretch.keep1_main_arg5 (W6 m ρ c)).trans h.a5
  a6 := (Stretch.keep1_main_arg6 (W6 m ρ c)).trans h.a6
  a7 := (Stretch.keep1_main_arg7 (W6 m ρ c)).trans h.a7
  a8 := (Stretch.keep1_main_arg8 (W6 m ρ c)).trans h.a8
  a10 := (Stretch.keep1_main_arg10 (W6 m ρ c)).trans h.a10

/-- Launch 1 owns none of the live buffers. -/
theorem live8 (h : Live m c (W7 m ρ c)) : Live m c (W8 m ρ c) where
  v1 := (W8_of_ne m ρ c main_v1 (by decide)).trans h.v1
  v3 := (W8_of_ne m ρ c main_v3 (by decide)).trans h.v3
  v16 := (W8_of_ne m ρ c main_v16 (by decide)).trans h.v16
  v22 := (W8_of_ne m ρ c main_v22 (by decide)).trans h.v22
  a3 := (W8_of_ne m ρ c main_arg3 (by decide)).trans h.a3
  a4 := (W8_of_ne m ρ c main_arg4 (by decide)).trans h.a4
  a5 := (W8_of_ne m ρ c main_arg5 (by decide)).trans h.a5
  a6 := (W8_of_ne m ρ c main_arg6 (by decide)).trans h.a6
  a7 := (W8_of_ne m ρ c main_arg7 (by decide)).trans h.a7
  a8 := (W8_of_ne m ρ c main_arg8 (by decide)).trans h.a8
  a10 := (W8_of_ne m ρ c main_arg10 (by decide)).trans h.a10

/-- The stretch before launch 2 writes none of the live buffers. -/
theorem live9 (h : Live m c (W8 m ρ c)) : Live m c (W9 m ρ c) where
  v1 := (Stretch.keep2_main_v1 (W8 m ρ c)).trans h.v1
  v3 := (Stretch.keep2_main_v3 (W8 m ρ c)).trans h.v3
  v16 := (Stretch.keep2_main_v16 (W8 m ρ c)).trans h.v16
  v22 := (Stretch.keep2_main_v22 (W8 m ρ c)).trans h.v22
  a3 := (Stretch.keep2_main_arg3 (W8 m ρ c)).trans h.a3
  a4 := (Stretch.keep2_main_arg4 (W8 m ρ c)).trans h.a4
  a5 := (Stretch.keep2_main_arg5 (W8 m ρ c)).trans h.a5
  a6 := (Stretch.keep2_main_arg6 (W8 m ρ c)).trans h.a6
  a7 := (Stretch.keep2_main_arg7 (W8 m ρ c)).trans h.a7
  a8 := (Stretch.keep2_main_arg8 (W8 m ρ c)).trans h.a8
  a10 := (Stretch.keep2_main_arg10 (W8 m ρ c)).trans h.a10

/-- Launch 2 owns none of the live buffers. -/
theorem live10 (h : Live m c (W9 m ρ c)) : Live m c (W10 m ρ c) where
  v1 := (W10_of_ne m ρ c main_v1 (by decide)).trans h.v1
  v3 := (W10_of_ne m ρ c main_v3 (by decide)).trans h.v3
  v16 := (W10_of_ne m ρ c main_v16 (by decide)).trans h.v16
  v22 := (W10_of_ne m ρ c main_v22 (by decide)).trans h.v22
  a3 := (W10_of_ne m ρ c main_arg3 (by decide)).trans h.a3
  a4 := (W10_of_ne m ρ c main_arg4 (by decide)).trans h.a4
  a5 := (W10_of_ne m ρ c main_arg5 (by decide)).trans h.a5
  a6 := (W10_of_ne m ρ c main_arg6 (by decide)).trans h.a6
  a7 := (W10_of_ne m ρ c main_arg7 (by decide)).trans h.a7
  a8 := (W10_of_ne m ρ c main_arg8 (by decide)).trans h.a8
  a10 := (W10_of_ne m ρ c main_arg10 (by decide)).trans h.a10

/-- The stretch before launch 3 writes none of the live buffers. -/
theorem live11 (h : Live m c (W10 m ρ c)) : Live m c (W11 m ρ c) where
  v1 := (Stretch.keep3_main_v1 (W10 m ρ c)).trans h.v1
  v3 := (Stretch.keep3_main_v3 (W10 m ρ c)).trans h.v3
  v16 := (Stretch.keep3_main_v16 (W10 m ρ c)).trans h.v16
  v22 := (Stretch.keep3_main_v22 (W10 m ρ c)).trans h.v22
  a3 := (Stretch.keep3_main_arg3 (W10 m ρ c)).trans h.a3
  a4 := (Stretch.keep3_main_arg4 (W10 m ρ c)).trans h.a4
  a5 := (Stretch.keep3_main_arg5 (W10 m ρ c)).trans h.a5
  a6 := (Stretch.keep3_main_arg6 (W10 m ρ c)).trans h.a6
  a7 := (Stretch.keep3_main_arg7 (W10 m ρ c)).trans h.a7
  a8 := (Stretch.keep3_main_arg8 (W10 m ρ c)).trans h.a8
  a10 := (Stretch.keep3_main_arg10 (W10 m ρ c)).trans h.a10

/-- Launch 3 owns none of the live buffers. -/
theorem live12 (h : Live m c (W11 m ρ c)) : Live m c (W12 m ρ c) where
  v1 := (W12_of_ne m ρ c main_v1 (by decide)).trans h.v1
  v3 := (W12_of_ne m ρ c main_v3 (by decide)).trans h.v3
  v16 := (W12_of_ne m ρ c main_v16 (by decide)).trans h.v16
  v22 := (W12_of_ne m ρ c main_v22 (by decide)).trans h.v22
  a3 := (W12_of_ne m ρ c main_arg3 (by decide)).trans h.a3
  a4 := (W12_of_ne m ρ c main_arg4 (by decide)).trans h.a4
  a5 := (W12_of_ne m ρ c main_arg5 (by decide)).trans h.a5
  a6 := (W12_of_ne m ρ c main_arg6 (by decide)).trans h.a6
  a7 := (W12_of_ne m ρ c main_arg7 (by decide)).trans h.a7
  a8 := (W12_of_ne m ρ c main_arg8 (by decide)).trans h.a8
  a10 := (W12_of_ne m ρ c main_arg10 (by decide)).trans h.a10

/-- The stretch before launch 4 writes none of the live buffers. -/
theorem live13 (h : Live m c (W12 m ρ c)) : Live m c (W13 m ρ c) where
  v1 := (Stretch.keep4_main_v1 (W12 m ρ c)).trans h.v1
  v3 := (Stretch.keep4_main_v3 (W12 m ρ c)).trans h.v3
  v16 := (Stretch.keep4_main_v16 (W12 m ρ c)).trans h.v16
  v22 := (Stretch.keep4_main_v22 (W12 m ρ c)).trans h.v22
  a3 := (Stretch.keep4_main_arg3 (W12 m ρ c)).trans h.a3
  a4 := (Stretch.keep4_main_arg4 (W12 m ρ c)).trans h.a4
  a5 := (Stretch.keep4_main_arg5 (W12 m ρ c)).trans h.a5
  a6 := (Stretch.keep4_main_arg6 (W12 m ρ c)).trans h.a6
  a7 := (Stretch.keep4_main_arg7 (W12 m ρ c)).trans h.a7
  a8 := (Stretch.keep4_main_arg8 (W12 m ρ c)).trans h.a8
  a10 := (Stretch.keep4_main_arg10 (W12 m ρ c)).trans h.a10

/-- Launch 4 owns none of the live buffers. -/
theorem live14 (h : Live m c (W13 m ρ c)) : Live m c (W14 m ρ c) where
  v1 := (W14_of_ne m ρ c main_v1 (by decide)).trans h.v1
  v3 := (W14_of_ne m ρ c main_v3 (by decide)).trans h.v3
  v16 := (W14_of_ne m ρ c main_v16 (by decide)).trans h.v16
  v22 := (W14_of_ne m ρ c main_v22 (by decide)).trans h.v22
  a3 := (W14_of_ne m ρ c main_arg3 (by decide)).trans h.a3
  a4 := (W14_of_ne m ρ c main_arg4 (by decide)).trans h.a4
  a5 := (W14_of_ne m ρ c main_arg5 (by decide)).trans h.a5
  a6 := (W14_of_ne m ρ c main_arg6 (by decide)).trans h.a6
  a7 := (W14_of_ne m ρ c main_arg7 (by decide)).trans h.a7
  a8 := (W14_of_ne m ρ c main_arg8 (by decide)).trans h.a8
  a10 := (W14_of_ne m ρ c main_arg10 (by decide)).trans h.a10

/-! ## The live facts at each boundary -/

theorem L6 : Live m c (W6 m ρ c) := live6 m ρ c (live5 m ρ c)
theorem L7 : Live m c (W7 m ρ c) := live7 m ρ c (L6 m ρ c)
theorem L8 : Live m c (W8 m ρ c) := live8 m ρ c (L7 m ρ c)
theorem L9 : Live m c (W9 m ρ c) := live9 m ρ c (L8 m ρ c)
theorem L10 : Live m c (W10 m ρ c) := live10 m ρ c (L9 m ρ c)
theorem L11 : Live m c (W11 m ρ c) := live11 m ρ c (L10 m ρ c)
theorem L12 : Live m c (W12 m ρ c) := live12 m ρ c (L11 m ρ c)
theorem L13 : Live m c (W13 m ρ c) := live13 m ρ c (L12 m ρ c)
theorem L14 : Live m c (W14 m ρ c) := live14 m ρ c (L13 m ρ c)

/-! ## The node features after each launch -/

/-- After the first launch: the embedding. -/
theorem hval0 : W6 m ρ c (Proc.devRef .tc main_v24) = Cert.Net.h0 (x0 m c) (x1 m c) (x2 m c) := by
  refine (W6_arr m ρ c 3).trans ((Region0.value (V5 m ρ) c).trans ?_)
  show Cert.Dense.affine (M := 100000) (K := 74) (N := 64) (W5 m ρ c (Proc.devRef .tc main_arg0)) (W5 m ρ c (Proc.devRef .tc main_arg1)) (W5 m ρ c (Proc.devRef .tc main_v23)) = _
  rw [w5_arg0 m ρ c, w5_arg1 m ρ c, w5_v23 m ρ c]
  rfl

/-- Layer 1: the stretch before launch 1 read at the previous boundary, then the launch's value. -/
theorem w7_agg : W7 m ρ c (Proc.devRef .tc main_v47) = Cert.Stages.agg (Cert.Net.h0 (x0 m c) (x1 m c) (x2 m c)) (Cert.Stages.edgeRow0 (x9 m c)) (Cert.Stages.edgeRow1 (x9 m c)) (Cert.Stages.norm (F := Ideal) (Cert.Stages.edgeRow0 (x9 m c))) (Cert.Stages.norm (F := Ideal) (Cert.Stages.edgeRow1 (x9 m c))) :=
  (Stretch.agg1 (W6 m ρ c)).trans (by rw [hval0 m ρ c, (L6 m ρ c).v1, (L6 m ρ c).v3, (L6 m ρ c).v16, (L6 m ρ c).v22])
theorem w7_h : W7 m ρ c (Proc.devRef .tc main_v24) = Cert.Net.h0 (x0 m c) (x1 m c) (x2 m c) :=
  (Stretch.keep1_main_v24 (W6 m ρ c)).trans (hval0 m ρ c)
theorem w7_w : W7 m ρ c (Proc.devRef .tc main_v49) = Cert.Stages.wSlice0 (x3 m c) :=
  (Stretch.w1 (W6 m ρ c)).trans (by rw [(L6 m ρ c).a3])
theorem w7_b : W7 m ρ c (Proc.devRef .tc main_v52) = Cert.Stages.rowOf (Cert.Stages.bSlice0 (x4 m c)) :=
  (Stretch.b1 (W6 m ρ c)).trans (by rw [(L6 m ρ c).a4])
theorem hval1 : W8 m ρ c (Proc.devRef .tc main_v53) = Cert.Net.h1 (x0 m c) (x1 m c) (x2 m c) (x3 m c) (x4 m c) (x9 m c) := by
  refine (W8_arr m ρ c 4).trans ((Region1.value (V7 m ρ) c).trans ?_)
  show Cert.Dense.layer (M := 100000) (K := 64) (N := 64) (W7 m ρ c (Proc.devRef .tc main_v47)) (W7 m ρ c (Proc.devRef .tc main_v24))
    (W7 m ρ c (Proc.devRef .tc main_v49)) (W7 m ρ c (Proc.devRef .tc main_v52)) = _
  rw [w7_agg m ρ c, w7_h m ρ c, w7_w m ρ c, w7_b m ρ c]
  rfl

/-- Layer 2: the stretch before launch 2 read at the previous boundary, then the launch's value. -/
theorem w9_agg : W9 m ρ c (Proc.devRef .tc main_v76) = Cert.Stages.agg (Cert.Net.h1 (x0 m c) (x1 m c) (x2 m c) (x3 m c) (x4 m c) (x9 m c)) (Cert.Stages.edgeRow0 (x9 m c)) (Cert.Stages.edgeRow1 (x9 m c)) (Cert.Stages.norm (F := Ideal) (Cert.Stages.edgeRow0 (x9 m c))) (Cert.Stages.norm (F := Ideal) (Cert.Stages.edgeRow1 (x9 m c))) :=
  (Stretch.agg2 (W8 m ρ c)).trans (by rw [hval1 m ρ c, (L8 m ρ c).v1, (L8 m ρ c).v3, (L8 m ρ c).v16, (L8 m ρ c).v22])
theorem w9_h : W9 m ρ c (Proc.devRef .tc main_v53) = Cert.Net.h1 (x0 m c) (x1 m c) (x2 m c) (x3 m c) (x4 m c) (x9 m c) :=
  (Stretch.keep2_main_v53 (W8 m ρ c)).trans (hval1 m ρ c)
theorem w9_w : W9 m ρ c (Proc.devRef .tc main_v78) = Cert.Stages.wSlice1 (x3 m c) :=
  (Stretch.w2 (W8 m ρ c)).trans (by rw [(L8 m ρ c).a3])
theorem w9_b : W9 m ρ c (Proc.devRef .tc main_v81) = Cert.Stages.rowOf (Cert.Stages.bSlice1 (x4 m c)) :=
  (Stretch.b2 (W8 m ρ c)).trans (by rw [(L8 m ρ c).a4])
theorem hval2 : W10 m ρ c (Proc.devRef .tc main_v82) = Cert.Net.h2 (x0 m c) (x1 m c) (x2 m c) (x3 m c) (x4 m c) (x9 m c) := by
  refine (W10_arr m ρ c 4).trans ((Region2.value (V9 m ρ) c).trans ?_)
  show Cert.Dense.layer (M := 100000) (K := 64) (N := 64) (W9 m ρ c (Proc.devRef .tc main_v76)) (W9 m ρ c (Proc.devRef .tc main_v53))
    (W9 m ρ c (Proc.devRef .tc main_v78)) (W9 m ρ c (Proc.devRef .tc main_v81)) = _
  rw [w9_agg m ρ c, w9_h m ρ c, w9_w m ρ c, w9_b m ρ c]
  rfl

/-- Layer 3: the stretch before launch 3 read at the previous boundary, then the launch's value. -/
theorem w11_agg : W11 m ρ c (Proc.devRef .tc main_v105) = Cert.Stages.agg (Cert.Net.h2 (x0 m c) (x1 m c) (x2 m c) (x3 m c) (x4 m c) (x9 m c)) (Cert.Stages.edgeRow0 (x9 m c)) (Cert.Stages.edgeRow1 (x9 m c)) (Cert.Stages.norm (F := Ideal) (Cert.Stages.edgeRow0 (x9 m c))) (Cert.Stages.norm (F := Ideal) (Cert.Stages.edgeRow1 (x9 m c))) :=
  (Stretch.agg3 (W10 m ρ c)).trans (by rw [hval2 m ρ c, (L10 m ρ c).v1, (L10 m ρ c).v3, (L10 m ρ c).v16, (L10 m ρ c).v22])
theorem w11_h : W11 m ρ c (Proc.devRef .tc main_v82) = Cert.Net.h2 (x0 m c) (x1 m c) (x2 m c) (x3 m c) (x4 m c) (x9 m c) :=
  (Stretch.keep3_main_v82 (W10 m ρ c)).trans (hval2 m ρ c)
theorem w11_w : W11 m ρ c (Proc.devRef .tc main_v107) = Cert.Stages.wSlice2 (x3 m c) :=
  (Stretch.w3 (W10 m ρ c)).trans (by rw [(L10 m ρ c).a3])
theorem w11_b : W11 m ρ c (Proc.devRef .tc main_v110) = Cert.Stages.rowOf (Cert.Stages.bSlice2 (x4 m c)) :=
  (Stretch.b3 (W10 m ρ c)).trans (by rw [(L10 m ρ c).a4])
theorem hval3 : W12 m ρ c (Proc.devRef .tc main_v111) = Cert.Net.h3 (x0 m c) (x1 m c) (x2 m c) (x3 m c) (x4 m c) (x9 m c) := by
  refine (W12_arr m ρ c 4).trans ((Region3.value (V11 m ρ) c).trans ?_)
  show Cert.Dense.layer (M := 100000) (K := 64) (N := 64) (W11 m ρ c (Proc.devRef .tc main_v105)) (W11 m ρ c (Proc.devRef .tc main_v82))
    (W11 m ρ c (Proc.devRef .tc main_v107)) (W11 m ρ c (Proc.devRef .tc main_v110)) = _
  rw [w11_agg m ρ c, w11_h m ρ c, w11_w m ρ c, w11_b m ρ c]
  rfl

/-- Layer 4: the stretch before launch 4 read at the previous boundary, then the launch's value. -/
theorem w13_agg : W13 m ρ c (Proc.devRef .tc main_v134) = Cert.Stages.agg (Cert.Net.h3 (x0 m c) (x1 m c) (x2 m c) (x3 m c) (x4 m c) (x9 m c)) (Cert.Stages.edgeRow0 (x9 m c)) (Cert.Stages.edgeRow1 (x9 m c)) (Cert.Stages.norm (F := Ideal) (Cert.Stages.edgeRow0 (x9 m c))) (Cert.Stages.norm (F := Ideal) (Cert.Stages.edgeRow1 (x9 m c))) :=
  (Stretch.agg4 (W12 m ρ c)).trans (by rw [hval3 m ρ c, (L12 m ρ c).v1, (L12 m ρ c).v3, (L12 m ρ c).v16, (L12 m ρ c).v22])
theorem w13_h : W13 m ρ c (Proc.devRef .tc main_v111) = Cert.Net.h3 (x0 m c) (x1 m c) (x2 m c) (x3 m c) (x4 m c) (x9 m c) :=
  (Stretch.keep4_main_v111 (W12 m ρ c)).trans (hval3 m ρ c)
theorem w13_w : W13 m ρ c (Proc.devRef .tc main_v136) = Cert.Stages.wSlice3 (x3 m c) :=
  (Stretch.w4 (W12 m ρ c)).trans (by rw [(L12 m ρ c).a3])
theorem w13_b : W13 m ρ c (Proc.devRef .tc main_v139) = Cert.Stages.rowOf (Cert.Stages.bSlice3 (x4 m c)) :=
  (Stretch.b4 (W12 m ρ c)).trans (by rw [(L12 m ρ c).a4])
theorem hval4 : W14 m ρ c (Proc.devRef .tc main_v140) = Cert.Net.h4 (x0 m c) (x1 m c) (x2 m c) (x3 m c) (x4 m c) (x9 m c) := by
  refine (W14_arr m ρ c 4).trans ((Region4.value (V13 m ρ) c).trans ?_)
  show Cert.Dense.layer (M := 100000) (K := 64) (N := 64) (W13 m ρ c (Proc.devRef .tc main_v134)) (W13 m ρ c (Proc.devRef .tc main_v111))
    (W13 m ρ c (Proc.devRef .tc main_v136)) (W13 m ρ c (Proc.devRef .tc main_v139)) = _
  rw [w13_agg m ρ c, w13_h m ρ c, w13_w m ρ c, w13_b m ρ c]
  rfl

/-! ## The result -/

theorem w15_pool : W15 m ρ c (Proc.devRef .tc main_v143) = Cert.Stages.pool (Cert.Net.h4 (x0 m c) (x1 m c) (x2 m c) (x3 m c) (x4 m c) (x9 m c)) (x10 m c) :=
  (Stretch.pool5 (W14 m ρ c)).trans (by rw [hval4 m ρ c, (L14 m ρ c).a10])
theorem w15_arg5 : W15 m ρ c (Proc.devRef .tc main_arg5) = x5 m c := (Stretch.keep5_main_arg5 (W14 m ρ c)).trans (L14 m ρ c).a5
theorem w15_arg7 : W15 m ρ c (Proc.devRef .tc main_arg7) = x7 m c := (Stretch.keep5_main_arg7 (W14 m ρ c)).trans (L14 m ρ c).a7
theorem w15_b1 : W15 m ρ c (Proc.devRef .tc main_v144) = Cert.Stages.rowOf (x6 m c) :=
  (Stretch.b5a (W14 m ρ c)).trans (by rw [(L14 m ρ c).a6])
theorem w15_b2 : W15 m ρ c (Proc.devRef .tc main_v145) = Cert.Stages.rowOf1 (x8 m c) :=
  (Stretch.b5b (W14 m ρ c)).trans (by rw [(L14 m ρ c).a8])

/-- THE KERNEL PROGRAM'S RESULT: the last boundary's contents of the result buffer are the network's function of the
    arguments as launched. -/
theorem value : W16 m ρ c (Proc.devRef .tc main_v146)
    = Cert.Net.out (x0 m c) (x1 m c) (x2 m c) (x3 m c) (x4 m c) (x5 m c) (x6 m c) (x7 m c) (x8 m c) (x9 m c) (x10 m c) := by
  refine (W16_arr m ρ c 5).trans ((Region5.value (V15 m ρ) c).trans ?_)
  show Cert.Dense.head (M := 2048) (K := 64) (H := 64) (T := 1) (W15 m ρ c (Proc.devRef .tc main_v143)) (W15 m ρ c (Proc.devRef .tc main_arg5))
    (W15 m ρ c (Proc.devRef .tc main_v144)) (W15 m ρ c (Proc.devRef .tc main_arg7)) (W15 m ρ c (Proc.devRef .tc main_v145)) = _
  rw [w15_pool m ρ c, w15_arg5 m ρ c, w15_b1 m ρ c, w15_arg7 m ρ c, w15_b2 m ρ c]
  rfl

end Cert.KernelIdeal.Walk

end
-- ==== Proof.LibFoldStretch.lean ====
/-
  Two general facts about a straight line of host operations read as a fold over buffer contents, for any program
  signature and any values.

  * The fold over a concatenation of two lines is the fold over the first, then over the second — so a long line can
    be read stretch by stretch, each stretch for ARBITRARY earlier contents (a variable keeps every term small).
  * A typed reference carries its buffer's contents to the value's type and back along one equation of types; the two
    transports undo each other. After the results of a stretch of operations over typed references are rewritten out,
    every intermediate buffer appears as "back ∘ forth" around the operation's value, and these pairs cancel
    syntactically; what is left sits on the stretch's input buffers only, where it is a cast of a variable.
  With both, a stretch of operations outlined from a called function (spelt over typed references) is read as one
  plain function of the few buffers it reads, by: rewrite the results, cancel the pairs, generalize the input
  buffers' contents, and compare.
-/
import Idealize.ShloMosaic.Lib.StableHlo.Run

noncomputable section

namespace Cert.LibFoldStretch

open Idealize.ShloMosaic Idealize.ShloMosaic.StableHlo

variable {τ : Topo} {sig : RefSig} {Val : EltTy → Type}

/-- Folding the operations' results over a concatenation is folding over the first list, then over the second. -/
theorem after_append (xs ys : List (HloOp τ sig Val)) (V : Valuation τ sig Val) :
    after (xs ++ ys) V = after ys (after xs V) := by
  induction xs generalizing V with
  | nil => rfl
  | cons op xs ih => rw [List.cons_append, after_cons, after_cons, ih]

/-- A typed reference's transport to its buffer's type and back is the identity. -/
theorem ofBuf_toBuf {T : BufTy} (x : TRef sig T) (v : T.Contents Val) : x.ofBuf (x.toBuf v) = v := by
  obtain ⟨r, h, h2, h3⟩ := x
  subst h
  rfl

/-- A typed reference's transport from its buffer's type and back is the identity. -/
theorem toBuf_ofBuf {T : BufTy} (x : TRef sig T) (v : x.ref.ty.Contents Val) : x.toBuf (x.ofBuf v) = v := by
  obtain ⟨r, h, h2, h3⟩ := x
  subst h
  rfl

end Cert.LibFoldStretch

end
-- ==== Proof.RefRun.lean ====
/-
  The reference program's run, read back: its @main is one straight line of 215 host operations (the calls of its three
  small outlined functions written out at their call sites), so every weakly fair execution terminates with each
  buffer at the fold of the operations' results over the launch contents.

  The line is cut into twelve stretches — normalisation, embedding, then per layer a message-passing stretch and a
  dense stretch, pooling, readout — so that each can be read for arbitrary earlier contents: the fold over a
  concatenation is the fold over its parts in order.
-/
import proofs.«102544_j712964571382_1_alg».proof.Proof.Gen.ReferenceIdeal
import proofs.«102544_j712964571382_1_alg».proof.Proof.LibFoldStretch
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A property of every operation of two lines holds of every operation of their concatenation. -/
theorem forall_append {α : Type} {p : α → Prop} {xs ys : List α} (hx : xs.Forall p) (hy : ys.Forall p) : (xs ++ ys).Forall p :=
  List.forall_iff_forall_mem.mpr fun a h =>
    (List.mem_append.mp h).elim (List.forall_iff_forall_mem.mp hx a) (List.forall_iff_forall_mem.mp hy a)

/-- The edge list's two rows, the two degree counts and their normalisations (the two calls of the selecting function inlined). -/
abbrev opsNorm : List (HloOp τ sig (Elt F)) :=
  [ unary main_arg9 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg9 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    nullary main_cst (constant S_ .f32 0x3F800000#32),
    unary main_cst main_v4 (broadcastInDim S1200000 ![] bcast_S_S1200000 : (⟨S_, .f32⟩ : BufTy).Contents (Elt F) → (⟨S1200000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S1200000x1 ![0] bcast_S1200000_S1200000x1_0 : (⟨S1200000, .i32⟩ : BufTy).Contents (Elt F) → (⟨S1200000x1, .i32⟩ : BufTy).Contents (Elt F)),
    ternary main_v5 main_v6 main_v4 main_v7 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    unary main_v3 main_v9 (broadcastInDim S1200000x1 ![0] bcast_S1200000_S1200000x1_0 : (⟨S1200000, .i32⟩ : BufTy).Contents (Elt F) → (⟨S1200000x1, .i32⟩ : BufTy).Contents (Elt F)),
    ternary main_v8 main_v9 main_v4 main_v10 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_2 (constant S_ .f32 0x00000000#32),
    unary main_cst_2 main_v11 (broadcastInDim S100000 ![] bcast_S_S100000 : (⟨S_, .f32⟩ : BufTy).Contents (Elt F) → (⟨S100000, .f32⟩ : BufTy).Contents (Elt F)),
    binary main_v7 main_v11 main_v12 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    unary main_cst_3 main_v13 (broadcastInDim S100000 ![] bcast_S_S100000 : (⟨S_, .f32⟩ : BufTy).Contents (Elt F) → (⟨S100000, .f32⟩ : BufTy).Contents (Elt F)),
    binary main_v7 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_cst_5 (constant S_ .f32 0x00000000#32),
    unary main_cst_5 main_v17 (broadcastInDim S100000 ![] bcast_S_S100000 : (⟨S_, .f32⟩ : BufTy).Contents (Elt F) → (⟨S100000, .f32⟩ : BufTy).Contents (Elt F)),
    binary main_v10 main_v17 main_v18 (cmpf .ogt : (⟨S100000, .f32⟩ : BufTy).Contents (Elt F) → (⟨S100000, .f32⟩ : BufTy).Contents (Elt F) → (⟨S100000, .i1⟩ : BufTy).Contents (Elt F)),
    nullary main_cst_6 (constant S_ .f32 0x3F800000#32),
    unary main_cst_6 main_v19 (broadcastInDim S100000 ![] bcast_S_S100000 : (⟨S_, .f32⟩ : BufTy).Contents (Elt F) → (⟨S100000, .f32⟩ : BufTy).Contents (Elt F)),
    binary main_v10 main_v19 main_v20 (maximumf : (⟨S100000, .f32⟩ : BufTy).Contents (Elt F) → (⟨S100000, .f32⟩ : BufTy).Contents (Elt F) → (⟨S100000, .f32⟩ : BufTy).Contents (Elt F)),
    unary main_v20 main_v21 (Host.rsqrt : (⟨S100000, .f32⟩ : BufTy).Contents (Elt F) → (⟨S100000, .f32⟩ : BufTy).Contents (Elt F)),
    nullary main_cst_7 (constant S_ .f32 0x00000000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v18) (TRef.of (T := ⟨S100000, .f32⟩) main_v21) (TRef.of (T := ⟨S100000, .f32⟩) main_call1_v1) (TRef.of (T := ⟨S100000, .f32⟩) main_v22) select ]
theorem opsNorm_sub : (opsNorm : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
theorem opsNorm_fresh : ∀ op ∈ (opsNorm : List (HloOp τ sig (Elt F))), op.fresh = ∅ := by
  intro _ h; (repeat (cases h with | head => rfl | tail _ h => ?_)); exact nomatch h

/-- The embedding: a product plus a bias row. -/
abbrev opsEmbed : List (HloOp τ sig (Elt F)) :=
  [ binary main_arg0 main_arg1 main_v23 ((fun l r => Host.dotGeneral dot_S100000x74_S74x64_S100000x64_1_0_0_1_n_n none l r) : (⟨S100000x74, .f32⟩ : BufTy).Contents (Elt F) → (⟨S74x64, .f32⟩ : BufTy).Contents (Elt F) → (⟨S100000x64, .f32⟩ : BufTy).Contents (Elt F)),
    unary main_arg2 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v23 main_v25 main_v26 (addf : (⟨S100000x64, .f32⟩ : BufTy).Contents (Elt F) → (⟨S100000x64, .f32⟩ : BufTy).Contents (Elt F) → (⟨S100000x64, .f32⟩ : BufTy).Contents (Elt F)) ]
theorem opsEmbed_sub : (opsEmbed : List (HloOp τ sig (Elt F))).Forall fun op => op.bufs ⊆ tcRefs τ sig :=
  ⟨binary_bufs_sub .., unary_bufs_sub .., unary_bufs_sub .., binary_bufs_sub ..⟩
theorem opsEmbed_fresh : ∀ op ∈ (opsEmbed : List (HloOp τ sig (Elt F))), op.fresh = ∅ := by
  intro _ h; (repeat (cases h with | head => rfl | tail _ h => ?_)); exact nomatch h

/-- Layer 1's message passing. -/
abbrev opsAgg1 : List (HloOp τ sig (Elt F)) :=
  [ nullary main_c (constantI S_ 32 0#32),
    unary main_c main_v27 (broadcastInDim S1200000 ![] bcast_S_S1200000 : (⟨S_, .i32⟩ : BufTy).Contents (Elt F) → (⟨S1200000, .i32⟩ : BufTy).Contents (Elt F)),
    binary main_v1 main_v27 main_v28 (cmpi .slt : (⟨S1200000, .i32⟩ : BufTy).Contents (Elt F) → (⟨S1200000, .i32⟩ : BufTy).Contents (Elt F) → (⟨S1200000, .i1⟩ : BufTy).Contents (Elt F)),
    nullary main_c_8 (constantI S_ 32 100000#32),
    unary main_c_8 main_v29 (broadcastInDim S1200000 ![] bcast_S_S1200000 : (⟨S_, .i32⟩ : BufTy).Contents (Elt F) → (⟨S1200000, .i32⟩ : BufTy).Contents (Elt F)),
    binary main_v1 main_v29 main_v30 (addi : (⟨S1200000, .i32⟩ : BufTy).Contents (Elt F) → (⟨S1200000, .i32⟩ : BufTy).Contents (Elt F) → (⟨S1200000, .i32⟩ : BufTy).Contents (Elt F)),
    ternary main_v28 main_v30 main_v1 main_v31 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v31 main_v32 (broadcastInDim S1200000x1 ![0] bcast_S1200000_S1200000x1_0 : (⟨S1200000, .i32⟩ : BufTy).Contents (Elt F) → (⟨S1200000x1, .i32⟩ : BufTy).Contents (Elt F)),
    binary main_v26 main_v32 main_v33 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_c_9 (constantI S_ 32 0#32),
    unary main_c_9 main_v34 (broadcastInDim S1200000 ![] bcast_S_S1200000 : (⟨S_, .i32⟩ : BufTy).Contents (Elt F) → (⟨S1200000, .i32⟩ : BufTy).Contents (Elt F)),
    binary main_v1 main_v34 main_v35 (cmpi .slt : (⟨S1200000, .i32⟩ : BufTy).Contents (Elt F) → (⟨S1200000, .i32⟩ : BufTy).Contents (Elt F) → (⟨S1200000, .i1⟩ : BufTy).Contents (Elt F)),
    nullary main_c_10 (constantI S_ 32 100000#32),
    unary main_c_10 main_v36 (broadcastInDim S1200000 ![] bcast_S_S1200000 : (⟨S_, .i32⟩ : BufTy).Contents (Elt F) → (⟨S1200000, .i32⟩ : BufTy).Contents (Elt F)),
    binary main_v1 main_v36 main_v37 (addi : (⟨S1200000, .i32⟩ : BufTy).Contents (Elt F) → (⟨S1200000, .i32⟩ : BufTy).Contents (Elt F) → (⟨S1200000, .i32⟩ : BufTy).Contents (Elt F)),
    ternary main_v35 main_v37 main_v1 main_v38 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v38 main_v39 (broadcastInDim S1200000x1 ![0] bcast_S1200000_S1200000x1_0 : (⟨S1200000, .i32⟩ : BufTy).Contents (Elt F) → (⟨S1200000x1, .i32⟩ : BufTy).Contents (Elt F)),
    binary main_v16 main_v39 main_v40 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    unary main_v40 main_v41 (broadcastInDim S1200000x1 ![0] bcast_S1200000_S1200000x1_0 : (⟨S1200000, .f32⟩ : BufTy).Contents (Elt F) → (⟨S1200000x1, .f32⟩ : BufTy).Contents (Elt F)),
    unary main_v41 main_v42 (broadcastInDim S1200000x64 ![0, 1] bcast_S1200000x1_S1200000x64_0_1 : (⟨S1200000x1, .f32⟩ : BufTy).Contents (Elt F) → (⟨S1200000x64, .f32⟩ : BufTy).Contents (Elt F)),
    binary main_v33 main_v42 main_v43 (mulf : (⟨S1200000x64, .f32⟩ : BufTy).Contents (Elt F) → (⟨S1200000x64, .f32⟩ : BufTy).Contents (Elt F) → (⟨S1200000x64, .f32⟩ : BufTy).Contents (Elt F)),
    nullary main_cst_11 (constant S_ .f32 0x00000000#32),
    unary main_cst_11 main_v44 (broadcastInDim S100000x64 ![] bcast_S_S100000x64 : (⟨S_, .f32⟩ : BufTy).Contents (Elt F) → (⟨S100000x64, .f32⟩ : BufTy).Contents (Elt F)),
    unary main_v3 main_v45 (broadcastInDim S1200000x1 ![0] bcast_S1200000_S1200000x1_0 : (⟨S1200000, .i32⟩ : BufTy).Contents (Elt F) → (⟨S1200000x1, .i32⟩ : BufTy).Contents (Elt F)),
    ternary main_v44 main_v45 main_v43 main_v46 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v22 main_v47 (broadcastInDim S100000x1 ![0] bcast_S100000_S100000x1_0 : (⟨S100000, .f32⟩ : BufTy).Contents (Elt F) → (⟨S100000x1, .f32⟩ : BufTy).Contents (Elt F)),
    unary main_v47 main_v48 (broadcastInDim S100000x64 ![0, 1] bcast_S100000x1_S100000x64_0_1 : (⟨S100000x1, .f32⟩ : BufTy).Contents (Elt F) → (⟨S100000x64, .f32⟩ : BufTy).Contents (Elt F)),
    binary main_v46 main_v48 main_v49 (mulf : (⟨S100000x64, .f32⟩ : BufTy).Contents (Elt F) → (⟨S100000x64, .f32⟩ : BufTy).Contents (Elt F) → (⟨S100000x64, .f32⟩ : BufTy).Contents (Elt F)) ]
theorem opsAgg1_sub : (opsAgg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsAgg1_fresh : ∀ op ∈ (opsAgg1 : List (HloOp τ sig (Elt F))), op.fresh = ∅ := by
  intro _ h; (repeat (cases h with | head => rfl | tail _ h => ?_)); exact nomatch h

/-- Layer 1's dense half (the positive-part call inlined) and the residual sum. -/
abbrev opsDense1 : List (HloOp τ sig (Elt F)) :=
  [ unary main_arg3 main_v50 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v50 main_v51 rfl shapeCasts_S1x64x64_S64x64,
    binary main_v49 main_v51 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v53 ((extractStridedSlice S1x64 ![0, 0] · slices_S4x64_S1x64_0_0) : (⟨S4x64, .f32⟩ : BufTy).Contents (Elt F) → (⟨S1x64, .f32⟩ : BufTy).Contents (Elt F)),
    reshape main_v53 main_v54 rfl shapeCasts_S1x64_S64,
    unary main_v54 main_v55 (broadcastInDim S1x64 ![1] bcast_S64_S1x64_1 : (⟨S64, .f32⟩ : BufTy).Contents (Elt F) → (⟨S1x64, .f32⟩ : BufTy).Contents (Elt F)),
    unary main_v55 main_v56 (broadcastInDim S100000x64 ![0, 1] bcast_S1x64_S100000x64_0_1 : (⟨S1x64, .f32⟩ : BufTy).Contents (Elt F) → (⟨S100000x64, .f32⟩ : BufTy).Contents (Elt F)),
    binary main_v52 main_v56 main_v57 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v57) (TRef.of (T := ⟨S100000x64, .f32⟩) main_call2_v0) (TRef.of (T := ⟨S100000x64, .f32⟩) main_v58) maximumf,
    binary main_v26 main_v58 main_v59 (addf : (⟨S100000x64, .f32⟩ : BufTy).Contents (Elt F) → (⟨S100000x64, .f32⟩ : BufTy).Contents (Elt F) → (⟨S100000x64, .f32⟩ : BufTy).Contents (Elt F)) ]
theorem opsDense1_sub : (opsDense1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
theorem opsDense1_fresh : ∀ op ∈ (opsDense1 : List (HloOp τ sig (Elt F))), op.fresh = ∅ := by
  intro _ h; (repeat (cases h with | head => rfl | tail _ h => ?_)); exact nomatch h

/-- Layer 2's message passing. -/
abbrev opsAgg2 : List (HloOp τ sig (Elt F)) :=
  [ nullary main_c_12 (constantI S_ 32 0#32),
    unary main_c_12 main_v60 (broadcastInDim S1200000 ![] bcast_S_S1200000 : (⟨S_, .i32⟩ : BufTy).Contents (Elt F) → (⟨S1200000, .i32⟩ : BufTy).Contents (Elt F)),
    binary main_v1 main_v60 main_v61 (cmpi .slt : (⟨S1200000, .i32⟩ : BufTy).Contents (Elt F) → (⟨S1200000, .i32⟩ : BufTy).Contents (Elt F) → (⟨S1200000, .i1⟩ : BufTy).Contents (Elt F)),
    nullary main_c_13 (constantI S_ 32 100000#32),
    unary main_c_13 main_v62 (broadcastInDim S1200000 ![] bcast_S_S1200000 : (⟨S_, .i32⟩ : BufTy).Contents (Elt F) → (⟨S1200000, .i32⟩ : BufTy).Contents (Elt F)),
    binary main_v1 main_v62 main_v63 (addi : (⟨S1200000, .i32⟩ : BufTy).Contents (Elt F) → (⟨S1200000, .i32⟩ : BufTy).Contents (Elt F) → (⟨S1200000, .i32⟩ : BufTy).Contents (Elt F)),
    ternary main_v61 main_v63 main_v1 main_v64 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v64 main_v65 (broadcastInDim S1200000x1 ![0] bcast_S1200000_S1200000x1_0 : (⟨S1200000, .i32⟩ : BufTy).Contents (Elt F) → (⟨S1200000x1, .i32⟩ : BufTy).Contents (Elt F)),
    binary main_v59 main_v65 main_v66 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_c_14 (constantI S_ 32 0#32),
    unary main_c_14 main_v67 (broadcastInDim S1200000 ![] bcast_S_S1200000 : (⟨S_, .i32⟩ : BufTy).Contents (Elt F) → (⟨S1200000, .i32⟩ : BufTy).Contents (Elt F)),
    binary main_v1 main_v67 main_v68 (cmpi .slt : (⟨S1200000, .i32⟩ : BufTy).Contents (Elt F) → (⟨S1200000, .i32⟩ : BufTy).Contents (Elt F) → (⟨S1200000, .i1⟩ : BufTy).Contents (Elt F)),
    nullary main_c_15 (constantI S_ 32 100000#32),
    unary main_c_15 main_v69 (broadcastInDim S1200000 ![] bcast_S_S1200000 : (⟨S_, .i32⟩ : BufTy).Contents (Elt F) → (⟨S1200000, .i32⟩ : BufTy).Contents (Elt F)),
    binary main_v1 main_v69 main_v70 (addi : (⟨S1200000, .i32⟩ : BufTy).Contents (Elt F) → (⟨S1200000, .i32⟩ : BufTy).Contents (Elt F) → (⟨S1200000, .i32⟩ : BufTy).Contents (Elt F)),
    ternary main_v68 main_v70 main_v1 main_v71 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v71 main_v72 (broadcastInDim S1200000x1 ![0] bcast_S1200000_S1200000x1_0 : (⟨S1200000, .i32⟩ : BufTy).Contents (Elt F) → (⟨S1200000x1, .i32⟩ : BufTy).Contents (Elt F)),
    binary main_v16 main_v72 main_v73 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    unary main_v73 main_v74 (broadcastInDim S1200000x1 ![0] bcast_S1200000_S1200000x1_0 : (⟨S1200000, .f32⟩ : BufTy).Contents (Elt F) → (⟨S1200000x1, .f32⟩ : BufTy).Contents (Elt F)),
    unary main_v74 main_v75 (broadcastInDim S1200000x64 ![0, 1] bcast_S1200000x1_S1200000x64_0_1 : (⟨S1200000x1, .f32⟩ : BufTy).Contents (Elt F) → (⟨S1200000x64, .f32⟩ : BufTy).Contents (Elt F)),
    binary main_v66 main_v75 main_v76 (mulf : (⟨S1200000x64, .f32⟩ : BufTy).Contents (Elt F) → (⟨S1200000x64, .f32⟩ : BufTy).Contents (Elt F) → (⟨S1200000x64, .f32⟩ : BufTy).Contents (Elt F)),
    nullary main_cst_16 (constant S_ .f32 0x00000000#32),
    unary main_cst_16 main_v77 (broadcastInDim S100000x64 ![] bcast_S_S100000x64 : (⟨S_, .f32⟩ : BufTy).Contents (Elt F) → (⟨S100000x64, .f32⟩ : BufTy).Contents (Elt F)),
    unary main_v3 main_v78 (broadcastInDim S1200000x1 ![0] bcast_S1200000_S1200000x1_0 : (⟨S1200000, .i32⟩ : BufTy).Contents (Elt F) → (⟨S1200000x1, .i32⟩ : BufTy).Contents (Elt F)),
    ternary main_v77 main_v78 main_v76 main_v79 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v22 main_v80 (broadcastInDim S100000x1 ![0] bcast_S100000_S100000x1_0 : (⟨S100000, .f32⟩ : BufTy).Contents (Elt F) → (⟨S100000x1, .f32⟩ : BufTy).Contents (Elt F)),
    unary main_v80 main_v81 (broadcastInDim S100000x64 ![0, 1] bcast_S100000x1_S100000x64_0_1 : (⟨S100000x1, .f32⟩ : BufTy).Contents (Elt F) → (⟨S100000x64, .f32⟩ : BufTy).Contents (Elt F)),
    binary main_v79 main_v81 main_v82 (mulf : (⟨S100000x64, .f32⟩ : BufTy).Contents (Elt F) → (⟨S100000x64, .f32⟩ : BufTy).Contents (Elt F) → (⟨S100000x64, .f32⟩ : BufTy).Contents (Elt F)) ]
theorem opsAgg2_sub : (opsAgg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsAgg2_fresh : ∀ op ∈ (opsAgg2 : List (HloOp τ sig (Elt F))), op.fresh = ∅ := by
  intro _ h; (repeat (cases h with | head => rfl | tail _ h => ?_)); exact nomatch h

/-- Layer 2's dense half and the residual sum. -/
abbrev opsDense2 : List (HloOp τ sig (Elt F)) :=
  [ unary main_arg3 main_v83 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v83 main_v84 rfl shapeCasts_S1x64x64_S64x64,
    binary main_v82 main_v84 main_v85 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v86 ((extractStridedSlice S1x64 ![1, 0] · slices_S4x64_S1x64_1_0) : (⟨S4x64, .f32⟩ : BufTy).Contents (Elt F) → (⟨S1x64, .f32⟩ : BufTy).Contents (Elt F)),
    reshape main_v86 main_v87 rfl shapeCasts_S1x64_S64,
    unary main_v87 main_v88 (broadcastInDim S1x64 ![1] bcast_S64_S1x64_1 : (⟨S64, .f32⟩ : BufTy).Contents (Elt F) → (⟨S1x64, .f32⟩ : BufTy).Contents (Elt F)),
    unary main_v88 main_v89 (broadcastInDim S100000x64 ![0, 1] bcast_S1x64_S100000x64_0_1 : (⟨S1x64, .f32⟩ : BufTy).Contents (Elt F) → (⟨S100000x64, .f32⟩ : BufTy).Contents (Elt F)),
    binary main_v85 main_v89 main_v90 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v90) (TRef.of (T := ⟨S100000x64, .f32⟩) main_call3_v0) (TRef.of (T := ⟨S100000x64, .f32⟩) main_v91) maximumf,
    binary main_v59 main_v91 main_v92 (addf : (⟨S100000x64, .f32⟩ : BufTy).Contents (Elt F) → (⟨S100000x64, .f32⟩ : BufTy).Contents (Elt F) → (⟨S100000x64, .f32⟩ : BufTy).Contents (Elt F)) ]
theorem opsDense2_sub : (opsDense2 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
theorem opsDense2_fresh : ∀ op ∈ (opsDense2 : List (HloOp τ sig (Elt F))), op.fresh = ∅ := by
  intro _ h; (repeat (cases h with | head => rfl | tail _ h => ?_)); exact nomatch h

/-- Layer 3's message passing. -/
abbrev opsAgg3 : List (HloOp τ sig (Elt F)) :=
  [ nullary main_c_17 (constantI S_ 32 0#32),
    unary main_c_17 main_v93 (broadcastInDim S1200000 ![] bcast_S_S1200000 : (⟨S_, .i32⟩ : BufTy).Contents (Elt F) → (⟨S1200000, .i32⟩ : BufTy).Contents (Elt F)),
    binary main_v1 main_v93 main_v94 (cmpi .slt : (⟨S1200000, .i32⟩ : BufTy).Contents (Elt F) → (⟨S1200000, .i32⟩ : BufTy).Contents (Elt F) → (⟨S1200000, .i1⟩ : BufTy).Contents (Elt F)),
    nullary main_c_18 (constantI S_ 32 100000#32),
    unary main_c_18 main_v95 (broadcastInDim S1200000 ![] bcast_S_S1200000 : (⟨S_, .i32⟩ : BufTy).Contents (Elt F) → (⟨S1200000, .i32⟩ : BufTy).Contents (Elt F)),
    binary main_v1 main_v95 main_v96 (addi : (⟨S1200000, .i32⟩ : BufTy).Contents (Elt F) → (⟨S1200000, .i32⟩ : BufTy).Contents (Elt F) → (⟨S1200000, .i32⟩ : BufTy).Contents (Elt F)),
    ternary main_v94 main_v96 main_v1 main_v97 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v97 main_v98 (broadcastInDim S1200000x1 ![0] bcast_S1200000_S1200000x1_0 : (⟨S1200000, .i32⟩ : BufTy).Contents (Elt F) → (⟨S1200000x1, .i32⟩ : BufTy).Contents (Elt F)),
    binary main_v92 main_v98 main_v99 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_c_19 (constantI S_ 32 0#32),
    unary main_c_19 main_v100 (broadcastInDim S1200000 ![] bcast_S_S1200000 : (⟨S_, .i32⟩ : BufTy).Contents (Elt F) → (⟨S1200000, .i32⟩ : BufTy).Contents (Elt F)),
    binary main_v1 main_v100 main_v101 (cmpi .slt : (⟨S1200000, .i32⟩ : BufTy).Contents (Elt F) → (⟨S1200000, .i32⟩ : BufTy).Contents (Elt F) → (⟨S1200000, .i1⟩ : BufTy).Contents (Elt F)),
    nullary main_c_20 (constantI S_ 32 100000#32),
    unary main_c_20 main_v102 (broadcastInDim S1200000 ![] bcast_S_S1200000 : (⟨S_, .i32⟩ : BufTy).Contents (Elt F) → (⟨S1200000, .i32⟩ : BufTy).Contents (Elt F)),
    binary main_v1 main_v102 main_v103 (addi : (⟨S1200000, .i32⟩ : BufTy).Contents (Elt F) → (⟨S1200000, .i32⟩ : BufTy).Contents (Elt F) → (⟨S1200000, .i32⟩ : BufTy).Contents (Elt F)),
    ternary main_v101 main_v103 main_v1 main_v104 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v104 main_v105 (broadcastInDim S1200000x1 ![0] bcast_S1200000_S1200000x1_0 : (⟨S1200000, .i32⟩ : BufTy).Contents (Elt F) → (⟨S1200000x1, .i32⟩ : BufTy).Contents (Elt F)),
    binary main_v16 main_v105 main_v106 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    unary main_v106 main_v107 (broadcastInDim S1200000x1 ![0] bcast_S1200000_S1200000x1_0 : (⟨S1200000, .f32⟩ : BufTy).Contents (Elt F) → (⟨S1200000x1, .f32⟩ : BufTy).Contents (Elt F)),
    unary main_v107 main_v108 (broadcastInDim S1200000x64 ![0, 1] bcast_S1200000x1_S1200000x64_0_1 : (⟨S1200000x1, .f32⟩ : BufTy).Contents (Elt F) → (⟨S1200000x64, .f32⟩ : BufTy).Contents (Elt F)),
    binary main_v99 main_v108 main_v109 (mulf : (⟨S1200000x64, .f32⟩ : BufTy).Contents (Elt F) → (⟨S1200000x64, .f32⟩ : BufTy).Contents (Elt F) → (⟨S1200000x64, .f32⟩ : BufTy).Contents (Elt F)),
    nullary main_cst_21 (constant S_ .f32 0x00000000#32),
    unary main_cst_21 main_v110 (broadcastInDim S100000x64 ![] bcast_S_S100000x64 : (⟨S_, .f32⟩ : BufTy).Contents (Elt F) → (⟨S100000x64, .f32⟩ : BufTy).Contents (Elt F)),
    unary main_v3 main_v111 (broadcastInDim S1200000x1 ![0] bcast_S1200000_S1200000x1_0 : (⟨S1200000, .i32⟩ : BufTy).Contents (Elt F) → (⟨S1200000x1, .i32⟩ : BufTy).Contents (Elt F)),
    ternary main_v110 main_v111 main_v109 main_v112 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v22 main_v113 (broadcastInDim S100000x1 ![0] bcast_S100000_S100000x1_0 : (⟨S100000, .f32⟩ : BufTy).Contents (Elt F) → (⟨S100000x1, .f32⟩ : BufTy).Contents (Elt F)),
    unary main_v113 main_v114 (broadcastInDim S100000x64 ![0, 1] bcast_S100000x1_S100000x64_0_1 : (⟨S100000x1, .f32⟩ : BufTy).Contents (Elt F) → (⟨S100000x64, .f32⟩ : BufTy).Contents (Elt F)),
    binary main_v112 main_v114 main_v115 (mulf : (⟨S100000x64, .f32⟩ : BufTy).Contents (Elt F) → (⟨S100000x64, .f32⟩ : BufTy).Contents (Elt F) → (⟨S100000x64, .f32⟩ : BufTy).Contents (Elt F)) ]
theorem opsAgg3_sub : (opsAgg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsAgg3_fresh : ∀ op ∈ (opsAgg3 : List (HloOp τ sig (Elt F))), op.fresh = ∅ := by
  intro _ h; (repeat (cases h with | head => rfl | tail _ h => ?_)); exact nomatch h

/-- Layer 3's dense half and the residual sum. -/
abbrev opsDense3 : List (HloOp τ sig (Elt F)) :=
  [ unary main_arg3 main_v116 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v116 main_v117 rfl shapeCasts_S1x64x64_S64x64,
    binary main_v115 main_v117 main_v118 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v119 ((extractStridedSlice S1x64 ![2, 0] · slices_S4x64_S1x64_2_0) : (⟨S4x64, .f32⟩ : BufTy).Contents (Elt F) → (⟨S1x64, .f32⟩ : BufTy).Contents (Elt F)),
    reshape main_v119 main_v120 rfl shapeCasts_S1x64_S64,
    unary main_v120 main_v121 (broadcastInDim S1x64 ![1] bcast_S64_S1x64_1 : (⟨S64, .f32⟩ : BufTy).Contents (Elt F) → (⟨S1x64, .f32⟩ : BufTy).Contents (Elt F)),
    unary main_v121 main_v122 (broadcastInDim S100000x64 ![0, 1] bcast_S1x64_S100000x64_0_1 : (⟨S1x64, .f32⟩ : BufTy).Contents (Elt F) → (⟨S100000x64, .f32⟩ : BufTy).Contents (Elt F)),
    binary main_v118 main_v122 main_v123 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v123) (TRef.of (T := ⟨S100000x64, .f32⟩) main_call4_v0) (TRef.of (T := ⟨S100000x64, .f32⟩) main_v124) maximumf,
    binary main_v92 main_v124 main_v125 (addf : (⟨S100000x64, .f32⟩ : BufTy).Contents (Elt F) → (⟨S100000x64, .f32⟩ : BufTy).Contents (Elt F) → (⟨S100000x64, .f32⟩ : BufTy).Contents (Elt F)) ]
theorem opsDense3_sub : (opsDense3 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
theorem opsDense3_fresh : ∀ op ∈ (opsDense3 : List (HloOp τ sig (Elt F))), op.fresh = ∅ := by
  intro _ h; (repeat (cases h with | head => rfl | tail _ h => ?_)); exact nomatch h

/-- Layer 4's message passing. -/
abbrev opsAgg4 : List (HloOp τ sig (Elt F)) :=
  [ nullary main_c_22 (constantI S_ 32 0#32),
    unary main_c_22 main_v126 (broadcastInDim S1200000 ![] bcast_S_S1200000 : (⟨S_, .i32⟩ : BufTy).Contents (Elt F) → (⟨S1200000, .i32⟩ : BufTy).Contents (Elt F)),
    binary main_v1 main_v126 main_v127 (cmpi .slt : (⟨S1200000, .i32⟩ : BufTy).Contents (Elt F) → (⟨S1200000, .i32⟩ : BufTy).Contents (Elt F) → (⟨S1200000, .i1⟩ : BufTy).Contents (Elt F)),
    nullary main_c_23 (constantI S_ 32 100000#32),
    unary main_c_23 main_v128 (broadcastInDim S1200000 ![] bcast_S_S1200000 : (⟨S_, .i32⟩ : BufTy).Contents (Elt F) → (⟨S1200000, .i32⟩ : BufTy).Contents (Elt F)),
    binary main_v1 main_v128 main_v129 (addi : (⟨S1200000, .i32⟩ : BufTy).Contents (Elt F) → (⟨S1200000, .i32⟩ : BufTy).Contents (Elt F) → (⟨S1200000, .i32⟩ : BufTy).Contents (Elt F)),
    ternary main_v127 main_v129 main_v1 main_v130 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v130 main_v131 (broadcastInDim S1200000x1 ![0] bcast_S1200000_S1200000x1_0 : (⟨S1200000, .i32⟩ : BufTy).Contents (Elt F) → (⟨S1200000x1, .i32⟩ : BufTy).Contents (Elt F)),
    binary main_v125 main_v131 main_v132 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_c_24 (constantI S_ 32 0#32),
    unary main_c_24 main_v133 (broadcastInDim S1200000 ![] bcast_S_S1200000 : (⟨S_, .i32⟩ : BufTy).Contents (Elt F) → (⟨S1200000, .i32⟩ : BufTy).Contents (Elt F)),
    binary main_v1 main_v133 main_v134 (cmpi .slt : (⟨S1200000, .i32⟩ : BufTy).Contents (Elt F) → (⟨S1200000, .i32⟩ : BufTy).Contents (Elt F) → (⟨S1200000, .i1⟩ : BufTy).Contents (Elt F)),
    nullary main_c_25 (constantI S_ 32 100000#32),
    unary main_c_25 main_v135 (broadcastInDim S1200000 ![] bcast_S_S1200000 : (⟨S_, .i32⟩ : BufTy).Contents (Elt F) → (⟨S1200000, .i32⟩ : BufTy).Contents (Elt F)),
    binary main_v1 main_v135 main_v136 (addi : (⟨S1200000, .i32⟩ : BufTy).Contents (Elt F) → (⟨S1200000, .i32⟩ : BufTy).Contents (Elt F) → (⟨S1200000, .i32⟩ : BufTy).Contents (Elt F)),
    ternary main_v134 main_v136 main_v1 main_v137 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v137 main_v138 (broadcastInDim S1200000x1 ![0] bcast_S1200000_S1200000x1_0 : (⟨S1200000, .i32⟩ : BufTy).Contents (Elt F) → (⟨S1200000x1, .i32⟩ : BufTy).Contents (Elt F)),
    binary main_v16 main_v138 main_v139 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    unary main_v139 main_v140 (broadcastInDim S1200000x1 ![0] bcast_S1200000_S1200000x1_0 : (⟨S1200000, .f32⟩ : BufTy).Contents (Elt F) → (⟨S1200000x1, .f32⟩ : BufTy).Contents (Elt F)),
    unary main_v140 main_v141 (broadcastInDim S1200000x64 ![0, 1] bcast_S1200000x1_S1200000x64_0_1 : (⟨S1200000x1, .f32⟩ : BufTy).Contents (Elt F) → (⟨S1200000x64, .f32⟩ : BufTy).Contents (Elt F)),
    binary main_v132 main_v141 main_v142 (mulf : (⟨S1200000x64, .f32⟩ : BufTy).Contents (Elt F) → (⟨S1200000x64, .f32⟩ : BufTy).Contents (Elt F) → (⟨S1200000x64, .f32⟩ : BufTy).Contents (Elt F)),
    nullary main_cst_26 (constant S_ .f32 0x00000000#32),
    unary main_cst_26 main_v143 (broadcastInDim S100000x64 ![] bcast_S_S100000x64 : (⟨S_, .f32⟩ : BufTy).Contents (Elt F) → (⟨S100000x64, .f32⟩ : BufTy).Contents (Elt F)),
    unary main_v3 main_v144 (broadcastInDim S1200000x1 ![0] bcast_S1200000_S1200000x1_0 : (⟨S1200000, .i32⟩ : BufTy).Contents (Elt F) → (⟨S1200000x1, .i32⟩ : BufTy).Contents (Elt F)),
    ternary main_v143 main_v144 main_v142 main_v145 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    unary main_v22 main_v146 (broadcastInDim S100000x1 ![0] bcast_S100000_S100000x1_0 : (⟨S100000, .f32⟩ : BufTy).Contents (Elt F) → (⟨S100000x1, .f32⟩ : BufTy).Contents (Elt F)),
    unary main_v146 main_v147 (broadcastInDim S100000x64 ![0, 1] bcast_S100000x1_S100000x64_0_1 : (⟨S100000x1, .f32⟩ : BufTy).Contents (Elt F) → (⟨S100000x64, .f32⟩ : BufTy).Contents (Elt F)),
    binary main_v145 main_v147 main_v148 (mulf : (⟨S100000x64, .f32⟩ : BufTy).Contents (Elt F) → (⟨S100000x64, .f32⟩ : BufTy).Contents (Elt F) → (⟨S100000x64, .f32⟩ : BufTy).Contents (Elt F)) ]
theorem opsAgg4_sub : (opsAgg4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem opsAgg4_fresh : ∀ op ∈ (opsAgg4 : List (HloOp τ sig (Elt F))), op.fresh = ∅ := by
  intro _ h; (repeat (cases h with | head => rfl | tail _ h => ?_)); exact nomatch h

/-- Layer 4's dense half and the residual sum. -/
abbrev opsDense4 : List (HloOp τ sig (Elt F)) :=
  [ unary main_arg3 main_v149 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v149 main_v150 rfl shapeCasts_S1x64x64_S64x64,
    binary main_v148 main_v150 main_v151 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v152 ((extractStridedSlice S1x64 ![3, 0] · slices_S4x64_S1x64_3_0) : (⟨S4x64, .f32⟩ : BufTy).Contents (Elt F) → (⟨S1x64, .f32⟩ : BufTy).Contents (Elt F)),
    reshape main_v152 main_v153 rfl shapeCasts_S1x64_S64,
    unary main_v153 main_v154 (broadcastInDim S1x64 ![1] bcast_S64_S1x64_1 : (⟨S64, .f32⟩ : BufTy).Contents (Elt F) → (⟨S1x64, .f32⟩ : BufTy).Contents (Elt F)),
    unary main_v154 main_v155 (broadcastInDim S100000x64 ![0, 1] bcast_S1x64_S100000x64_0_1 : (⟨S1x64, .f32⟩ : BufTy).Contents (Elt F) → (⟨S100000x64, .f32⟩ : BufTy).Contents (Elt F)),
    binary main_v151 main_v155 main_v156 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v156) (TRef.of (T := ⟨S100000x64, .f32⟩) main_call5_v0) (TRef.of (T := ⟨S100000x64, .f32⟩) main_v157) maximumf,
    binary main_v125 main_v157 main_v158 (addf : (⟨S100000x64, .f32⟩ : BufTy).Contents (Elt F) → (⟨S100000x64, .f32⟩ : BufTy).Contents (Elt F) → (⟨S100000x64, .f32⟩ : BufTy).Contents (Elt F)) ]
theorem opsDense4_sub : (opsDense4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩
theorem opsDense4_fresh : ∀ op ∈ (opsDense4 : List (HloOp τ sig (Elt F))), op.fresh = ∅ := by
  intro _ h; (repeat (cases h with | head => rfl | tail _ h => ?_)); exact nomatch h

/-- The per-graph sums. -/
abbrev opsPool : List (HloOp τ sig (Elt F)) :=
  [ nullary main_cst_27 (constant S_ .f32 0x00000000#32),
    unary main_cst_27 main_v159 (broadcastInDim S2048x64 ![] bcast_S_S2048x64 : (⟨S_, .f32⟩ : BufTy).Contents (Elt F) → (⟨S2048x64, .f32⟩ : BufTy).Contents (Elt F)),
    unary main_arg10 main_v160 (broadcastInDim S100000x1 ![0] bcast_S100000_S100000x1_0 : (⟨S100000, .i32⟩ : BufTy).Contents (Elt F) → (⟨S100000x1, .i32⟩ : BufTy).Contents (Elt F)),
    ternary main_v159 main_v160 main_v158 main_v161 ((fun x i u => Host.scatterAdd scatter_S2048x64_S100000x1_S100000x64_1_0_0_1 x i u) : (⟨S2048x64, .f32⟩ : BufTy).Contents (Elt F) → (⟨S100000x1, .i32⟩ : BufTy).Contents (Elt F) → (⟨S100000x64, .f32⟩ : BufTy).Contents (Elt F) → (⟨S2048x64, .f32⟩ : BufTy).Contents (Elt F)) ]
theorem opsPool_sub : (opsPool : List (HloOp τ sig (Elt F))).Forall fun op => op.bufs ⊆ tcRefs τ sig :=
  ⟨nullary_bufs_sub .., unary_bufs_sub .., unary_bufs_sub .., ternary_bufs_sub ..⟩
theorem opsPool_fresh : ∀ op ∈ (opsPool : List (HloOp τ sig (Elt F))), op.fresh = ∅ := by
  intro _ h; (repeat (cases h with | head => rfl | tail _ h => ?_)); exact nomatch h

/-- The readout: two products with the positive part between. -/
abbrev opsHead : List (HloOp τ sig (Elt F)) :=
  [ binary main_v161 main_arg5 main_v162 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg6 main_v163 (broadcastInDim S1x64 ![1] bcast_S64_S1x64_1 : (⟨S64, .f32⟩ : BufTy).Contents (Elt F) → (⟨S1x64, .f32⟩ : BufTy).Contents (Elt F)),
    unary main_v163 main_v164 (broadcastInDim S2048x64 ![0, 1] bcast_S1x64_S2048x64_0_1 : (⟨S1x64, .f32⟩ : BufTy).Contents (Elt F) → (⟨S2048x64, .f32⟩ : BufTy).Contents (Elt F)),
    binary main_v162 main_v164 main_v165 (addf : (⟨S2048x64, .f32⟩ : BufTy).Contents (Elt F) → (⟨S2048x64, .f32⟩ : BufTy).Contents (Elt F) → (⟨S2048x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S2048x64, .f32⟩) main_call6_v0) (broadcastInDim S2048x64 ![] bcast_S_S2048x64),
    TRef.binary (TRef.of (T := ⟨S2048x64, .f32⟩) main_v165) (TRef.of (T := ⟨S2048x64, .f32⟩) main_call6_v0) (TRef.of (T := ⟨S2048x64, .f32⟩) main_v166) maximumf,
    binary main_v166 main_arg7 main_v167 ((fun l r => Host.dotGeneral dot_S2048x64_S64x1_S2048x1_1_0_0_1_n_n none l r) : (⟨S2048x64, .f32⟩ : BufTy).Contents (Elt F) → (⟨S64x1, .f32⟩ : BufTy).Contents (Elt F) → (⟨S2048x1, .f32⟩ : BufTy).Contents (Elt F)),
    unary main_arg8 main_v168 (broadcastInDim S1x1 ![1] bcast_S1_S1x1_1 : (⟨S1, .f32⟩ : BufTy).Contents (Elt F) → (⟨S1x1, .f32⟩ : BufTy).Contents (Elt F)),
    unary main_v168 main_v169 (broadcastInDim S2048x1 ![0, 1] bcast_S1x1_S2048x1_0_1 : (⟨S1x1, .f32⟩ : BufTy).Contents (Elt F) → (⟨S2048x1, .f32⟩ : BufTy).Contents (Elt F)),
    binary main_v167 main_v169 main_v170 (addf : (⟨S2048x1, .f32⟩ : BufTy).Contents (Elt F) → (⟨S2048x1, .f32⟩ : BufTy).Contents (Elt F) → (⟨S2048x1, .f32⟩ : BufTy).Contents (Elt F)) ]
theorem opsHead_sub : (opsHead : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem opsHead_fresh : ∀ op ∈ (opsHead : List (HloOp τ sig (Elt F))), op.fresh = ∅ := by
  intro _ h; (repeat (cases h with | head => rfl | tail _ h => ?_)); exact nomatch h

/-- @main's 215 operations, in order. -/
abbrev ops : List (HloOp τ sig (Elt F)) :=
  opsNorm ++ (opsEmbed ++ (opsAgg1 ++ (opsDense1 ++ (opsAgg2 ++ (opsDense2 ++ (opsAgg3 ++ (opsDense3 ++ (opsAgg4 ++ (opsDense4 ++ (opsPool ++ (opsHead)))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  forall_append opsNorm_sub (forall_append opsEmbed_sub (forall_append opsAgg1_sub (forall_append opsDense1_sub (forall_append opsAgg2_sub (forall_append opsDense2_sub (forall_append opsAgg3_sub (forall_append opsDense3_sub (forall_append opsAgg4_sub (forall_append opsDense4_sub (forall_append opsPool_sub (opsHead_sub)))))))))))
theorem ops_fresh : ∀ op ∈ (ops : List (HloOp τ sig (Elt F))), op.fresh = ∅ := fun op h =>
  (List.mem_append.mp h).elim (opsNorm_fresh op) fun h => (List.mem_append.mp h).elim (opsEmbed_fresh op) fun h => (List.mem_append.mp h).elim (opsAgg1_fresh op) fun h => (List.mem_append.mp h).elim (opsDense1_fresh op) fun h => (List.mem_append.mp h).elim (opsAgg2_fresh op) fun h => (List.mem_append.mp h).elim (opsDense2_fresh op) fun h => (List.mem_append.mp h).elim (opsAgg3_fresh op) fun h => (List.mem_append.mp h).elim (opsDense3_fresh op) fun h => (List.mem_append.mp h).elim (opsAgg4_fresh op) fun h => (List.mem_append.mp h).elim (opsDense4_fresh op) fun h => (List.mem_append.mp h).elim (opsPool_fresh op) fun h => opsHead_fresh op h

/-- The fold over the whole line is the fold over the twelve stretches in order. -/
theorem after_ops (V : Valuation τ sig (Elt F)) :
    after ops V = after opsHead (after opsPool (after opsDense4 (after opsAgg4 (after opsDense3 (after opsAgg3 (after opsDense2 (after opsAgg2 (after opsDense1 (after opsAgg1 (after opsEmbed (after opsNorm (V)))))))))))) := by
  simp only [ops, Cert.LibFoldStretch.after_append]

/-- Every weakly fair execution of @main terminates with each buffer at the fold of the operations' results over the
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Hand

end
-- ==== Proof.RStretchNorm.lean ====
/-
  The reference's first stretch (the edge rows, the degree counts and their normalisations), read for arbitrary launch contents.
-/
import proofs.«102544_j712964571382_1_alg».proof.Proof.RefRun
import proofs.«102544_j712964571382_1_alg».proof.Proof.HostStages

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F] (V : Valuation τ sig (Elt F))

set_option maxHeartbeats 4000000 in
theorem norm_v1 :
    after opsNorm V (Proc.devRef .tc main_v1)
      = Cert.Stages.edgeRow0 (V (Proc.devRef .tc main_arg9)) := by
  after_results_simp <;> rfl

set_option maxHeartbeats 4000000 in
theorem norm_v3 :
    after opsNorm V (Proc.devRef .tc main_v3)
      = Cert.Stages.edgeRow1 (V (Proc.devRef .tc main_arg9)) := by
  after_results_simp <;> rfl

set_option maxHeartbeats 4000000 in
theorem norm_v16 :
    after opsNorm V (Proc.devRef .tc main_v16)
      = Cert.Stages.norm (F := F) (Cert.Stages.edgeRow0 (V (Proc.devRef .tc main_arg9))) := by
  after_results_simp <;> rfl

set_option maxHeartbeats 4000000 in
theorem norm_v22 :
    after opsNorm V (Proc.devRef .tc main_v22)
      = Cert.Stages.norm (F := F) (Cert.Stages.edgeRow1 (V (Proc.devRef .tc main_arg9))) := by
  after_results_simp <;> rfl

set_option maxHeartbeats 4000000 in
theorem norm_keep_main_arg0 :
    after opsNorm V (Proc.devRef .tc main_arg0)
      = V (Proc.devRef .tc main_arg0) := by
  after_results_simp

set_option maxHeartbeats 4000000 in
theorem norm_keep_main_arg1 :
    after opsNorm V (Proc.devRef .tc main_arg1)
      = V (Proc.devRef .tc main_arg1) := by
  after_results_simp

set_option maxHeartbeats 4000000 in
theorem norm_keep_main_arg2 :
    after opsNorm V (Proc.devRef .tc main_arg2)
      = V (Proc.devRef .tc main_arg2) := by
  after_results_simp

set_option maxHeartbeats 4000000 in
theorem norm_keep_main_arg3 :
    after opsNorm V (Proc.devRef .tc main_arg3)
      = V (Proc.devRef .tc main_arg3) := by
  after_results_simp

set_option maxHeartbeats 4000000 in
theorem norm_keep_main_arg4 :
    after opsNorm V (Proc.devRef .tc main_arg4)
      = V (Proc.devRef .tc main_arg4) := by
  after_results_simp

set_option maxHeartbeats 4000000 in
theorem norm_keep_main_arg5 :
    after opsNorm V (Proc.devRef .tc main_arg5)
      = V (Proc.devRef .tc main_arg5) := by
  after_results_simp

set_option maxHeartbeats 4000000 in
theorem norm_keep_main_arg6 :
    after opsNorm V (Proc.devRef .tc main_arg6)
      = V (Proc.devRef .tc main_arg6) := by
  after_results_simp

set_option maxHeartbeats 4000000 in
theorem norm_keep_main_arg7 :
    after opsNorm V (Proc.devRef .tc main_arg7)
      = V (Proc.devRef .tc main_arg7) := by
  after_results_simp

set_option maxHeartbeats 4000000 in
theorem norm_keep_main_arg8 :
    after opsNorm V (Proc.devRef .tc main_arg8)
      = V (Proc.devRef .tc main_arg8) := by
  after_results_simp

set_option maxHeartbeats 4000000 in
theorem norm_keep_main_arg10 :
    after opsNorm V (Proc.devRef .tc main_arg10)
      = V (Proc.devRef .tc main_arg10) := by
  after_results_simp

end Cert.ReferenceIdeal.Hand

end
-- ==== Proof.RStretchEmbed.lean ====
/-
  The reference's embedding stretch, read for arbitrary earlier contents: a product plus a bias row, at the exact values.
-/
import proofs.«102544_j712964571382_1_alg».proof.Proof.RefRun
import proofs.«102544_j712964571382_1_alg».proof.Proof.HostStages
import proofs.«102544_j712964571382_1_alg».proof.Proof.LibDenseStages

noncomputable section

namespace Cert.ReferenceIdeal.Hand

open Cert.ReferenceIdeal Cert.ReferenceIdeal.Gen Idealize.ShloMosaic Idealize.ShloMosaic.TcCoe Idealize.ShloMosaic.StableHlo
open Idealize.ShloMosaic.ValueIdx

variable (V : Valuation τ sig (Elt Ideal))

set_option maxHeartbeats 4000000 in
theorem embed_v26 :
    after opsEmbed V (Proc.devRef .tc main_v26)
      = Cert.Dense.affine (M := 100000) (K := 74) (N := 64) (V (Proc.devRef .tc main_arg0)) (V (Proc.devRef .tc main_arg1)) (Cert.Stages.rowOf (F := Ideal) (V (Proc.devRef .tc main_arg2))) := by
  after_results
  funext i
  obtain ⟨p, q, rfl⟩ : ∃ (p : Fin 100000) (q : Fin 64), i = ix2 p q := ⟨i 0, i 1, eq_ix2 i⟩
  exact Cert.Dense.host_affine_apply none _ _ _ _ _ _ p q

set_option maxHeartbeats 4000000 in
theorem embed_keep_main_v1 :
    after opsEmbed V (Proc.devRef .tc main_v1)
      = V (Proc.devRef .tc main_v1) := by
  after_results

set_option maxHeartbeats 4000000 in
theorem embed_keep_main_v3 :
    after opsEmbed V (Proc.devRef .tc main_v3)
      = V (Proc.devRef .tc main_v3) := by
  after_results

set_option maxHeartbeats 4000000 in
theorem embed_keep_main_v16 :
    after opsEmbed V (Proc.devRef .tc main_v16)
      = V (Proc.devRef .tc main_v16) := by
  after_results

set_option maxHeartbeats 4000000 in
theorem embed_keep_main_v22 :
    after opsEmbed V (Proc.devRef .tc main_v22)
      = V (Proc.devRef .tc main_v22) := by
  after_results

set_option maxHeartbeats 4000000 in
theorem embed_keep_main_arg3 :
    after opsEmbed V (Proc.devRef .tc main_arg3)
      = V (Proc.devRef .tc main_arg3) := by
  after_results

set_option maxHeartbeats 4000000 in
theorem embed_keep_main_arg4 :
    after opsEmbed V (Proc.devRef .tc main_arg4)
      = V (Proc.devRef .tc main_arg4) := by
  after_results

set_option maxHeartbeats 4000000 in
theorem embed_keep_main_arg5 :
    after opsEmbed V (Proc.devRef .tc main_arg5)
      = V (Proc.devRef .tc main_arg5) := by
  after_results

set_option maxHeartbeats 4000000 in
theorem embed_keep_main_arg6 :
    after opsEmbed V (Proc.devRef .tc main_arg6)
      = V (Proc.devRef .tc main_arg6) := by
  after_results

set_option maxHeartbeats 4000000 in
theorem embed_keep_main_arg7 :
    after opsEmbed V (Proc.devRef .tc main_arg7)
      = V (Proc.devRef .tc main_arg7) := by
  after_results

set_option maxHeartbeats 4000000 in
theorem embed_keep_main_arg8 :
    after opsEmbed V (Proc.devRef .tc main_arg8)
      = V (Proc.devRef .tc main_arg8) := by
  after_results

set_option maxHeartbeats 4000000 in
theorem embed_keep_main_arg10 :
    after opsEmbed V (Proc.devRef .tc main_arg10)
      = V (Proc.devRef .tc main_arg10) := by
  after_results

end Cert.ReferenceIdeal.Hand

end
-- ==== Proof.RStretchA1.lean ====
/-
  The reference's message-passing stretch of layer 1, read for arbitrary earlier contents.
-/
import proofs.«102544_j712964571382_1_alg».proof.Proof.RefRun
import proofs.«102544_j712964571382_1_alg».proof.Proof.HostStages

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F] (V : Valuation τ sig (Elt F))

set_option maxHeartbeats 4000000 in
theorem agg1_v :
    after opsAgg1 V (Proc.devRef .tc main_v49)
      = Cert.Stages.agg (F := F) (V (Proc.devRef .tc main_v26)) (V (Proc.devRef .tc main_v1)) (V (Proc.devRef .tc main_v3)) (V (Proc.devRef .tc main_v16)) (V (Proc.devRef .tc main_v22)) := by
  after_results_simp <;> rfl

set_option maxHeartbeats 4000000 in
theorem agg1_keep_main_v26 :
    after opsAgg1 V (Proc.devRef .tc main_v26)
      = V (Proc.devRef .tc main_v26) := by
  after_results_simp

set_option maxHeartbeats 4000000 in
theorem agg1_keep_main_v1 :
    after opsAgg1 V (Proc.devRef .tc main_v1)
      = V (Proc.devRef .tc main_v1) := by
  after_results_simp

set_option maxHeartbeats 4000000 in
theorem agg1_keep_main_v3 :
    after opsAgg1 V (Proc.devRef .tc main_v3)
      = V (Proc.devRef .tc main_v3) := by
  after_results_simp

set_option maxHeartbeats 4000000 in
theorem agg1_keep_main_v16 :
    after opsAgg1 V (Proc.devRef .tc main_v16)
      = V (Proc.devRef .tc main_v16) := by
  after_results_simp

set_option maxHeartbeats 4000000 in
theorem agg1_keep_main_v22 :
    after opsAgg1 V (Proc.devRef .tc main_v22)
      = V (Proc.devRef .tc main_v22) := by
  after_results_simp

set_option maxHeartbeats 4000000 in
theorem agg1_keep_main_arg3 :
    after opsAgg1 V (Proc.devRef .tc main_arg3)
      = V (Proc.devRef .tc main_arg3) := by
  after_results_simp

set_option maxHeartbeats 4000000 in
theorem agg1_keep_main_arg4 :
    after opsAgg1 V (Proc.devRef .tc main_arg4)
      = V (Proc.devRef .tc main_arg4) := by
  after_results_simp

set_option maxHeartbeats 4000000 in
theorem agg1_keep_main_arg5 :
    after opsAgg1 V (Proc.devRef .tc main_arg5)
      = V (Proc.devRef .tc main_arg5) := by
  after_results_simp

set_option maxHeartbeats 4000000 in
theorem agg1_keep_main_arg6 :
    after opsAgg1 V (Proc.devRef .tc main_arg6)
      = V (Proc.devRef .tc main_arg6) := by
  after_results_simp

set_option maxHeartbeats 4000000 in
theorem agg1_keep_main_arg7 :
    after opsAgg1 V (Proc.devRef .tc main_arg7)
      = V (Proc.devRef .tc main_arg7) := by
  after_results_simp

set_option maxHeartbeats 4000000 in
theorem agg1_keep_main_arg8 :
    after opsAgg1 V (Proc.devRef .tc main_arg8)
      = V (Proc.devRef .tc main_arg8) := by
  after_results_simp

set_option maxHeartbeats 4000000 in
theorem agg1_keep_main_arg10 :
    after opsAgg1 V (Proc.devRef .tc main_arg10)
      = V (Proc.devRef .tc main_arg10) := by
  after_results_simp

end Cert.ReferenceIdeal.Hand

end
-- ==== Proof.RStretchD1.lean ====
/-
  The reference's dense stretch of layer 1 (a product with the layer's weights, its bias, the positive part, the residual sum), read for arbitrary earlier contents, at the exact values.
-/
import proofs.«102544_j712964571382_1_alg».proof.Proof.RefRun
import proofs.«102544_j712964571382_1_alg».proof.Proof.HostStages
import proofs.«102544_j712964571382_1_alg».proof.Proof.LibDenseStages

noncomputable section

namespace Cert.ReferenceIdeal.Hand

open Cert.ReferenceIdeal Cert.ReferenceIdeal.Gen Idealize.ShloMosaic Idealize.ShloMosaic.TcCoe Idealize.ShloMosaic.StableHlo
open Idealize.ShloMosaic.ValueIdx

variable (V : Valuation τ sig (Elt Ideal))

set_option maxHeartbeats 4000000 in
theorem dense1_v :
    after opsDense1 V (Proc.devRef .tc main_v59)
      = Cert.Dense.layer (M := 100000) (K := 64) (N := 64) (V (Proc.devRef .tc main_v49)) (V (Proc.devRef .tc main_v26))
          (Cert.Stages.wSlice0 (F := Ideal) (V (Proc.devRef .tc main_arg3))) (Cert.Stages.rowOf (F := Ideal) (Cert.Stages.bSlice0 (F := Ideal) (V (Proc.devRef .tc main_arg4)))) := by
  after_results
  show addf (V (Proc.devRef .tc main_v26))
      (maximumf
        (addf (Host.dotGeneral dot_S100000x64_S64x64_S100000x64_1_0_0_1_n_n none (V (Proc.devRef .tc main_v49)) (Cert.Stages.wSlice0 (F := Ideal) (V (Proc.devRef .tc main_arg3))))
          (broadcastInDim S100000x64 ![0, 1] bcast_S1x64_S100000x64_0_1
            (broadcastInDim S1x64 ![1] bcast_S64_S1x64_1 (Cert.Stages.bSlice0 (F := Ideal) (V (Proc.devRef .tc main_arg4))))))
        (broadcastInDim S100000x64 ![] bcast_S_S100000x64 (constant (F := Ideal) S_ .f32 0x00000000#32))) = _
  funext i
  obtain ⟨p, q, rfl⟩ : ∃ (p : Fin 100000) (q : Fin 64), i = ix2 p q := ⟨i 0, i 1, eq_ix2 i⟩
  exact Cert.Dense.host_layer_apply none _ _ _ _ _ _ _ _ p q

set_option maxHeartbeats 4000000 in
theorem dense1_keep_main_v1 :
    after opsDense1 V (Proc.devRef .tc main_v1)
      = V (Proc.devRef .tc main_v1) := by
  after_results

set_option maxHeartbeats 4000000 in
theorem dense1_keep_main_v3 :
    after opsDense1 V (Proc.devRef .tc main_v3)
      = V (Proc.devRef .tc main_v3) := by
  after_results

set_option maxHeartbeats 4000000 in
theorem dense1_keep_main_v16 :
    after opsDense1 V (Proc.devRef .tc main_v16)
      = V (Proc.devRef .tc main_v16) := by
  after_results

set_option maxHeartbeats 4000000 in
theorem dense1_keep_main_v22 :
    after opsDense1 V (Proc.devRef .tc main_v22)
      = V (Proc.devRef .tc main_v22) := by
  after_results

set_option maxHeartbeats 4000000 in
theorem dense1_keep_main_arg3 :
    after opsDense1 V (Proc.devRef .tc main_arg3)
      = V (Proc.devRef .tc main_arg3) := by
  after_results

set_option maxHeartbeats 4000000 in
theorem dense1_keep_main_arg4 :
    after opsDense1 V (Proc.devRef .tc main_arg4)
      = V (Proc.devRef .tc main_arg4) := by
  after_results

set_option maxHeartbeats 4000000 in
theorem dense1_keep_main_arg5 :
    after opsDense1 V (Proc.devRef .tc main_arg5)
      = V (Proc.devRef .tc main_arg5) := by
  after_results

set_option maxHeartbeats 4000000 in
theorem dense1_keep_main_arg6 :
    after opsDense1 V (Proc.devRef .tc main_arg6)
      = V (Proc.devRef .tc main_arg6) := by
  after_results

set_option maxHeartbeats 4000000 in
theorem dense1_keep_main_arg7 :
    after opsDense1 V (Proc.devRef .tc main_arg7)
      = V (Proc.devRef .tc main_arg7) := by
  after_results

set_option maxHeartbeats 4000000 in
theorem dense1_keep_main_arg8 :
    after opsDense1 V (Proc.devRef .tc main_arg8)
      = V (Proc.devRef .tc main_arg8) := by
  after_results

set_option maxHeartbeats 4000000 in
theorem dense1_keep_main_arg10 :
    after opsDense1 V (Proc.devRef .tc main_arg10)
      = V (Proc.devRef .tc main_arg10) := by
  after_results

end Cert.ReferenceIdeal.Hand

end
-- ==== Proof.RStretchA2.lean ====
/-
  The reference's message-passing stretch of layer 2, read for arbitrary earlier contents.
-/
import proofs.«102544_j712964571382_1_alg».proof.Proof.RefRun
import proofs.«102544_j712964571382_1_alg».proof.Proof.HostStages

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F] (V : Valuation τ sig (Elt F))

set_option maxHeartbeats 4000000 in
theorem agg2_v :
    after opsAgg2 V (Proc.devRef .tc main_v82)
      = Cert.Stages.agg (F := F) (V (Proc.devRef .tc main_v59)) (V (Proc.devRef .tc main_v1)) (V (Proc.devRef .tc main_v3)) (V (Proc.devRef .tc main_v16)) (V (Proc.devRef .tc main_v22)) := by
  after_results_simp <;> rfl

set_option maxHeartbeats 4000000 in
theorem agg2_keep_main_v59 :
    after opsAgg2 V (Proc.devRef .tc main_v59)
      = V (Proc.devRef .tc main_v59) := by
  after_results_simp

set_option maxHeartbeats 4000000 in
theorem agg2_keep_main_v1 :
    after opsAgg2 V (Proc.devRef .tc main_v1)
      = V (Proc.devRef .tc main_v1) := by
  after_results_simp

set_option maxHeartbeats 4000000 in
theorem agg2_keep_main_v3 :
    after opsAgg2 V (Proc.devRef .tc main_v3)
      = V (Proc.devRef .tc main_v3) := by
  after_results_simp

set_option maxHeartbeats 4000000 in
theorem agg2_keep_main_v16 :
    after opsAgg2 V (Proc.devRef .tc main_v16)
      = V (Proc.devRef .tc main_v16) := by
  after_results_simp

set_option maxHeartbeats 4000000 in
theorem agg2_keep_main_v22 :
    after opsAgg2 V (Proc.devRef .tc main_v22)
      = V (Proc.devRef .tc main_v22) := by
  after_results_simp

set_option maxHeartbeats 4000000 in
theorem agg2_keep_main_arg3 :
    after opsAgg2 V (Proc.devRef .tc main_arg3)
      = V (Proc.devRef .tc main_arg3) := by
  after_results_simp

set_option maxHeartbeats 4000000 in
theorem agg2_keep_main_arg4 :
    after opsAgg2 V (Proc.devRef .tc main_arg4)
      = V (Proc.devRef .tc main_arg4) := by
  after_results_simp

set_option maxHeartbeats 4000000 in
theorem agg2_keep_main_arg5 :
    after opsAgg2 V (Proc.devRef .tc main_arg5)
      = V (Proc.devRef .tc main_arg5) := by
  after_results_simp

set_option maxHeartbeats 4000000 in
theorem agg2_keep_main_arg6 :
    after opsAgg2 V (Proc.devRef .tc main_arg6)
      = V (Proc.devRef .tc main_arg6) := by
  after_results_simp

set_option maxHeartbeats 4000000 in
theorem agg2_keep_main_arg7 :
    after opsAgg2 V (Proc.devRef .tc main_arg7)
      = V (Proc.devRef .tc main_arg7) := by
  after_results_simp

set_option maxHeartbeats 4000000 in
theorem agg2_keep_main_arg8 :
    after opsAgg2 V (Proc.devRef .tc main_arg8)
      = V (Proc.devRef .tc main_arg8) := by
  after_results_simp

set_option maxHeartbeats 4000000 in
theorem agg2_keep_main_arg10 :
    after opsAgg2 V (Proc.devRef .tc main_arg10)
      = V (Proc.devRef .tc main_arg10) := by
  after_results_simp

end Cert.ReferenceIdeal.Hand

end
-- ==== Proof.RStretchD2.lean ====
/-
  The reference's dense stretch of layer 2 (a product with the layer's weights, its bias, the positive part, the residual sum), read for arbitrary earlier contents, at the exact values.
-/
import proofs.«102544_j712964571382_1_alg».proof.Proof.RefRun
import proofs.«102544_j712964571382_1_alg».proof.Proof.HostStages
import proofs.«102544_j712964571382_1_alg».proof.Proof.LibDenseStages

noncomputable section

namespace Cert.ReferenceIdeal.Hand

open Cert.ReferenceIdeal Cert.ReferenceIdeal.Gen Idealize.ShloMosaic Idealize.ShloMosaic.TcCoe Idealize.ShloMosaic.StableHlo
open Idealize.ShloMosaic.ValueIdx

variable (V : Valuation τ sig (Elt Ideal))

set_option maxHeartbeats 4000000 in
theorem dense2_v :
    after opsDense2 V (Proc.devRef .tc main_v92)
      = Cert.Dense.layer (M := 100000) (K := 64) (N := 64) (V (Proc.devRef .tc main_v82)) (V (Proc.devRef .tc main_v59))
          (Cert.Stages.wSlice1 (F := Ideal) (V (Proc.devRef .tc main_arg3))) (Cert.Stages.rowOf (F := Ideal) (Cert.Stages.bSlice1 (F := Ideal) (V (Proc.devRef .tc main_arg4)))) := by
  after_results
  show addf (V (Proc.devRef .tc main_v59))
      (maximumf
        (addf (Host.dotGeneral dot_S100000x64_S64x64_S100000x64_1_0_0_1_n_n none (V (Proc.devRef .tc main_v82)) (Cert.Stages.wSlice1 (F := Ideal) (V (Proc.devRef .tc main_arg3))))
          (broadcastInDim S100000x64 ![0, 1] bcast_S1x64_S100000x64_0_1
            (broadcastInDim S1x64 ![1] bcast_S64_S1x64_1 (Cert.Stages.bSlice1 (F := Ideal) (V (Proc.devRef .tc main_arg4))))))
        (broadcastInDim S100000x64 ![] bcast_S_S100000x64 (constant (F := Ideal) S_ .f32 0x00000000#32))) = _
  funext i
  obtain ⟨p, q, rfl⟩ : ∃ (p : Fin 100000) (q : Fin 64), i = ix2 p q := ⟨i 0, i 1, eq_ix2 i⟩
  exact Cert.Dense.host_layer_apply none _ _ _ _ _ _ _ _ p q

set_option maxHeartbeats 4000000 in
theorem dense2_keep_main_v1 :
    after opsDense2 V (Proc.devRef .tc main_v1)
      = V (Proc.devRef .tc main_v1) := by
  after_results

set_option maxHeartbeats 4000000 in
theorem dense2_keep_main_v3 :
    after opsDense2 V (Proc.devRef .tc main_v3)
      = V (Proc.devRef .tc main_v3) := by
  after_results

set_option maxHeartbeats 4000000 in
theorem dense2_keep_main_v16 :
    after opsDense2 V (Proc.devRef .tc main_v16)
      = V (Proc.devRef .tc main_v16) := by
  after_results

set_option maxHeartbeats 4000000 in
theorem dense2_keep_main_v22 :
    after opsDense2 V (Proc.devRef .tc main_v22)
      = V (Proc.devRef .tc main_v22) := by
  after_results

set_option maxHeartbeats 4000000 in
theorem dense2_keep_main_arg3 :
    after opsDense2 V (Proc.devRef .tc main_arg3)
      = V (Proc.devRef .tc main_arg3) := by
  after_results

set_option maxHeartbeats 4000000 in
theorem dense2_keep_main_arg4 :
    after opsDense2 V (Proc.devRef .tc main_arg4)
      = V (Proc.devRef .tc main_arg4) := by
  after_results

set_option maxHeartbeats 4000000 in
theorem dense2_keep_main_arg5 :
    after opsDense2 V (Proc.devRef .tc main_arg5)
      = V (Proc.devRef .tc main_arg5) := by
  after_results

set_option maxHeartbeats 4000000 in
theorem dense2_keep_main_arg6 :
    after opsDense2 V (Proc.devRef .tc main_arg6)
      = V (Proc.devRef .tc main_arg6) := by
  after_results

set_option maxHeartbeats 4000000 in
theorem dense2_keep_main_arg7 :
    after opsDense2 V (Proc.devRef .tc main_arg7)
      = V (Proc.devRef .tc main_arg7) := by
  after_results

set_option maxHeartbeats 4000000 in
theorem dense2_keep_main_arg8 :
    after opsDense2 V (Proc.devRef .tc main_arg8)
      = V (Proc.devRef .tc main_arg8) := by
  after_results

set_option maxHeartbeats 4000000 in
theorem dense2_keep_main_arg10 :
    after opsDense2 V (Proc.devRef .tc main_arg10)
      = V (Proc.devRef .tc main_arg10) := by
  after_results

end Cert.ReferenceIdeal.Hand

end
-- ==== Proof.RStretchA3.lean ====
/-
  The reference's message-passing stretch of layer 3, read for arbitrary earlier contents.
-/
import proofs.«102544_j712964571382_1_alg».proof.Proof.RefRun
import proofs.«102544_j712964571382_1_alg».proof.Proof.HostStages

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F] (V : Valuation τ sig (Elt F))

set_option maxHeartbeats 4000000 in
theorem agg3_v :
    after opsAgg3 V (Proc.devRef .tc main_v115)
      = Cert.Stages.agg (F := F) (V (Proc.devRef .tc main_v92)) (V (Proc.devRef .tc main_v1)) (V (Proc.devRef .tc main_v3)) (V (Proc.devRef .tc main_v16)) (V (Proc.devRef .tc main_v22)) := by
  after_results_simp <;> rfl

set_option maxHeartbeats 4000000 in
theorem agg3_keep_main_v92 :
    after opsAgg3 V (Proc.devRef .tc main_v92)
      = V (Proc.devRef .tc main_v92) := by
  after_results_simp

set_option maxHeartbeats 4000000 in
theorem agg3_keep_main_v1 :
    after opsAgg3 V (Proc.devRef .tc main_v1)
      = V (Proc.devRef .tc main_v1) := by
  after_results_simp

set_option maxHeartbeats 4000000 in
theorem agg3_keep_main_v3 :
    after opsAgg3 V (Proc.devRef .tc main_v3)
      = V (Proc.devRef .tc main_v3) := by
  after_results_simp

set_option maxHeartbeats 4000000 in
theorem agg3_keep_main_v16 :
    after opsAgg3 V (Proc.devRef .tc main_v16)
      = V (Proc.devRef .tc main_v16) := by
  after_results_simp

set_option maxHeartbeats 4000000 in
theorem agg3_keep_main_v22 :
    after opsAgg3 V (Proc.devRef .tc main_v22)
      = V (Proc.devRef .tc main_v22) := by
  after_results_simp

set_option maxHeartbeats 4000000 in
theorem agg3_keep_main_arg3 :
    after opsAgg3 V (Proc.devRef .tc main_arg3)
      = V (Proc.devRef .tc main_arg3) := by
  after_results_simp

set_option maxHeartbeats 4000000 in
theorem agg3_keep_main_arg4 :
    after opsAgg3 V (Proc.devRef .tc main_arg4)
      = V (Proc.devRef .tc main_arg4) := by
  after_results_simp

set_option maxHeartbeats 4000000 in
theorem agg3_keep_main_arg5 :
    after opsAgg3 V (Proc.devRef .tc main_arg5)
      = V (Proc.devRef .tc main_arg5) := by
  after_results_simp

set_option maxHeartbeats 4000000 in
theorem agg3_keep_main_arg6 :
    after opsAgg3 V (Proc.devRef .tc main_arg6)
      = V (Proc.devRef .tc main_arg6) := by
  after_results_simp

set_option maxHeartbeats 4000000 in
theorem agg3_keep_main_arg7 :
    after opsAgg3 V (Proc.devRef .tc main_arg7)
      = V (Proc.devRef .tc main_arg7) := by
  after_results_simp

set_option maxHeartbeats 4000000 in
theorem agg3_keep_main_arg8 :
    after opsAgg3 V (Proc.devRef .tc main_arg8)
      = V (Proc.devRef .tc main_arg8) := by
  after_results_simp

set_option maxHeartbeats 4000000 in
theorem agg3_keep_main_arg10 :
    after opsAgg3 V (Proc.devRef .tc main_arg10)
      = V (Proc.devRef .tc main_arg10) := by
  after_results_simp

end Cert.ReferenceIdeal.Hand

end
-- ==== Proof.RStretchD3.lean ====
/-
  The reference's dense stretch of layer 3 (a product with the layer's weights, its bias, the positive part, the residual sum), read for arbitrary earlier contents, at the exact values.
-/
import proofs.«102544_j712964571382_1_alg».proof.Proof.RefRun
import proofs.«102544_j712964571382_1_alg».proof.Proof.HostStages
import proofs.«102544_j712964571382_1_alg».proof.Proof.LibDenseStages

noncomputable section

namespace Cert.ReferenceIdeal.Hand

open Cert.ReferenceIdeal Cert.ReferenceIdeal.Gen Idealize.ShloMosaic Idealize.ShloMosaic.TcCoe Idealize.ShloMosaic.StableHlo
open Idealize.ShloMosaic.ValueIdx

variable (V : Valuation τ sig (Elt Ideal))

set_option maxHeartbeats 4000000 in
theorem dense3_v :
    after opsDense3 V (Proc.devRef .tc main_v125)
      = Cert.Dense.layer (M := 100000) (K := 64) (N := 64) (V (Proc.devRef .tc main_v115)) (V (Proc.devRef .tc main_v92))
          (Cert.Stages.wSlice2 (F := Ideal) (V (Proc.devRef .tc main_arg3))) (Cert.Stages.rowOf (F := Ideal) (Cert.Stages.bSlice2 (F := Ideal) (V (Proc.devRef .tc main_arg4)))) := by
  after_results
  show addf (V (Proc.devRef .tc main_v92))
      (maximumf
        (addf (Host.dotGeneral dot_S100000x64_S64x64_S100000x64_1_0_0_1_n_n none (V (Proc.devRef .tc main_v115)) (Cert.Stages.wSlice2 (F := Ideal) (V (Proc.devRef .tc main_arg3))))
          (broadcastInDim S100000x64 ![0, 1] bcast_S1x64_S100000x64_0_1
            (broadcastInDim S1x64 ![1] bcast_S64_S1x64_1 (Cert.Stages.bSlice2 (F := Ideal) (V (Proc.devRef .tc main_arg4))))))
        (broadcastInDim S100000x64 ![] bcast_S_S100000x64 (constant (F := Ideal) S_ .f32 0x00000000#32))) = _
  funext i
  obtain ⟨p, q, rfl⟩ : ∃ (p : Fin 100000) (q : Fin 64), i = ix2 p q := ⟨i 0, i 1, eq_ix2 i⟩
  exact Cert.Dense.host_layer_apply none _ _ _ _ _ _ _ _ p q

set_option maxHeartbeats 4000000 in
theorem dense3_keep_main_v1 :
    after opsDense3 V (Proc.devRef .tc main_v1)
      = V (Proc.devRef .tc main_v1) := by
  after_results

set_option maxHeartbeats 4000000 in
theorem dense3_keep_main_v3 :
    after opsDense3 V (Proc.devRef .tc main_v3)
      = V (Proc.devRef .tc main_v3) := by
  after_results

set_option maxHeartbeats 4000000 in
theorem dense3_keep_main_v16 :
    after opsDense3 V (Proc.devRef .tc main_v16)
      = V (Proc.devRef .tc main_v16) := by
  after_results

set_option maxHeartbeats 4000000 in
theorem dense3_keep_main_v22 :
    after opsDense3 V (Proc.devRef .tc main_v22)
      = V (Proc.devRef .tc main_v22) := by
  after_results

set_option maxHeartbeats 4000000 in
theorem dense3_keep_main_arg3 :
    after opsDense3 V (Proc.devRef .tc main_arg3)
      = V (Proc.devRef .tc main_arg3) := by
  after_results

set_option maxHeartbeats 4000000 in
theorem dense3_keep_main_arg4 :
    after opsDense3 V (Proc.devRef .tc main_arg4)
      = V (Proc.devRef .tc main_arg4) := by
  after_results

set_option maxHeartbeats 4000000 in
theorem dense3_keep_main_arg5 :
    after opsDense3 V (Proc.devRef .tc main_arg5)
      = V (Proc.devRef .tc main_arg5) := by
  after_results

set_option maxHeartbeats 4000000 in
theorem dense3_keep_main_arg6 :
    after opsDense3 V (Proc.devRef .tc main_arg6)
      = V (Proc.devRef .tc main_arg6) := by
  after_results

set_option maxHeartbeats 4000000 in
theorem dense3_keep_main_arg7 :
    after opsDense3 V (Proc.devRef .tc main_arg7)
      = V (Proc.devRef .tc main_arg7) := by
  after_results

set_option maxHeartbeats 4000000 in
theorem dense3_keep_main_arg8 :
    after opsDense3 V (Proc.devRef .tc main_arg8)
      = V (Proc.devRef .tc main_arg8) := by
  after_results

set_option maxHeartbeats 4000000 in
theorem dense3_keep_main_arg10 :
    after opsDense3 V (Proc.devRef .tc main_arg10)
      = V (Proc.devRef .tc main_arg10) := by
  after_results

end Cert.ReferenceIdeal.Hand

end
-- ==== Proof.RStretchA4.lean ====
/-
  The reference's message-passing stretch of layer 4, read for arbitrary earlier contents.
-/
import proofs.«102544_j712964571382_1_alg».proof.Proof.RefRun
import proofs.«102544_j712964571382_1_alg».proof.Proof.HostStages

noncomputable section

namespace Cert.ReferenceIdeal.Hand

open Cert.ReferenceIdeal Cert.ReferenceIdeal.Gen Idealize.ShloMosaic Idealize.ShloMosaic.TcCoe Idealize.ShloMosaic.StableHlo

variable {F : FTy → Type} [FloatOps F] (V : Valuation τ sig (Elt F))

set_option maxHeartbeats 4000000 in
theorem agg4_v :
    after opsAgg4 V (Proc.devRef .tc main_v148)
      = Cert.Stages.agg (F := F) (V (Proc.devRef .tc main_v125)) (V (Proc.devRef .tc main_v1)) (V (Proc.devRef .tc main_v3)) (V (Proc.devRef .tc main_v16)) (V (Proc.devRef .tc main_v22)) := by
  after_results_simp <;> rfl

set_option maxHeartbeats 4000000 in
theorem agg4_keep_main_v125 :
    after opsAgg4 V (Proc.devRef .tc main_v125)
      = V (Proc.devRef .tc main_v125) := by
  after_results_simp

set_option maxHeartbeats 4000000 in
theorem agg4_keep_main_v1 :
    after opsAgg4 V (Proc.devRef .tc main_v1)
      = V (Proc.devRef .tc main_v1) := by
  after_results_simp

set_option maxHeartbeats 4000000 in
theorem agg4_keep_main_v3 :
    after opsAgg4 V (Proc.devRef .tc main_v3)
      = V (Proc.devRef .tc main_v3) := by
  after_results_simp

set_option maxHeartbeats 4000000 in
theorem agg4_keep_main_v16 :
    after opsAgg4 V (Proc.devRef .tc main_v16)
      = V (Proc.devRef .tc main_v16) := by
  after_results_simp

set_option maxHeartbeats 4000000 in
theorem agg4_keep_main_v22 :
    after opsAgg4 V (Proc.devRef .tc main_v22)
      = V (Proc.devRef .tc main_v22) := by
  after_results_simp

set_option maxHeartbeats 4000000 in
theorem agg4_keep_main_arg3 :
    after opsAgg4 V (Proc.devRef .tc main_arg3)
      = V (Proc.devRef .tc main_arg3) := by
  after_results_simp

set_option maxHeartbeats 4000000 in
theorem agg4_keep_main_arg4 :
    after opsAgg4 V (Proc.devRef .tc main_arg4)
      = V (Proc.devRef .tc main_arg4) := by
  after_results_simp

set_option maxHeartbeats 4000000 in
theorem agg4_keep_main_arg5 :
    after opsAgg4 V (Proc.devRef .tc main_arg5)
      = V (Proc.devRef .tc main_arg5) := by
  after_results_simp

set_option maxHeartbeats 4000000 in
theorem agg4_keep_main_arg6 :
    after opsAgg4 V (Proc.devRef .tc main_arg6)
      = V (Proc.devRef .tc main_arg6) := by
  after_results_simp

set_option maxHeartbeats 4000000 in
theorem agg4_keep_main_arg7 :
    after opsAgg4 V (Proc.devRef .tc main_arg7)
      = V (Proc.devRef .tc main_arg7) := by
  after_results_simp

set_option maxHeartbeats 4000000 in
theorem agg4_keep_main_arg8 :
    after opsAgg4 V (Proc.devRef .tc main_arg8)
      = V (Proc.devRef .tc main_arg8) := by
  after_results_simp

set_option maxHeartbeats 4000000 in
theorem agg4_keep_main_arg10 :
    after opsAgg4 V (Proc.devRef .tc main_arg10)
      = V (Proc.devRef .tc main_arg10) := by
  after_results_simp

end Cert.ReferenceIdeal.Hand

end
-- ==== Proof.RStretchD4.lean ====
/-
  The reference's dense stretch of layer 4 (a product with the layer's weights, its bias, the positive part, the residual sum), read for arbitrary earlier contents, at the exact values.
-/
import proofs.«102544_j712964571382_1_alg».proof.Proof.RefRun
import proofs.«102544_j712964571382_1_alg».proof.Proof.HostStages
import proofs.«102544_j712964571382_1_alg».proof.Proof.LibDenseStages

noncomputable section

namespace Cert.ReferenceIdeal.Hand

open Cert.ReferenceIdeal Cert.ReferenceIdeal.Gen Idealize.ShloMosaic Idealize.ShloMosaic.TcCoe Idealize.ShloMosaic.StableHlo
open Idealize.ShloMosaic.ValueIdx

variable (V : Valuation τ sig (Elt Ideal))

set_option maxHeartbeats 4000000 in
theorem dense4_v :
    after opsDense4 V (Proc.devRef .tc main_v158)
      = Cert.Dense.layer (M := 100000) (K := 64) (N := 64) (V (Proc.devRef .tc main_v148)) (V (Proc.devRef .tc main_v125))
          (Cert.Stages.wSlice3 (F := Ideal) (V (Proc.devRef .tc main_arg3))) (Cert.Stages.rowOf (F := Ideal) (Cert.Stages.bSlice3 (F := Ideal) (V (Proc.devRef .tc main_arg4)))) := by
  after_results
  show addf (V (Proc.devRef .tc main_v125))
      (maximumf
        (addf (Host.dotGeneral dot_S100000x64_S64x64_S100000x64_1_0_0_1_n_n none (V (Proc.devRef .tc main_v148)) (Cert.Stages.wSlice3 (F := Ideal) (V (Proc.devRef .tc main_arg3))))
          (broadcastInDim S100000x64 ![0, 1] bcast_S1x64_S100000x64_0_1
            (broadcastInDim S1x64 ![1] bcast_S64_S1x64_1 (Cert.Stages.bSlice3 (F := Ideal) (V (Proc.devRef .tc main_arg4))))))
        (broadcastInDim S100000x64 ![] bcast_S_S100000x64 (constant (F := Ideal) S_ .f32 0x00000000#32))) = _
  funext i
  obtain ⟨p, q, rfl⟩ : ∃ (p : Fin 100000) (q : Fin 64), i = ix2 p q := ⟨i 0, i 1, eq_ix2 i⟩
  exact Cert.Dense.host_layer_apply none _ _ _ _ _ _ _ _ p q

set_option maxHeartbeats 4000000 in
theorem dense4_keep_main_v1 :
    after opsDense4 V (Proc.devRef .tc main_v1)
      = V (Proc.devRef .tc main_v1) := by
  after_results

set_option maxHeartbeats 4000000 in
theorem dense4_keep_main_v3 :
    after opsDense4 V (Proc.devRef .tc main_v3)
      = V (Proc.devRef .tc main_v3) := by
  after_results

set_option maxHeartbeats 4000000 in
theorem dense4_keep_main_v16 :
    after opsDense4 V (Proc.devRef .tc main_v16)
      = V (Proc.devRef .tc main_v16) := by
  after_results

set_option maxHeartbeats 4000000 in
theorem dense4_keep_main_v22 :
    after opsDense4 V (Proc.devRef .tc main_v22)
      = V (Proc.devRef .tc main_v22) := by
  after_results

set_option maxHeartbeats 4000000 in
theorem dense4_keep_main_arg3 :
    after opsDense4 V (Proc.devRef .tc main_arg3)
      = V (Proc.devRef .tc main_arg3) := by
  after_results

set_option maxHeartbeats 4000000 in
theorem dense4_keep_main_arg4 :
    after opsDense4 V (Proc.devRef .tc main_arg4)
      = V (Proc.devRef .tc main_arg4) := by
  after_results

set_option maxHeartbeats 4000000 in
theorem dense4_keep_main_arg5 :
    after opsDense4 V (Proc.devRef .tc main_arg5)
      = V (Proc.devRef .tc main_arg5) := by
  after_results

set_option maxHeartbeats 4000000 in
theorem dense4_keep_main_arg6 :
    after opsDense4 V (Proc.devRef .tc main_arg6)
      = V (Proc.devRef .tc main_arg6) := by
  after_results

set_option maxHeartbeats 4000000 in
theorem dense4_keep_main_arg7 :
    after opsDense4 V (Proc.devRef .tc main_arg7)
      = V (Proc.devRef .tc main_arg7) := by
  after_results

set_option maxHeartbeats 4000000 in
theorem dense4_keep_main_arg8 :
    after opsDense4 V (Proc.devRef .tc main_arg8)
      = V (Proc.devRef .tc main_arg8) := by
  after_results

set_option maxHeartbeats 4000000 in
theorem dense4_keep_main_arg10 :
    after opsDense4 V (Proc.devRef .tc main_arg10)
      = V (Proc.devRef .tc main_arg10) := by
  after_results

end Cert.ReferenceIdeal.Hand

end
-- ==== Proof.RStretchEnd.lean ====
/-
  The reference's last two stretches (the per-graph sums; the readout), read for arbitrary earlier contents, at the exact values.
-/
import proofs.«102544_j712964571382_1_alg».proof.Proof.RefRun
import proofs.«102544_j712964571382_1_alg».proof.Proof.HostStages
import proofs.«102544_j712964571382_1_alg».proof.Proof.LibDenseStages

noncomputable section

namespace Cert.ReferenceIdeal.Hand

open Cert.ReferenceIdeal Cert.ReferenceIdeal.Gen Idealize.ShloMosaic Idealize.ShloMosaic.TcCoe Idealize.ShloMosaic.StableHlo
open Idealize.ShloMosaic.ValueIdx

variable (V : Valuation τ sig (Elt Ideal))

set_option maxHeartbeats 4000000 in
theorem pool_v161 :
    after opsPool V (Proc.devRef .tc main_v161)
      = Cert.Stages.pool (F := Ideal) (V (Proc.devRef .tc main_v158)) (V (Proc.devRef .tc main_arg10)) := by
  after_results <;> rfl

set_option maxHeartbeats 4000000 in
theorem pool_keep_main_arg5 :
    after opsPool V (Proc.devRef .tc main_arg5)
      = V (Proc.devRef .tc main_arg5) := by
  after_results

set_option maxHeartbeats 4000000 in
theorem pool_keep_main_arg6 :
    after opsPool V (Proc.devRef .tc main_arg6)
      = V (Proc.devRef .tc main_arg6) := by
  after_results

set_option maxHeartbeats 4000000 in
theorem pool_keep_main_arg7 :
    after opsPool V (Proc.devRef .tc main_arg7)
      = V (Proc.devRef .tc main_arg7) := by
  after_results

set_option maxHeartbeats 4000000 in
theorem pool_keep_main_arg8 :
    after opsPool V (Proc.devRef .tc main_arg8)
      = V (Proc.devRef .tc main_arg8) := by
  after_results

set_option maxHeartbeats 4000000 in
theorem head_v170 :
    after opsHead V (Proc.devRef .tc main_v170)
      = Cert.Dense.head (M := 2048) (K := 64) (H := 64) (T := 1) (V (Proc.devRef .tc main_v161)) (V (Proc.devRef .tc main_arg5)) (Cert.Stages.rowOf (F := Ideal) (V (Proc.devRef .tc main_arg6)))
          (V (Proc.devRef .tc main_arg7)) (Cert.Stages.rowOf1 (F := Ideal) (V (Proc.devRef .tc main_arg8))) := by
  after_results
  show addf
      (Host.dotGeneral dot_S2048x64_S64x1_S2048x1_1_0_0_1_n_n none
        (maximumf
          (addf (Host.dotGeneral dot_S2048x64_S64x64_S2048x64_1_0_0_1_n_n none (V (Proc.devRef .tc main_v161)) (V (Proc.devRef .tc main_arg5)))
            (broadcastInDim S2048x64 ![0, 1] bcast_S1x64_S2048x64_0_1 (broadcastInDim S1x64 ![1] bcast_S64_S1x64_1 (V (Proc.devRef .tc main_arg6)))))
          (broadcastInDim S2048x64 ![] bcast_S_S2048x64 (constant (F := Ideal) S_ .f32 0x00000000#32)))
        (V (Proc.devRef .tc main_arg7)))
      (broadcastInDim S2048x1 ![0, 1] bcast_S1x1_S2048x1_0_1 (broadcastInDim S1x1 ![1] bcast_S1_S1x1_1 (V (Proc.devRef .tc main_arg8)))) = _
  funext i
  obtain ⟨p, t, rfl⟩ : ∃ (p : Fin 2048) (t : Fin 1), i = ix2 p t := ⟨i 0, i 1, eq_ix2 i⟩
  exact Cert.Dense.host_head_apply none _ _ _ _ _ _ _ _ _ _ _ _ p t

end Cert.ReferenceIdeal.Hand

end
-- ==== Proof.RefWalk.lean ====
/-
  The reference program's result as the network's function of the argument arrays.

  Its one line of host operations is read stretch by stretch from the launch contents: the facts that stay live — the
  sources and targets, the two degree normalisations, the parameter arrays still to be read — hold after every stretch,
  since no later stretch writes those buffers; the node features after dense stretch `k` are `h_k` of the arguments;
  the readout of their per-graph sums is the network's result.
-/
import proofs.«102544_j712964571382_1_alg».proof.Proof.RefRun
import proofs.«102544_j712964571382_1_alg».proof.Proof.RStretchNorm
import proofs.«102544_j712964571382_1_alg».proof.Proof.RStretchEmbed
import proofs.«102544_j712964571382_1_alg».proof.Proof.RStretchA1
import proofs.«102544_j712964571382_1_alg».proof.Proof.RStretchD1
import proofs.«102544_j712964571382_1_alg».proof.Proof.RStretchA2
import proofs.«102544_j712964571382_1_alg».proof.Proof.RStretchD2
import proofs.«102544_j712964571382_1_alg».proof.Proof.RStretchA3
import proofs.«102544_j712964571382_1_alg».proof.Proof.RStretchD3
import proofs.«102544_j712964571382_1_alg».proof.Proof.RStretchA4
import proofs.«102544_j712964571382_1_alg».proof.Proof.RStretchD4
import proofs.«102544_j712964571382_1_alg».proof.Proof.RStretchEnd
import proofs.«102544_j712964571382_1_alg».proof.Proof.NetSpec

noncomputable section

namespace Cert.ReferenceIdeal.Hand

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-! ## The argument arrays as launched -/

abbrev y0 : FVec Ideal Cert.KernelIdeal.S100000x74 .f32 := m ((c.tc : Thread nD τ).loc main_arg0)
abbrev y1 : FVec Ideal Cert.KernelIdeal.S74x64 .f32 := m ((c.tc : Thread nD τ).loc main_arg1)
abbrev y2 : FVec Ideal Cert.KernelIdeal.S64 .f32 := m ((c.tc : Thread nD τ).loc main_arg2)
abbrev y3 : FVec Ideal Cert.KernelIdeal.S4x64x64 .f32 := m ((c.tc : Thread nD τ).loc main_arg3)
abbrev y4 : FVec Ideal Cert.KernelIdeal.S4x64 .f32 := m ((c.tc : Thread nD τ).loc main_arg4)
abbrev y5 : FVec Ideal Cert.KernelIdeal.S64x64 .f32 := m ((c.tc : Thread nD τ).loc main_arg5)
abbrev y6 : FVec Ideal Cert.KernelIdeal.S64 .f32 := m ((c.tc : Thread nD τ).loc main_arg6)
abbrev y7 : FVec Ideal Cert.KernelIdeal.S64x1 .f32 := m ((c.tc : Thread nD τ).loc main_arg7)
abbrev y8 : FVec Ideal Cert.KernelIdeal.S1 .f32 := m ((c.tc : Thread nD τ).loc main_arg8)
abbrev y9 : IVec Cert.KernelIdeal.S2x1200000 32 := m ((c.tc : Thread nD τ).loc main_arg9)
abbrev y10 : IVec Cert.KernelIdeal.S100000 32 := m ((c.tc : Thread nD τ).loc main_arg10)

/-! ## The contents after each stretch -/

abbrev V0 : Valuation τ sig (Elt Ideal) := launchContents m c
abbrev V1 : Valuation τ sig (Elt Ideal) := after opsNorm (V0 m c)
abbrev V2 : Valuation τ sig (Elt Ideal) := after opsEmbed (V1 m c)
abbrev V3 : Valuation τ sig (Elt Ideal) := after opsAgg1 (V2 m c)
abbrev V4 : Valuation τ sig (Elt Ideal) := after opsDense1 (V3 m c)
abbrev V5 : Valuation τ sig (Elt Ideal) := after opsAgg2 (V4 m c)
abbrev V6 : Valuation τ sig (Elt Ideal) := after opsDense2 (V5 m c)
abbrev V7 : Valuation τ sig (Elt Ideal) := after opsAgg3 (V6 m c)
abbrev V8 : Valuation τ sig (Elt Ideal) := after opsDense3 (V7 m c)
abbrev V9 : Valuation τ sig (Elt Ideal) := after opsAgg4 (V8 m c)
abbrev V10 : Valuation τ sig (Elt Ideal) := after opsDense4 (V9 m c)
abbrev V11 : Valuation τ sig (Elt Ideal) := after opsPool (V10 m c)
abbrev V12 : Valuation τ sig (Elt Ideal) := after opsHead (V11 m c)

/-! ## What stays live after every stretch -/

structure Live (V : Valuation τ sig (Elt Ideal)) : Prop where
  v1 : V (Proc.devRef .tc main_v1) = Cert.Stages.edgeRow0 (y9 m c)
  v3 : V (Proc.devRef .tc main_v3) = Cert.Stages.edgeRow1 (y9 m c)
  v16 : V (Proc.devRef .tc main_v16) = Cert.Stages.norm (F := Ideal) (Cert.Stages.edgeRow0 (y9 m c))
  v22 : V (Proc.devRef .tc main_v22) = Cert.Stages.norm (F := Ideal) (Cert.Stages.edgeRow1 (y9 m c))
  a3 : V (Proc.devRef .tc main_arg3) = y3 m c
  a4 : V (Proc.devRef .tc main_arg4) = y4 m c
  a5 : V (Proc.devRef .tc main_arg5) = y5 m c
  a6 : V (Proc.devRef .tc main_arg6) = y6 m c
  a7 : V (Proc.devRef .tc main_arg7) = y7 m c
  a8 : V (Proc.devRef .tc main_arg8) = y8 m c
  a10 : V (Proc.devRef .tc main_arg10) = y10 m c

theorem live1 : Live m c (V1 m c) where
  v1 := norm_v1 (V0 m c)
  v3 := norm_v3 (V0 m c)
  v16 := norm_v16 (V0 m c)
  v22 := norm_v22 (V0 m c)
  a3 := norm_keep_main_arg3 (V0 m c)
  a4 := norm_keep_main_arg4 (V0 m c)
  a5 := norm_keep_main_arg5 (V0 m c)
  a6 := norm_keep_main_arg6 (V0 m c)
  a7 := norm_keep_main_arg7 (V0 m c)
  a8 := norm_keep_main_arg8 (V0 m c)
  a10 := norm_keep_main_arg10 (V0 m c)

theorem v1_arg0 : V1 m c (Proc.devRef .tc main_arg0) = y0 m c := norm_keep_main_arg0 (V0 m c)
theorem v1_arg1 : V1 m c (Proc.devRef .tc main_arg1) = y1 m c := norm_keep_main_arg1 (V0 m c)
theorem v1_arg2 : V1 m c (Proc.devRef .tc main_arg2) = y2 m c := norm_keep_main_arg2 (V0 m c)

theorem L1 : Live m c (V1 m c) := live1 m c
theorem L2 : Live m c (V2 m c) where
  v1 := (embed_keep_main_v1 (V1 m c)).trans (L1 m c).v1
  v3 := (embed_keep_main_v3 (V1 m c)).trans (L1 m c).v3
  v16 := (embed_keep_main_v16 (V1 m c)).trans (L1 m c).v16
  v22 := (embed_keep_main_v22 (V1 m c)).trans (L1 m c).v22
  a3 := (embed_keep_main_arg3 (V1 m c)).trans (L1 m c).a3
  a4 := (embed_keep_main_arg4 (V1 m c)).trans (L1 m c).a4
  a5 := (embed_keep_main_arg5 (V1 m c)).trans (L1 m c).a5
  a6 := (embed_keep_main_arg6 (V1 m c)).trans (L1 m c).a6
  a7 := (embed_keep_main_arg7 (V1 m c)).trans (L1 m c).a7
  a8 := (embed_keep_main_arg8 (V1 m c)).trans (L1 m c).a8
  a10 := (embed_keep_main_arg10 (V1 m c)).trans (L1 m c).a10
theorem L3 : Live m c (V3 m c) where
  v1 := (agg1_keep_main_v1 (V2 m c)).trans (L2 m c).v1
  v3 := (agg1_keep_main_v3 (V2 m c)).trans (L2 m c).v3
  v16 := (agg1_keep_main_v16 (V2 m c)).trans (L2 m c).v16
  v22 := (agg1_keep_main_v22 (V2 m c)).trans (L2 m c).v22
  a3 := (agg1_keep_main_arg3 (V2 m c)).trans (L2 m c).a3
  a4 := (agg1_keep_main_arg4 (V2 m c)).trans (L2 m c).a4
  a5 := (agg1_keep_main_arg5 (V2 m c)).trans (L2 m c).a5
  a6 := (agg1_keep_main_arg6 (V2 m c)).trans (L2 m c).a6
  a7 := (agg1_keep_main_arg7 (V2 m c)).trans (L2 m c).a7
  a8 := (agg1_keep_main_arg8 (V2 m c)).trans (L2 m c).a8
  a10 := (agg1_keep_main_arg10 (V2 m c)).trans (L2 m c).a10
theorem L4 : Live m c (V4 m c) where
  v1 := (dense1_keep_main_v1 (V3 m c)).trans (L3 m c).v1
  v3 := (dense1_keep_main_v3 (V3 m c)).trans (L3 m c).v3
  v16 := (dense1_keep_main_v16 (V3 m c)).trans (L3 m c).v16
  v22 := (dense1_keep_main_v22 (V3 m c)).trans (L3 m c).v22
  a3 := (dense1_keep_main_arg3 (V3 m c)).trans (L3 m c).a3
  a4 := (dense1_keep_main_arg4 (V3 m c)).trans (L3 m c).a4
  a5 := (dense1_keep_main_arg5 (V3 m c)).trans (L3 m c).a5
  a6 := (dense1_keep_main_arg6 (V3 m c)).trans (L3 m c).a6
  a7 := (dense1_keep_main_arg7 (V3 m c)).trans (L3 m c).a7
  a8 := (dense1_keep_main_arg8 (V3 m c)).trans (L3 m c).a8
  a10 := (dense1_keep_main_arg10 (V3 m c)).trans (L3 m c).a10
theorem L5 : Live m c (V5 m c) where
  v1 := (agg2_keep_main_v1 (V4 m c)).trans (L4 m c).v1
  v3 := (agg2_keep_main_v3 (V4 m c)).trans (L4 m c).v3
  v16 := (agg2_keep_main_v16 (V4 m c)).trans (L4 m c).v16
  v22 := (agg2_keep_main_v22 (V4 m c)).trans (L4 m c).v22
  a3 := (agg2_keep_main_arg3 (V4 m c)).trans (L4 m c).a3
  a4 := (agg2_keep_main_arg4 (V4 m c)).trans (L4 m c).a4
  a5 := (agg2_keep_main_arg5 (V4 m c)).trans (L4 m c).a5
  a6 := (agg2_keep_main_arg6 (V4 m c)).trans (L4 m c).a6
  a7 := (agg2_keep_main_arg7 (V4 m c)).trans (L4 m c).a7
  a8 := (agg2_keep_main_arg8 (V4 m c)).trans (L4 m c).a8
  a10 := (agg2_keep_main_arg10 (V4 m c)).trans (L4 m c).a10
theorem L6 : Live m c (V6 m c) where
  v1 := (dense2_keep_main_v1 (V5 m c)).trans (L5 m c).v1
  v3 := (dense2_keep_main_v3 (V5 m c)).trans (L5 m c).v3
  v16 := (dense2_keep_main_v16 (V5 m c)).trans (L5 m c).v16
  v22 := (dense2_keep_main_v22 (V5 m c)).trans (L5 m c).v22
  a3 := (dense2_keep_main_arg3 (V5 m c)).trans (L5 m c).a3
  a4 := (dense2_keep_main_arg4 (V5 m c)).trans (L5 m c).a4
  a5 := (dense2_keep_main_arg5 (V5 m c)).trans (L5 m c).a5
  a6 := (dense2_keep_main_arg6 (V5 m c)).trans (L5 m c).a6
  a7 := (dense2_keep_main_arg7 (V5 m c)).trans (L5 m c).a7
  a8 := (dense2_keep_main_arg8 (V5 m c)).trans (L5 m c).a8
  a10 := (dense2_keep_main_arg10 (V5 m c)).trans (L5 m c).a10
theorem L7 : Live m c (V7 m c) where
  v1 := (agg3_keep_main_v1 (V6 m c)).trans (L6 m c).v1
  v3 := (agg3_keep_main_v3 (V6 m c)).trans (L6 m c).v3
  v16 := (agg3_keep_main_v16 (V6 m c)).trans (L6 m c).v16
  v22 := (agg3_keep_main_v22 (V6 m c)).trans (L6 m c).v22
  a3 := (agg3_keep_main_arg3 (V6 m c)).trans (L6 m c).a3
  a4 := (agg3_keep_main_arg4 (V6 m c)).trans (L6 m c).a4
  a5 := (agg3_keep_main_arg5 (V6 m c)).trans (L6 m c).a5
  a6 := (agg3_keep_main_arg6 (V6 m c)).trans (L6 m c).a6
  a7 := (agg3_keep_main_arg7 (V6 m c)).trans (L6 m c).a7
  a8 := (agg3_keep_main_arg8 (V6 m c)).trans (L6 m c).a8
  a10 := (agg3_keep_main_arg10 (V6 m c)).trans (L6 m c).a10
theorem L8 : Live m c (V8 m c) where
  v1 := (dense3_keep_main_v1 (V7 m c)).trans (L7 m c).v1
  v3 := (dense3_keep_main_v3 (V7 m c)).trans (L7 m c).v3
  v16 := (dense3_keep_main_v16 (V7 m c)).trans (L7 m c).v16
  v22 := (dense3_keep_main_v22 (V7 m c)).trans (L7 m c).v22
  a3 := (dense3_keep_main_arg3 (V7 m c)).trans (L7 m c).a3
  a4 := (dense3_keep_main_arg4 (V7 m c)).trans (L7 m c).a4
  a5 := (dense3_keep_main_arg5 (V7 m c)).trans (L7 m c).a5
  a6 := (dense3_keep_main_arg6 (V7 m c)).trans (L7 m c).a6
  a7 := (dense3_keep_main_arg7 (V7 m c)).trans (L7 m c).a7
  a8 := (dense3_keep_main_arg8 (V7 m c)).trans (L7 m c).a8
  a10 := (dense3_keep_main_arg10 (V7 m c)).trans (L7 m c).a10
theorem L9 : Live m c (V9 m c) where
  v1 := (agg4_keep_main_v1 (V8 m c)).trans (L8 m c).v1
  v3 := (agg4_keep_main_v3 (V8 m c)).trans (L8 m c).v3
  v16 := (agg4_keep_main_v16 (V8 m c)).trans (L8 m c).v16
  v22 := (agg4_keep_main_v22 (V8 m c)).trans (L8 m c).v22
  a3 := (agg4_keep_main_arg3 (V8 m c)).trans (L8 m c).a3
  a4 := (agg4_keep_main_arg4 (V8 m c)).trans (L8 m c).a4
  a5 := (agg4_keep_main_arg5 (V8 m c)).trans (L8 m c).a5
  a6 := (agg4_keep_main_arg6 (V8 m c)).trans (L8 m c).a6
  a7 := (agg4_keep_main_arg7 (V8 m c)).trans (L8 m c).a7
  a8 := (agg4_keep_main_arg8 (V8 m c)).trans (L8 m c).a8
  a10 := (agg4_keep_main_arg10 (V8 m c)).trans (L8 m c).a10
theorem L10 : Live m c (V10 m c) where
  v1 := (dense4_keep_main_v1 (V9 m c)).trans (L9 m c).v1
  v3 := (dense4_keep_main_v3 (V9 m c)).trans (L9 m c).v3
  v16 := (dense4_keep_main_v16 (V9 m c)).trans (L9 m c).v16
  v22 := (dense4_keep_main_v22 (V9 m c)).trans (L9 m c).v22
  a3 := (dense4_keep_main_arg3 (V9 m c)).trans (L9 m c).a3
  a4 := (dense4_keep_main_arg4 (V9 m c)).trans (L9 m c).a4
  a5 := (dense4_keep_main_arg5 (V9 m c)).trans (L9 m c).a5
  a6 := (dense4_keep_main_arg6 (V9 m c)).trans (L9 m c).a6
  a7 := (dense4_keep_main_arg7 (V9 m c)).trans (L9 m c).a7
  a8 := (dense4_keep_main_arg8 (V9 m c)).trans (L9 m c).a8
  a10 := (dense4_keep_main_arg10 (V9 m c)).trans (L9 m c).a10

/-! ## The node features after each dense stretch -/

theorem hval0 : V2 m c (Proc.devRef .tc main_v26) = Cert.Net.h0 (y0 m c) (y1 m c) (y2 m c) :=
  (embed_v26 (V1 m c)).trans (by rw [v1_arg0 m c, v1_arg1 m c, v1_arg2 m c]; rfl)

theorem v3_agg : V3 m c (Proc.devRef .tc main_v49) = Cert.Stages.agg (Cert.Net.h0 (y0 m c) (y1 m c) (y2 m c)) (Cert.Stages.edgeRow0 (y9 m c)) (Cert.Stages.edgeRow1 (y9 m c)) (Cert.Stages.norm (F := Ideal) (Cert.Stages.edgeRow0 (y9 m c))) (Cert.Stages.norm (F := Ideal) (Cert.Stages.edgeRow1 (y9 m c))) :=
  (agg1_v (V2 m c)).trans (by rw [hval0 m c, (L2 m c).v1, (L2 m c).v3, (L2 m c).v16, (L2 m c).v22])
theorem v3_h : V3 m c (Proc.devRef .tc main_v26) = Cert.Net.h0 (y0 m c) (y1 m c) (y2 m c) :=
  (agg1_keep_main_v26 (V2 m c)).trans (hval0 m c)
theorem hval1 : V4 m c (Proc.devRef .tc main_v59) = Cert.Net.h1 (y0 m c) (y1 m c) (y2 m c) (y3 m c) (y4 m c) (y9 m c) :=
  (dense1_v (V3 m c)).trans (by rw [v3_agg m c, v3_h m c, (L3 m c).a3, (L3 m c).a4]; rfl)

theorem v5_agg : V5 m c (Proc.devRef .tc main_v82) = Cert.Stages.agg (Cert.Net.h1 (y0 m c) (y1 m c) (y2 m c) (y3 m c) (y4 m c) (y9 m c)) (Cert.Stages.edgeRow0 (y9 m c)) (Cert.Stages.edgeRow1 (y9 m c)) (Cert.Stages.norm (F := Ideal) (Cert.Stages.edgeRow0 (y9 m c))) (Cert.Stages.norm (F := Ideal) (Cert.Stages.edgeRow1 (y9 m c))) :=
  (agg2_v (V4 m c)).trans (by rw [hval1 m c, (L4 m c).v1, (L4 m c).v3, (L4 m c).v16, (L4 m c).v22])
theorem v5_h : V5 m c (Proc.devRef .tc main_v59) = Cert.Net.h1 (y0 m c) (y1 m c) (y2 m c) (y3 m c) (y4 m c) (y9 m c) :=
  (agg2_keep_main_v59 (V4 m c)).trans (hval1 m c)
theorem hval2 : V6 m c (Proc.devRef .tc main_v92) = Cert.Net.h2 (y0 m c) (y1 m c) (y2 m c) (y3 m c) (y4 m c) (y9 m c) :=
  (dense2_v (V5 m c)).trans (by rw [v5_agg m c, v5_h m c, (L5 m c).a3, (L5 m c).a4]; rfl)

theorem v7_agg : V7 m c (Proc.devRef .tc main_v115) = Cert.Stages.agg (Cert.Net.h2 (y0 m c) (y1 m c) (y2 m c) (y3 m c) (y4 m c) (y9 m c)) (Cert.Stages.edgeRow0 (y9 m c)) (Cert.Stages.edgeRow1 (y9 m c)) (Cert.Stages.norm (F := Ideal) (Cert.Stages.edgeRow0 (y9 m c))) (Cert.Stages.norm (F := Ideal) (Cert.Stages.edgeRow1 (y9 m c))) :=
  (agg3_v (V6 m c)).trans (by rw [hval2 m c, (L6 m c).v1, (L6 m c).v3, (L6 m c).v16, (L6 m c).v22])
theorem v7_h : V7 m c (Proc.devRef .tc main_v92) = Cert.Net.h2 (y0 m c) (y1 m c) (y2 m c) (y3 m c) (y4 m c) (y9 m c) :=
  (agg3_keep_main_v92 (V6 m c)).trans (hval2 m c)
theorem hval3 : V8 m c (Proc.devRef .tc main_v125) = Cert.Net.h3 (y0 m c) (y1 m c) (y2 m c) (y3 m c) (y4 m c) (y9 m c) :=
  (dense3_v (V7 m c)).trans (by rw [v7_agg m c, v7_h m c, (L7 m c).a3, (L7 m c).a4]; rfl)

theorem v9_agg : V9 m c (Proc.devRef .tc main_v148) = Cert.Stages.agg (Cert.Net.h3 (y0 m c) (y1 m c) (y2 m c) (y3 m c) (y4 m c) (y9 m c)) (Cert.Stages.edgeRow0 (y9 m c)) (Cert.Stages.edgeRow1 (y9 m c)) (Cert.Stages.norm (F := Ideal) (Cert.Stages.edgeRow0 (y9 m c))) (Cert.Stages.norm (F := Ideal) (Cert.Stages.edgeRow1 (y9 m c))) :=
  (agg4_v (V8 m c)).trans (by rw [hval3 m c, (L8 m c).v1, (L8 m c).v3, (L8 m c).v16, (L8 m c).v22])
theorem v9_h : V9 m c (Proc.devRef .tc main_v125) = Cert.Net.h3 (y0 m c) (y1 m c) (y2 m c) (y3 m c) (y4 m c) (y9 m c) :=
  (agg4_keep_main_v125 (V8 m c)).trans (hval3 m c)
theorem hval4 : V10 m c (Proc.devRef .tc main_v158) = Cert.Net.h4 (y0 m c) (y1 m c) (y2 m c) (y3 m c) (y4 m c) (y9 m c) :=
  (dense4_v (V9 m c)).trans (by rw [v9_agg m c, v9_h m c, (L9 m c).a3, (L9 m c).a4]; rfl)

/-! ## The result -/

theorem v11_pool : V11 m c (Proc.devRef .tc main_v161) = Cert.Stages.pool (Cert.Net.h4 (y0 m c) (y1 m c) (y2 m c) (y3 m c) (y4 m c) (y9 m c)) (y10 m c) :=
  (pool_v161 (V10 m c)).trans (by rw [hval4 m c, (L10 m c).a10])
theorem v11_arg5 : V11 m c (Proc.devRef .tc main_arg5) = y5 m c := (pool_keep_main_arg5 (V10 m c)).trans (L10 m c).a5
theorem v11_arg6 : V11 m c (Proc.devRef .tc main_arg6) = y6 m c := (pool_keep_main_arg6 (V10 m c)).trans (L10 m c).a6
theorem v11_arg7 : V11 m c (Proc.devRef .tc main_arg7) = y7 m c := (pool_keep_main_arg7 (V10 m c)).trans (L10 m c).a7
theorem v11_arg8 : V11 m c (Proc.devRef .tc main_arg8) = y8 m c := (pool_keep_main_arg8 (V10 m c)).trans (L10 m c).a8

/-- THE REFERENCE'S RESULT: the fold of its whole line at the result buffer is the network's function of the arguments
    as launched. -/
theorem value : after ops (launchContents m c) (Proc.devRef .tc main_v170)
    = Cert.Net.out (y0 m c) (y1 m c) (y2 m c) (y3 m c) (y4 m c) (y5 m c) (y6 m c) (y7 m c) (y8 m c) (y9 m c) (y10 m c) := by
  rw [after_ops]
  refine (head_v170 (V11 m c)).trans ?_
  rw [v11_pool m c, v11_arg5 m c, v11_arg6 m c, v11_arg7 m c, v11_arg8 m c]
  rfl

end Cert.ReferenceIdeal.Hand

end
-- ==== Proof.RefArgs.lean ====
/-
  No operation of the reference's line writes one of the eleven argument arrays, so each argument's buffer holds its
  launch contents after the whole line: operation by operation, the buffer it writes is another one.
-/
import proofs.«102544_j712964571382_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The argument arrays' references. -/
abbrev argRefs : List (Ref sig .tc) :=
  [main_arg0, main_arg1, main_arg2, main_arg3, main_arg4, main_arg5, main_arg6, main_arg7, main_arg8, main_arg9, main_arg10]

set_option maxHeartbeats 4000000 in
theorem opsNorm_args (b : Ref sig .tc) (hb : b ∈ argRefs) :
    ∀ op ∈ (opsNorm : List (HloOp τ sig (Elt F))), Proc.devRef (τ := τ) .tc b ∉ op.writes := by
  simp only [argRefs, List.mem_cons, List.not_mem_nil, or_false] at hb
  rcases hb with rfl | rfl | rfl | rfl | rfl | rfl | rfl | rfl | rfl | rfl | rfl <;>
  exact List.forall_iff_forall_mem.mp (by
    simp only [opsNorm, List.Forall, nullary_writes, unary_writes, binary_writes, ternary_writes, quaternary_writes,
      reshape_writes, binaryIndexed_writes, Finset.mem_singleton]
    repeat' apply And.intro
    all_goals exact devRef_ne_of_ne (by decide))

set_option maxHeartbeats 4000000 in
theorem opsEmbed_args (b : Ref sig .tc) (hb : b ∈ argRefs) :
    ∀ op ∈ (opsEmbed : List (HloOp τ sig (Elt F))), Proc.devRef (τ := τ) .tc b ∉ op.writes := by
  simp only [argRefs, List.mem_cons, List.not_mem_nil, or_false] at hb
  rcases hb with rfl | rfl | rfl | rfl | rfl | rfl | rfl | rfl | rfl | rfl | rfl <;>
  exact List.forall_iff_forall_mem.mp (by
    simp only [opsEmbed, List.Forall, nullary_writes, unary_writes, binary_writes, ternary_writes, quaternary_writes,
      reshape_writes, binaryIndexed_writes, Finset.mem_singleton]
    repeat' apply And.intro
    all_goals exact devRef_ne_of_ne (by decide))

set_option maxHeartbeats 4000000 in
theorem opsAgg1_args (b : Ref sig .tc) (hb : b ∈ argRefs) :
    ∀ op ∈ (opsAgg1 : List (HloOp τ sig (Elt F))), Proc.devRef (τ := τ) .tc b ∉ op.writes := by
  simp only [argRefs, List.mem_cons, List.not_mem_nil, or_false] at hb
  rcases hb with rfl | rfl | rfl | rfl | rfl | rfl | rfl | rfl | rfl | rfl | rfl <;>
  exact List.forall_iff_forall_mem.mp (by
    simp only [opsAgg1, List.Forall, nullary_writes, unary_writes, binary_writes, ternary_writes, quaternary_writes,
      reshape_writes, binaryIndexed_writes, Finset.mem_singleton]
    repeat' apply And.intro
    all_goals exact devRef_ne_of_ne (by decide))

set_option maxHeartbeats 4000000 in
theorem opsDense1_args (b : Ref sig .tc) (hb : b ∈ argRefs) :
    ∀ op ∈ (opsDense1 : List (HloOp τ sig (Elt F))), Proc.devRef (τ := τ) .tc b ∉ op.writes := by
  simp only [argRefs, List.mem_cons, List.not_mem_nil, or_false] at hb
  rcases hb with rfl | rfl | rfl | rfl | rfl | rfl | rfl | rfl | rfl | rfl | rfl <;>
  exact List.forall_iff_forall_mem.mp (by
    simp only [opsDense1, List.Forall, nullary_writes, unary_writes, binary_writes, ternary_writes, quaternary_writes,
      reshape_writes, binaryIndexed_writes, Finset.mem_singleton]
    repeat' apply And.intro
    all_goals exact devRef_ne_of_ne (by decide))

set_option maxHeartbeats 4000000 in
theorem opsAgg2_args (b : Ref sig .tc) (hb : b ∈ argRefs) :
    ∀ op ∈ (opsAgg2 : List (HloOp τ sig (Elt F))), Proc.devRef (τ := τ) .tc b ∉ op.writes := by
  simp only [argRefs, List.mem_cons, List.not_mem_nil, or_false] at hb
  rcases hb with rfl | rfl | rfl | rfl | rfl | rfl | rfl | rfl | rfl | rfl | rfl <;>
  exact List.forall_iff_forall_mem.mp (by
    simp only [opsAgg2, List.Forall, nullary_writes, unary_writes, binary_writes, ternary_writes, quaternary_writes,
      reshape_writes, binaryIndexed_writes, Finset.mem_singleton]
    repeat' apply And.intro
    all_goals exact devRef_ne_of_ne (by decide))

set_option maxHeartbeats 4000000 in
theorem opsDense2_args (b : Ref sig .tc) (hb : b ∈ argRefs) :
    ∀ op ∈ (opsDense2 : List (HloOp τ sig (Elt F))), Proc.devRef (τ := τ) .tc b ∉ op.writes := by
  simp only [argRefs, List.mem_cons, List.not_mem_nil, or_false] at hb
  rcases hb with rfl | rfl | rfl | rfl | rfl | rfl | rfl | rfl | rfl | rfl | rfl <;>
  exact List.forall_iff_forall_mem.mp (by
    simp only [opsDense2, List.Forall, nullary_writes, unary_writes, binary_writes, ternary_writes, quaternary_writes,
      reshape_writes, binaryIndexed_writes, Finset.mem_singleton]
    repeat' apply And.intro
    all_goals exact devRef_ne_of_ne (by decide))

set_option maxHeartbeats 4000000 in
theorem opsAgg3_args (b : Ref sig .tc) (hb : b ∈ argRefs) :
    ∀ op ∈ (opsAgg3 : List (HloOp τ sig (Elt F))), Proc.devRef (τ := τ) .tc b ∉ op.writes := by
  simp only [argRefs, List.mem_cons, List.not_mem_nil, or_false] at hb
  rcases hb with rfl | rfl | rfl | rfl | rfl | rfl | rfl | rfl | rfl | rfl | rfl <;>
  exact List.forall_iff_forall_mem.mp (by
    simp only [opsAgg3, List.Forall, nullary_writes, unary_writes, binary_writes, ternary_writes, quaternary_writes,
      reshape_writes, binaryIndexed_writes, Finset.mem_singleton]
    repeat' apply And.intro
    all_goals exact devRef_ne_of_ne (by decide))

set_option maxHeartbeats 4000000 in
theorem opsDense3_args (b : Ref sig .tc) (hb : b ∈ argRefs) :
    ∀ op ∈ (opsDense3 : List (HloOp τ sig (Elt F))), Proc.devRef (τ := τ) .tc b ∉ op.writes := by
  simp only [argRefs, List.mem_cons, List.not_mem_nil, or_false] at hb
  rcases hb with rfl | rfl | rfl | rfl | rfl | rfl | rfl | rfl | rfl | rfl | rfl <;>
  exact List.forall_iff_forall_mem.mp (by
    simp only [opsDense3, List.Forall, nullary_writes, unary_writes, binary_writes, ternary_writes, quaternary_writes,
      reshape_writes, binaryIndexed_writes, Finset.mem_singleton]
    repeat' apply And.intro
    all_goals exact devRef_ne_of_ne (by decide))

set_option maxHeartbeats 4000000 in
theorem opsAgg4_args (b : Ref sig .tc) (hb : b ∈ argRefs) :
    ∀ op ∈ (opsAgg4 : List (HloOp τ sig (Elt F))), Proc.devRef (τ := τ) .tc b ∉ op.writes := by
  simp only [argRefs, List.mem_cons, List.not_mem_nil, or_false] at hb
  rcases hb with rfl | rfl | rfl | rfl | rfl | rfl | rfl | rfl | rfl | rfl | rfl <;>
  exact List.forall_iff_forall_mem.mp (by
    simp only [opsAgg4, List.Forall, nullary_writes, unary_writes, binary_writes, ternary_writes, quaternary_writes,
      reshape_writes, binaryIndexed_writes, Finset.mem_singleton]
    repeat' apply And.intro
    all_goals exact devRef_ne_of_ne (by decide))

set_option maxHeartbeats 4000000 in
theorem opsDense4_args (b : Ref sig .tc) (hb : b ∈ argRefs) :
    ∀ op ∈ (opsDense4 : List (HloOp τ sig (Elt F))), Proc.devRef (τ := τ) .tc b ∉ op.writes := by
  simp only [argRefs, List.mem_cons, List.not_mem_nil, or_false] at hb
  rcases hb with rfl | rfl | rfl | rfl | rfl | rfl | rfl | rfl | rfl | rfl | rfl <;>
  exact List.forall_iff_forall_mem.mp (by
    simp only [opsDense4, List.Forall, nullary_writes, unary_writes, binary_writes, ternary_writes, quaternary_writes,
      reshape_writes, binaryIndexed_writes, Finset.mem_singleton]
    repeat' apply And.intro
    all_goals exact devRef_ne_of_ne (by decide))

set_option maxHeartbeats 4000000 in
theorem opsPool_args (b : Ref sig .tc) (hb : b ∈ argRefs) :
    ∀ op ∈ (opsPool : List (HloOp τ sig (Elt F))), Proc.devRef (τ := τ) .tc b ∉ op.writes := by
  simp only [argRefs, List.mem_cons, List.not_mem_nil, or_false] at hb
  rcases hb with rfl | rfl | rfl | rfl | rfl | rfl | rfl | rfl | rfl | rfl | rfl <;>
  exact List.forall_iff_forall_mem.mp (by
    simp only [opsPool, List.Forall, nullary_writes, unary_writes, binary_writes, ternary_writes, quaternary_writes,
      reshape_writes, binaryIndexed_writes, Finset.mem_singleton]
    repeat' apply And.intro
    all_goals exact devRef_ne_of_ne (by decide))

set_option maxHeartbeats 4000000 in
theorem opsHead_args (b : Ref sig .tc) (hb : b ∈ argRefs) :
    ∀ op ∈ (opsHead : List (HloOp τ sig (Elt F))), Proc.devRef (τ := τ) .tc b ∉ op.writes := by
  simp only [argRefs, List.mem_cons, List.not_mem_nil, or_false] at hb
  rcases hb with rfl | rfl | rfl | rfl | rfl | rfl | rfl | rfl | rfl | rfl | rfl <;>
  exact List.forall_iff_forall_mem.mp (by
    simp only [opsHead, List.Forall, nullary_writes, unary_writes, binary_writes, ternary_writes, quaternary_writes,
      reshape_writes, binaryIndexed_writes, Finset.mem_singleton]
    repeat' apply And.intro
    all_goals exact devRef_ne_of_ne (by decide))

/-- No operation of the whole line writes an argument. -/
theorem ops_args (b : Ref sig .tc) (hb : b ∈ argRefs) :
    ∀ op ∈ (ops : List (HloOp τ sig (Elt F))), Proc.devRef (τ := τ) .tc b ∉ op.writes := fun op h =>
  (List.mem_append.mp h).elim (opsNorm_args b hb op) fun h => (List.mem_append.mp h).elim (opsEmbed_args b hb op) fun h => (List.mem_append.mp h).elim (opsAgg1_args b hb op) fun h => (List.mem_append.mp h).elim (opsDense1_args b hb op) fun h => (List.mem_append.mp h).elim (opsAgg2_args b hb op) fun h => (List.mem_append.mp h).elim (opsDense2_args b hb op) fun h => (List.mem_append.mp h).elim (opsAgg3_args b hb op) fun h => (List.mem_append.mp h).elim (opsDense3_args b hb op) fun h => (List.mem_append.mp h).elim (opsAgg4_args b hb op) fun h => (List.mem_append.mp h).elim (opsDense4_args b hb op) fun h => (List.mem_append.mp h).elim (opsPool_args b hb op) fun h => opsHead_args b hb op h

/-- An argument's buffer holds its launch contents after the whole line. -/
theorem arg_kept (m : (ℓ : Loc nD τ sig) → Buf (Elt F) ℓ) (c : Dev nD) (b : Ref sig .tc) (hb : b ∈ argRefs) :
    after ops (launchContents m c) (Proc.devRef .tc b) = m ((c.tc : Thread nD τ).loc b) :=
  (after_of_forall_not_mem (ops : List (HloOp τ sig (Elt F))) (launchContents m c) (ops_args b hb)).trans rfl

end Cert.ReferenceIdeal.Hand

end
-- ==== Proof.RefValue.lean ====
/-
  The reference program's run with its result read: every weakly fair execution terminates, nothing faulting, with the
  result buffer at the network's function of the argument arrays as launched, and the arguments unchanged — the run of
  the line, its fold read at the result by the walk through the stretches and at each argument by "no operation writes
  it".
-/
import proofs.«102544_j712964571382_1_alg».proof.Proof.RefWalk
import proofs.«102544_j712964571382_1_alg».proof.Proof.RefArgs

noncomputable section

namespace Cert.ReferenceIdeal.Hand

open Cert.ReferenceIdeal Cert.ReferenceIdeal.Gen Idealize.ShloMosaic Idealize.ShloMosaic.TcCoe Idealize.SL.Sem Idealize.ShloMosaic.StableHlo

/-- The run, read. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v170)
        = Cert.Net.out (y0 m c) (y1 m c) (y2 m c) (y3 m c) (y4 m c) (y5 m c) (y6 m c) (y7 m c) (y8 m c) (y9 m c) (y10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨(h c main_v170).trans (value m c),
     (h c main_arg0).trans (arg_kept m c main_arg0 (by decide)),
     (h c main_arg1).trans (arg_kept m c main_arg1 (by decide)),
     (h c main_arg2).trans (arg_kept m c main_arg2 (by decide)),
     (h c main_arg3).trans (arg_kept m c main_arg3 (by decide)),
     (h c main_arg4).trans (arg_kept m c main_arg4 (by decide)),
     (h c main_arg5).trans (arg_kept m c main_arg5 (by decide)),
     (h c main_arg6).trans (arg_kept m c main_arg6 (by decide)),
     (h c main_arg7).trans (arg_kept m c main_arg7 (by decide)),
     (h c main_arg8).trans (arg_kept m c main_arg8 (by decide)),
     (h c main_arg9).trans (arg_kept m c main_arg9 (by decide)),
     (h c main_arg10).trans (arg_kept m c main_arg10 (by decide))⟩)
    (run_after m ρ)

end Cert.ReferenceIdeal.Hand

end
-- ==== Proof.lean ====
/-
  The certificate's claims.

  The kernel program is six launches (an embedding, four graph-convolution dense halves, a readout head) among host
  operations that count degrees, pass messages along the edges and pool per graph; the reference is the same network
  written as one line of host operations. Read at the exact values, where a change of float format is the identity and
  a matrix-unit product into zeros is the plain sum over the contracted index, both end with the result buffer at one
  function of the eleven argument arrays, `Cert.Net.out`:
  * each launch's result array is its dense stage of the arrays it reads, tile by tile over the row grid
    (Proof/Region0 … Region5), and the generated fold through launches and stretches carries the node features to the
    last launch (Proof/KernelWalk) under the run of the whole program (Proof/KernelRun);
  * the reference's line, cut into twelve stretches, is read the same way (Proof/RefRun, RefWalk, RefValue).
  The three frames are the two generated frame runs and the reference's run with its result dropped; the idealization
  rewrote nothing, so its conjunct is trivial.
-/
import proofs.«102544_j712964571382_1_alg».proof.Defs
import proofs.«102544_j712964571382_1_alg».proof.Proof.Gen.Kernel
import proofs.«102544_j712964571382_1_alg».proof.Proof.Gen.Kernel.Skeleton
import proofs.«102544_j712964571382_1_alg».proof.Proof.Gen.Kernel.Launch
import proofs.«102544_j712964571382_1_alg».proof.Proof.Gen.Kernel.Points
import proofs.«102544_j712964571382_1_alg».proof.Proof.Gen.Kernel.Frame
import proofs.«102544_j712964571382_1_alg».proof.Proof.Gen.KernelIdeal
import proofs.«102544_j712964571382_1_alg».proof.Proof.Gen.KernelIdeal.Skeleton
import proofs.«102544_j712964571382_1_alg».proof.Proof.Gen.KernelIdeal.Launch
import proofs.«102544_j712964571382_1_alg».proof.Proof.Gen.KernelIdeal.Points
import proofs.«102544_j712964571382_1_alg».proof.Proof.Gen.KernelIdeal.Frame
import proofs.«102544_j712964571382_1_alg».proof.Proof.Gen.ReferenceIdeal
import proofs.«102544_j712964571382_1_alg».proof.Proof.Gen.Pre_finite_inputs
import proofs.«102544_j712964571382_1_alg».proof.Proof.KernelRun
import proofs.«102544_j712964571382_1_alg».proof.Proof.KernelWalk
import proofs.«102544_j712964571382_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run m ρ)

/-- At the exact values both programs' result buffers end at the network's function of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Net.out (Cert.KernelIdeal.Walk.x0 m c) (Cert.KernelIdeal.Walk.x1 m c) (Cert.KernelIdeal.Walk.x2 m c) (Cert.KernelIdeal.Walk.x3 m c) (Cert.KernelIdeal.Walk.x4 m c) (Cert.KernelIdeal.Walk.x5 m c) (Cert.KernelIdeal.Walk.x6 m c) (Cert.KernelIdeal.Walk.x7 m c) (Cert.KernelIdeal.Walk.x8 m c) (Cert.KernelIdeal.Walk.x9 m c) (Cert.KernelIdeal.Walk.x10 m c), ?_, ?_⟩
  · exact (θ_run Cert.KernelIdeal.defs _ _).mono
      (fun r h c => ⟨(h c).1.trans (Cert.KernelIdeal.Walk.value m ρ c), (h c).2⟩) (Cert.KernelIdeal.ValueRun.run m ρ)
  · refine (θ_run Cert.ReferenceIdeal.defs _ _).mono (fun r h c => ⟨(h c).1.trans ?_, (h c).2⟩)
      (Cert.ReferenceIdeal.Hand.run m' ρ')
    obtain ⟨e0, e1, e2, e3, e4, e5, e6, e7, e8, e9, e10⟩ := hagree c
    show Cert.Net.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
